-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S1x1 : Shape := ⟨2, ![1, 1]⟩
abbrev S64x256 : Shape := ⟨2, ![64, 256]⟩
abbrev S8192 : Shape := ⟨1, ![8192]⟩
abbrev S8192x1 : Shape := ⟨2, ![8192, 1]⟩
abbrev S64 : Shape := ⟨1, ![64]⟩
abbrev S64x1 : Shape := ⟨2, ![64, 1]⟩
abbrev S1x64 : Shape := ⟨2, ![1, 64]⟩
abbrev S8192x64 : Shape := ⟨2, ![8192, 64]⟩
abbrev S1x8192x64 : Shape := ⟨3, ![1, 8192, 64]⟩
abbrev S1 : Shape := ⟨1, ![1]⟩
abbrev S1x1x1 : Shape := ⟨3, ![1, 1, 1]⟩
abbrev S_ : Shape := ⟨0, ![]⟩

abbrev nBuf : Space → Nat
  | .hbm => 18
  | .vmem => 12
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S8192x256, .f32⟩
  | .local _ .vmem, ⟨1, _⟩ => ⟨S64x256, .f32⟩
  | .local _ .vmem, ⟨2, _⟩ => ⟨S64x256, .f32⟩
  | .local _ .vmem, ⟨3, _⟩ => ⟨S1x1, .f32⟩
  | .local _ .vmem, ⟨4, _⟩ => ⟨S8192x256, .f32⟩
  | .local _ .vmem, ⟨5, _⟩ => ⟨S64x256, .f32⟩
  | .local _ .vmem, ⟨6, _⟩ => ⟨S64x256, .f32⟩
  | .local _ .vmem, ⟨7, _⟩ => ⟨S1x1, .f32⟩
  | .local _ .vmem, ⟨8, _⟩ => ⟨S8192x256, .f32⟩
  | .local _ .vmem, ⟨9, _⟩ => ⟨S64x256, .f32⟩
  | .local _ .vmem, ⟨10, _⟩ => ⟨S64x256, .f32⟩
  | .local _ .vmem, ⟨11, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc2_sem0_0 : DmaSem sig := 8
abbrev cc2_sem1_0 : DmaSem sig := 9
abbrev cc2_sem1_1 : DmaSem sig := 10
abbrev cc2_sem2_0 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8192x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S8192x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S8192x256_S8192x256_0_0 : ∀ a, (![0, 0] : Fin 2 → Nat) a + S8192x256.size a ≤ S8192x256.size a
  h_S8192x256 : 0 < S8192x256.numel
  inb_S64x256_S64x256_0_0 : ∀ a, (![0, 0] : Fin 2 → Nat) a + S64x256.size a ≤ S64x256.size a
  h_S64x256 : 0 < S64x256.numel
  reduces_S8192x256_S8192 : S8192x256.Reduces [1] S8192
  shapeCasts_S8192_S8192x1 : S8192.ShapeCasts S8192x1
  reduces_S64x256_S64 : S64x256.Reduces [1] S64
  shapeCasts_S64_S64x1 : S64.ShapeCasts S64x1
  transposes_S64x1_p1_0_S1x64 : S64x1.Transposes [1, 0] S1x64
  bitsLt_bf16_f32 : FTy.bits .bf16 < FTy.bits .f32
  broadcasts_S8192x1_S8192x64 : S8192x1.Broadcasts S8192x64
  broadcasts_S1x64_S8192x64 : S1x64.Broadcasts S8192x64
  iota_S8192x64_d0_w32 : S8192x64.Iotas .tc 32 [0]
  iota_S8192x64_d1_w32 : S8192x64.Iotas .tc 32 [1]
  shapeCasts_S8192x64_S1x8192x64 : S8192x64.ShapeCasts S1x8192x64
  reduces_S1x8192x64_S1 : S1x8192x64.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S_ : S1x1.ShapeCasts S_
  dot_S8192x256_S64x256_S8192x64_1_1_0_0_n_n_wf : DotDims.WF S8192x256 S64x256 S8192x64 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S8192x256.size a
  hwx0_1 : ∀ i : grid0.Coords, EltTy.bits .f32 = 32 ∨ (Rect.block (s := S8192x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S8192x256.size a
  hwx1_0 : ∀ i : grid1.Coords, EltTy.bits .f32 = 32 ∨ (Rect.block (s := S8192x256) S8192x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S8192x256.size a
  hwx1_1 : ∀ i : grid1.Coords, EltTy.bits .f32 = 32 ∨ (Rect.block (s := S8192x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x256.size a ≤ S8192x256.size a
  hwx2_0 : ∀ i : grid2.Coords, EltTy.bits .f32 = 32 ∨ (Rect.block (s := S8192x256) S8192x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S8192x256.size a
  hwx2_1 : ∀ i : grid2.Coords, EltTy.bits .f32 = 32 ∨ (Rect.block (s := S8192x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S8192x256_S64x256_S8192x64_1_1_0_0_n_n : DotDims S8192x256 S64x256 S8192x64 where
  lhsContracting := [1]
  rhsContracting := [1]
  lhsNonContracting := [0]
  rhsNonContracting := [0]
  lhsBatch := []
  rhsBatch := []
  wf := dot_S8192x256_S64x256_S8192x64_1_1_0_0_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8192x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S64x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S8192x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S64x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 120
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S256x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8192x8192, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x256, .f32⟩
  | .hbm, ⟨41, _⟩ => ⟨S_, .f32⟩
  | .hbm, ⟨42, _⟩ => ⟨S8192, .f32⟩
  | .hbm, ⟨43, _⟩ => ⟨S8192x256, .f32⟩
  | .hbm, ⟨44, _⟩ => ⟨S_, .f32⟩
  | .hbm, ⟨45, _⟩ => ⟨S8192, .f32⟩
  | .hbm, ⟨46, _⟩ => ⟨S256x8192, .f32⟩
  | .hbm, ⟨47, _⟩ => ⟨S8192x8192, .f32⟩
  | .hbm, ⟨48, _⟩ => ⟨S8192x1, .f32⟩
  | .hbm, ⟨49, _⟩ => ⟨S1x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8192x256, .f32⟩
  | .hbm, ⟨80, _⟩ => ⟨S_, .f32⟩
  | .hbm, ⟨81, _⟩ => ⟨S8192, .f32⟩
  | .hbm, ⟨82, _⟩ => ⟨S8192x256, .f32⟩
  | .hbm, ⟨83, _⟩ => ⟨S_, .f32⟩
  | .hbm, ⟨84, _⟩ => ⟨S8192, .f32⟩
  | .hbm, ⟨85, _⟩ => ⟨S256x8192, .f32⟩
  | .hbm, ⟨86, _⟩ => ⟨S8192x8192, .f32⟩
  | .hbm, ⟨87, _⟩ => ⟨S8192x1, .f32⟩
  | .hbm, ⟨88, _⟩ => ⟨S1x8192, .f32⟩
  | .hbm, ⟨89, _⟩ => ⟨S8192x8192, .f32⟩
  | .hbm, ⟨90, _⟩ => ⟨S8192x8192, .f32⟩
  | .hbm, ⟨91, _⟩ => ⟨S8192x8192, .f32⟩
  | .hbm, ⟨92, _⟩ => ⟨S_, .f32⟩
  | .hbm, ⟨93, _⟩ => ⟨S8192x8192, .f32⟩
  | .hbm, ⟨94, _⟩ => ⟨S8192x8192, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S8192x8192, .f32⟩
  | .hbm, ⟨99, _⟩ => ⟨S8192x8192, .f32⟩
  | .hbm, ⟨100, _⟩ => ⟨S8192x8192, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S8192x8192, .f32⟩
  | .hbm, ⟨108, _⟩ => ⟨S_, .f32⟩
  | .hbm, ⟨109, _⟩ => ⟨S8192x8192, .f32⟩
  | .hbm, ⟨110, _⟩ => ⟨S8192x8192, .f32⟩
  | .hbm, ⟨111, _⟩ => ⟨S8192x8192, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_cst_10 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_12 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_13 : Ref sig .tc := ⟨.hbm, 62, rfl⟩
abbrev main_v46 : Ref sig .tc := ⟨.hbm, 63, rfl⟩
abbrev main_cst_14 : Ref sig .tc := ⟨.hbm, 64, rfl⟩
abbrev main_v47 : Ref sig .tc := ⟨.hbm, 65, rfl⟩
abbrev main_cst_15 : Ref sig .tc := ⟨.hbm, 66, rfl⟩
abbrev main_v48 : Ref sig .tc := ⟨.hbm, 67, rfl⟩
abbrev main_v49 : Ref sig .tc := ⟨.hbm, 68, rfl⟩
abbrev main_cst_16 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_17 : Ref sig .tc := ⟨.hbm, 73, rfl⟩
abbrev main_v53 : Ref sig .tc := ⟨.hbm, 74, rfl⟩
abbrev main_cst_18 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_19 : Ref sig .tc := ⟨.hbm, 80, rfl⟩
abbrev main_v58 : Ref sig .tc := ⟨.hbm, 81, rfl⟩
abbrev main_v59 : Ref sig .tc := ⟨.hbm, 82, rfl⟩
abbrev main_cst_20 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_21 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_22 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_23 : Ref sig .tc := ⟨.hbm, 101, rfl⟩
abbrev main_v75 : Ref sig .tc := ⟨.hbm, 102, rfl⟩
abbrev main_cst_24 : Ref sig .tc := ⟨.hbm, 103, rfl⟩
abbrev main_v76 : Ref sig .tc := ⟨.hbm, 104, rfl⟩
abbrev main_cst_25 : Ref sig .tc := ⟨.hbm, 105, rfl⟩
abbrev main_v77 : Ref sig .tc := ⟨.hbm, 106, rfl⟩
abbrev main_v78 : Ref sig .tc := ⟨.hbm, 107, rfl⟩
abbrev main_cst_26 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_27 : Ref sig .tc := ⟨.hbm, 112, rfl⟩
abbrev main_v82 : Ref sig .tc := ⟨.hbm, 113, rfl⟩
abbrev main_cst_28 : Ref sig .tc := ⟨.hbm, 114, rfl⟩
abbrev main_v83 : Ref sig .tc := ⟨.hbm, 115, rfl⟩
abbrev main_v84 : Ref sig .tc := ⟨.hbm, 116, rfl⟩
abbrev main_cst_29 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBBase.lean ====
/-
  What the three pairwise-sum launches share before any of them is run: at which grid point the accumulator is
  reset (the branch `program_id == 0` of the body, decided once over the 128 points of each grid), and the names of
  the staging memrefs the pipeline hands the body at a point.
-/
import proofs.«136964_j73426760892841_1_alg».proof.Proof.Gen.Kernel.Launch
import proofs.«136964_j73426760892841_1_alg».proof.Proof.Gen.Kernel.Skeleton
import proofs.«136964_j73426760892841_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Launch 0 -/

/-- The body's branch at launch 0: the grid coordinate is 0 (the scalar chain of the printed text). -/
abbrev cond0 (i : grid0.Coords) : Prop := (Scalar.cmpi .ne (Scalar.extui (Scalar.cmpi .eq (BitVec.ofNat 32 (i 0).val) 0#32)) 0#32) = 1#1
/-- It is taken at the first of the 128 points only. -/
theorem hcond0 : ∀ t : Fin cfg0.N, cond0 (grid0.coords t) ↔ t.val % 128 = 0 :=
  (by decide +kernel : ∀ t : Fin grid0.N, cond0 (grid0.coords t) ↔ t.val % 128 = 0)

/-- One staging buffer of the (1,1) accumulator window, through which its contents are stated. -/
abbrev VO0 : View sig .tc .vmem S1x1 .f32 := (Memref.whole cc0_stg2_0 : Memref sig .tc .vmem S1x1 .f32).view
/-- The staging memrefs at point `t`, as the pipeline passes them, and their wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

/-! ## Launch 1 -/

/-- The body's branch at launch 1: the grid coordinate is 0 (the scalar chain of the printed text). -/
abbrev cond1 (i : grid1.Coords) : Prop := (Scalar.cmpi .ne (Scalar.extui (Scalar.cmpi .eq (BitVec.ofNat 32 (i 0).val) 0#32)) 0#32) = 1#1
/-- It is taken at the first of the 128 points only. -/
theorem hcond1 : ∀ t : Fin cfg1.N, cond1 (grid1.coords t) ↔ t.val % 128 = 0 :=
  (by decide +kernel : ∀ t : Fin grid1.N, cond1 (grid1.coords t) ↔ t.val % 128 = 0)

/-- One staging buffer of the (1,1) accumulator window, through which its contents are stated. -/
abbrev VO1 : View sig .tc .vmem S1x1 .f32 := (Memref.whole cc1_stg2_0 : Memref sig .tc .vmem S1x1 .f32).view
/-- The staging memrefs at point `t`, as the pipeline passes them, and their wholeness. -/
abbrev ms1_0 (t : Fin cfg1.N) : Memref sig .tc .vmem S8192x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-! ## Launch 2 -/

/-- The body's branch at launch 2: the grid coordinate is 0 (the scalar chain of the printed text). -/
abbrev cond2 (i : grid2.Coords) : Prop := (Scalar.cmpi .ne (Scalar.extui (Scalar.cmpi .eq (BitVec.ofNat 32 (i 0).val) 0#32)) 0#32) = 1#1
/-- It is taken at the first of the 128 points only. -/
theorem hcond2 : ∀ t : Fin cfg2.N, cond2 (grid2.coords t) ↔ t.val % 128 = 0 :=
  (by decide +kernel : ∀ t : Fin grid2.N, cond2 (grid2.coords t) ↔ t.val % 128 = 0)

/-- One staging buffer of the (1,1) accumulator window, through which its contents are stated. -/
abbrev VO2 : View sig .tc .vmem S1x1 .f32 := (Memref.whole cc2_stg2_0 : Memref sig .tc .vmem S1x1 .f32).view
/-- The staging memrefs at point `t`, as the pipeline passes them, and their wholeness. -/
abbrev ms2_0 (t : Fin cfg2.N) : Memref sig .tc .vmem S8192x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

end Cert.Kernel.Hand

end
-- ==== Proof.KBRun0A.lean ====
/-
  Launch 0, the first grid point (the accumulator is reset, then added to): the body run once on whole
  staging memrefs. The inputs' memrefs are read and left as they were; what the accumulator's memref ends with is the
  list of the body's stores into it, found by the run itself.
-/
import proofs.«136964_j73426760892841_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun0_A (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond0 i)
    (x0 : Vec F S8192x256 .f32) (x1 : Vec F S64x256 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pairwise_sum_kernel i arg1 harg1 arg2 harg2 arg3 harg3) K } := by
  refine ⟨?_, fun E K => ?run⟩
  case run =>
    simp only [cc0__pairwise_sum_kernel_eq_skeleton]; unfold cc0__pairwise_sum_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KBRun0B.lean ====
/-
  Launch 0, a later grid point (the accumulator is read as the point before left it, then added to): the body run once on whole
  staging memrefs. The inputs' memrefs are read and left as they were; what the accumulator's memref ends with is the
  list of the body's stores into it, found by the run itself.
-/
import proofs.«136964_j73426760892841_1_alg».proof.Proof.KBRun0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun0_B (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond0 i)
    (x0 : Vec F S8192x256 .f32) (x1 : Vec F S64x256 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pairwise_sum_kernel i arg1 harg1 arg2 harg2 arg3 harg3) K } := by
  refine ⟨?_, fun E K => ?run⟩
  case run =>
    simp only [cc0__pairwise_sum_kernel_eq_skeleton]; unfold cc0__pairwise_sum_kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KBRegion0.lean ====
/-
  Launch 0 at any contents `V` of the core's buffers when the launch is entered: the blocks its windows stage, what
  the accumulator's staging buffer holds after each grid point — the first point's run at point 0, a later point's
  run over what the point before left —, the proof data of the pipeline (the two input windows are one array, held at the two halves of its share), and the body obligation at every point.
-/
import proofs.«136964_j73426760892841_1_alg».proof.Proof.KBRun0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator's staging buffer -/

/-- The first point's stores cover the (1,1) buffer. -/
theorem cover0_A (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond0 i)
    (x0 : Vec F S8192x256 .f32) (x1 : Vec F S64x256 .f32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y
/-- What the first point leaves: its stores read back. -/
def out0_A (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond0 i)
    (x0 : Vec F S8192x256 .f32) (x1 : Vec F S64x256 .f32) : Vec F S1x1 .f32 :=
  VO0.read (Elt F) (VO0.writes (Elt F) VO0.junk (kernelRun0_A c i arg1 harg1 arg2 harg2 arg3 harg3 hc0 x0 x1).1)
/-- A later point's stores cover the (1,1) buffer. -/
theorem cover0_B (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond0 i)
    (x0 : Vec F S8192x256 .f32) (x1 : Vec F S64x256 .f32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y
/-- What a later point leaves, over the running contents `xo2`. -/
def out0_B (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond0 i)
    (x0 : Vec F S8192x256 .f32) (x1 : Vec F S64x256 .f32) (xo2 : Vec F S1x1 .f32) : Vec F S1x1 .f32 :=
  VO0.read (Elt F) (VO0.writes (Elt F) VO0.junk (kernelRun0_B c i arg1 harg1 arg2 harg2 arg3 harg3 hc0 x0 x1 xo2).1)

/-! ## The accumulation over the grid -/

/-- What the accumulator's staging buffer holds after the body at position `n`. -/
def outsAt0 (c : Dev nD) : (n : ℕ) → n < cfg0.N → Vec F S1x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 128 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 128 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 128 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body each input's buffer at its block and the accumulator's at the
    accumulation; the class's invariant (the scoped rest and the generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the accumulator's buffer holds what the body left at the point before: it is written back at the
    last point only. -/
theorem before0_2_B (c : Dev nD) (t : Fin cfg0.N) (h0 : ¬t.val % 128 = 0) (d) :
    (dat0 V c).before 2 t d = outsAt0 V c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks; at the first point the accumulator's buffer may hold
    anything, at a later one what the point before left; the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 128 := lt_of_lt_of_eq t.isLt (show cfg0.N = 128 from N_0)
  by_cases h0 : t.val % 128 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBRun1A.lean ====
/-
  Launch 1, the first grid point (the accumulator is reset, then added to): the body run once on whole
  staging memrefs. The inputs' memrefs are read and left as they were; what the accumulator's memref ends with is the
  list of the body's stores into it, found by the run itself.
-/
import proofs.«136964_j73426760892841_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun1_A (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond1 i)
    (x0 : Vec F S8192x256 .f32) (x1 : Vec F S64x256 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pairwise_sum_kernel i arg1 harg1 arg2 harg2 arg3 harg3) K } := by
  refine ⟨?_, fun E K => ?run⟩
  case run =>
    simp only [cc1__pairwise_sum_kernel_eq_skeleton]; unfold cc1__pairwise_sum_kernel_skel
    simp only [k1_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KBRun1B.lean ====
/-
  Launch 1, a later grid point (the accumulator is read as the point before left it, then added to): the body run once on whole
  staging memrefs. The inputs' memrefs are read and left as they were; what the accumulator's memref ends with is the
  list of the body's stores into it, found by the run itself.
-/
import proofs.«136964_j73426760892841_1_alg».proof.Proof.KBRun1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun1_B (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond1 i)
    (x0 : Vec F S8192x256 .f32) (x1 : Vec F S64x256 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pairwise_sum_kernel i arg1 harg1 arg2 harg2 arg3 harg3) K } := by
  refine ⟨?_, fun E K => ?run⟩
  case run =>
    simp only [cc1__pairwise_sum_kernel_eq_skeleton]; unfold cc1__pairwise_sum_kernel_skel
    simp only [k1_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KBRegion1.lean ====
/-
  Launch 1 at any contents `V` of the core's buffers when the launch is entered: the blocks its windows stage, what
  the accumulator's staging buffer holds after each grid point — the first point's run at point 0, a later point's
  run over what the point before left —, the proof data of the pipeline (the two input windows are one array, held at the two halves of its share), and the body obligation at every point.
-/
import proofs.«136964_j73426760892841_1_alg».proof.Proof.KBRun1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator's staging buffer -/

/-- The first point's stores cover the (1,1) buffer. -/
theorem cover1_A (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond1 i)
    (x0 : Vec F S8192x256 .f32) (x1 : Vec F S64x256 .f32) (y : S1x1.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1x1.size (by sl_kernel_rfl) y
/-- What the first point leaves: its stores read back. -/
def out1_A (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond1 i)
    (x0 : Vec F S8192x256 .f32) (x1 : Vec F S64x256 .f32) : Vec F S1x1 .f32 :=
  VO1.read (Elt F) (VO1.writes (Elt F) VO1.junk (kernelRun1_A c i arg1 harg1 arg2 harg2 arg3 harg3 hc0 x0 x1).1)
/-- A later point's stores cover the (1,1) buffer. -/
theorem cover1_B (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond1 i)
    (x0 : Vec F S8192x256 .f32) (x1 : Vec F S64x256 .f32) (xo2 : Vec F S1x1 .f32) (y : S1x1.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1x1.size (by sl_kernel_rfl) y
/-- What a later point leaves, over the running contents `xo2`. -/
def out1_B (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond1 i)
    (x0 : Vec F S8192x256 .f32) (x1 : Vec F S64x256 .f32) (xo2 : Vec F S1x1 .f32) : Vec F S1x1 .f32 :=
  VO1.read (Elt F) (VO1.writes (Elt F) VO1.junk (kernelRun1_B c i arg1 harg1 arg2 harg2 arg3 harg3 hc0 x0 x1 xo2).1)

/-! ## The accumulation over the grid -/

/-- What the accumulator's staging buffer holds after the body at position `n`. -/
def outsAt1 (c : Dev nD) : (n : ℕ) → n < cfg1.N → Vec F S1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 128 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 128 = 0) :
    outsAt1 V c t.val t.isLt = out1_A c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 128 = 0) :
    outsAt1 V c t.val t.isLt = out1_B c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body each input's buffer at its block and the accumulator's at the
    accumulation; the class's invariant (the scoped rest and the generator register); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point the accumulator's buffer holds what the body left at the point before: it is written back at the
    last point only. -/
theorem before1_2_B (c : Dev nD) (t : Fin cfg1.N) (h0 : ¬t.val % 128 = 0) (d) :
    (dat1 V c).before 2 t d = outsAt1 V c (t.val - 1) (Nat.lt_of_le_of_lt (Nat.sub_le _ _) t.isLt) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; at the first point the accumulator's buffer may hold
    anything, at a later one what the point before left; the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 128 := lt_of_lt_of_eq t.isLt (show cfg1.N = 128 from N_1)
  by_cases h0 : t.val % 128 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBRun2A.lean ====
/-
  Launch 2, the first grid point (the accumulator is reset, then added to): the body run once on whole
  staging memrefs. The inputs' memrefs are read and left as they were; what the accumulator's memref ends with is the
  list of the body's stores into it, found by the run itself.
-/
import proofs.«136964_j73426760892841_1_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun2_A (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond2 i)
    (x0 : Vec F S8192x256 .f32) (x1 : Vec F S64x256 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pairwise_sum_kernel i arg1 harg1 arg2 harg2 arg3 harg3) K } := by
  refine ⟨?_, fun E K => ?run⟩
  case run =>
    simp only [cc2__pairwise_sum_kernel_eq_skeleton]; unfold cc2__pairwise_sum_kernel_skel
    simp only [k2_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KBRun2B.lean ====
/-
  Launch 2, a later grid point (the accumulator is read as the point before left it, then added to): the body run once on whole
  staging memrefs. The inputs' memrefs are read and left as they were; what the accumulator's memref ends with is the
  list of the body's stores into it, found by the run itself.
-/
import proofs.«136964_j73426760892841_1_alg».proof.Proof.KBRun2A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun2_B (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond2 i)
    (x0 : Vec F S8192x256 .f32) (x1 : Vec F S64x256 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pairwise_sum_kernel i arg1 harg1 arg2 harg2 arg3 harg3) K } := by
  refine ⟨?_, fun E K => ?run⟩
  case run =>
    simp only [cc2__pairwise_sum_kernel_eq_skeleton]; unfold cc2__pairwise_sum_kernel_skel
    simp only [k2_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Hand

end
-- ==== Proof.KBRegion2.lean ====
/-
  Launch 2 at any contents `V` of the core's buffers when the launch is entered: the blocks its windows stage, what
  the accumulator's staging buffer holds after each grid point — the first point's run at point 0, a later point's
  run over what the point before left —, the proof data of the pipeline, and the body obligation at every point.
-/
import proofs.«136964_j73426760892841_1_alg».proof.Proof.KBRun2B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator's staging buffer -/

/-- The first point's stores cover the (1,1) buffer. -/
theorem cover2_A (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond2 i)
    (x0 : Vec F S8192x256 .f32) (x1 : Vec F S64x256 .f32) (y : S1x1.Idx) :
    ∃ pc ∈ (kernelRun2_A c i arg1 harg1 arg2 harg2 arg3 harg3 hc0 x0 x1).1, y ∈ pc.1.set :=
  View.cover_of_tiledL (kernelRun2_A c i arg1 harg1 arg2 harg2 arg3 harg3 hc0 x0 x1).1 S1x1.size (by sl_kernel_rfl) y
/-- What the first point leaves: its stores read back. -/
def out2_A (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond2 i)
    (x0 : Vec F S8192x256 .f32) (x1 : Vec F S64x256 .f32) : Vec F S1x1 .f32 :=
  VO2.read (Elt F) (VO2.writes (Elt F) VO2.junk (kernelRun2_A c i arg1 harg1 arg2 harg2 arg3 harg3 hc0 x0 x1).1)
/-- A later point's stores cover the (1,1) buffer. -/
theorem cover2_B (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond2 i)
    (x0 : Vec F S8192x256 .f32) (x1 : Vec F S64x256 .f32) (xo2 : Vec F S1x1 .f32) (y : S1x1.Idx) :
    ∃ pc ∈ (kernelRun2_B c i arg1 harg1 arg2 harg2 arg3 harg3 hc0 x0 x1 xo2).1, y ∈ pc.1.set :=
  View.cover_of_tiledL (kernelRun2_B c i arg1 harg1 arg2 harg2 arg3 harg3 hc0 x0 x1 xo2).1 S1x1.size (by sl_kernel_rfl) y
/-- What a later point leaves, over the running contents `xo2`. -/
def out2_B (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond2 i)
    (x0 : Vec F S8192x256 .f32) (x1 : Vec F S64x256 .f32) (xo2 : Vec F S1x1 .f32) : Vec F S1x1 .f32 :=
  VO2.read (Elt F) (VO2.writes (Elt F) VO2.junk (kernelRun2_B c i arg1 harg1 arg2 harg2 arg3 harg3 hc0 x0 x1 xo2).1)

/-! ## The accumulation over the grid -/

/-- What the accumulator's staging buffer holds after the body at position `n`. -/
def outsAt2 (c : Dev nD) : (n : ℕ) → n < cfg2.N → Vec F S1x1 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 128 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

theorem outsAt2_A (c : Dev nD) (t : Fin cfg2.N) (h0 : t.val % 128 = 0) :
    outsAt2 V c t.val t.isLt = out2_A c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

theorem outsAt2_B (c : Dev nD) (t : Fin cfg2.N) (h0 : ¬t.val % 128 = 0) :
    outsAt2 V c t.val t.isLt = out2_B c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body each input's buffer at its block and the accumulator's at the
    accumulation; the class's invariant (the scoped rest and the generator register); nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point the accumulator's buffer holds what the body left at the point before: it is written back at the
    last point only. -/
theorem before2_2_B (c : Dev nD) (t : Fin cfg2.N) (h0 : ¬t.val % 128 = 0) (d) :
    (dat2 V c).before 2 t d = outsAt2 V c (t.val - 1) (Nat.lt_of_le_of_lt (Nat.sub_le _ _) t.isLt) := by
  have hN : t.val < 128 := lt_of_lt_of_eq t.isLt (show cfg2.N = 128 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' memrefs hold their blocks; at the first point the accumulator's buffer may hold
    anything, at a later one what the point before left; the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 128 := lt_of_lt_of_eq t.isLt (show cfg2.N = 128 from N_2)
  by_cases h0 : t.val % 128 = 0
  · rw [outsAt2_A V c t h0]
    unfold out2_A
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _)
  · rw [outsAt2_B V c t h0]
    simp only [before2_2_B V c t h0]
    unfold out2_B
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.SharedWindowsBits.lean ====
import proofs.«136964_j73426760892841_1_alg».proof.Proof.Gen.Kernel.Launch
import Idealize.ShloMosaic.Lib.Pipeline.Regions
import Idealize.ShloMosaic.Lib.Pipeline.RegionsLoop

/-! # One array read through two windows: dealing its full share between them

The first two pallas_calls each pass ONE array as both of the kernel's operands: window 0 keeps the whole array
resident, window 1 streams the same array block by block, and window 2 is the (1,1) output. The core's unscoped
buffers hold that array once, whole, at the full share, while the pipeline's windowed arrays hold it once PER
WINDOW. The two agree when the full share is cut in its two halves: window 0 holds the array at the left half,
window 1 at the right half, both at the same contents, and the output window holds its own array at the full share.

Entering the region, the buffer's full share is split into the halves; leaving it, the halves (which hold equal
contents, an input array never being written) are joined back. Every other unscoped buffer is untouched. -/

noncomputable section

namespace Cert.Kernel.Shared

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- A whole buffer held at the full share is that buffer held twice, at the two halves of the full share, at the
    same contents: the full share is the composite of its halves. -/
theorem full_eq_halves (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## pallas_call 0: windows 0 and 1 both on `main_arg0`, window 2 on `main_v0` -/

/-- The three windows sit on two distinct buffers: the shared operand and the output. -/
theorem image0 : Finset.univ.image (Pipeline.arrRef spec0) = {main_arg0, main_v0} := by decide

/-- Window 0 is an input: it holds its array at the share the proof data name, the left half. -/
theorem share0_0 (c : Dev nD) (dat : Pipeline.Dat τ (Elt F) Unit ℕ (UR sig nD τ) ℕ cfg0 c)
    (hq0 : dat.q 0 = fullShare.left) : dat.share 0 = fullShare.left := by
  unfold Pipeline.Dat.share; rw [if_neg (by decide)]; exact hq0
/-- Window 1 is an input: it holds its array at the share the proof data name, the right half. -/
theorem share0_1 (c : Dev nD) (dat : Pipeline.Dat τ (Elt F) Unit ℕ (UR sig nD τ) ℕ cfg0 c)
    (hq1 : dat.q 1 = fullShare.right) : dat.share 1 = fullShare.right := by
  unfold Pipeline.Dat.share; rw [if_neg (by decide)]; exact hq1
/-- Window 2 is the output: it holds its array at the full share, whatever the proof data name for it. -/
theorem share0_2 (c : Dev nD) (dat : Pipeline.Dat τ (Elt F) Unit ℕ (UR sig nD τ) ℕ cfg0 c) :
    dat.share 2 = fullShare := by
  unfold Pipeline.Dat.share; rw [if_pos (by decide)]

/-- ENTRY. The core's unscoped buffers at contents `V` are the three windows' arrays — the shared operand at the
    left half for window 0 and at the right half for window 1, the output at the full share, each at what `V`
    holds there — and the unscoped buffers that are no window's array. -/
theorem split0 (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (A : (w : Fin cfg0.W) → Buf (Elt F) ((cfg0.win w).arr.view.loc (c : Thread nD τ)))
    (hA : ∀ w, A w = V (Pipeline.arrRef spec0 w)) :
    (unscopedBufs c V : sProp 𝕄) ⊢ iprop(dat.arrays A ∗ Pipeline.unscopedRest spec0 c V) := by
  have h : (unscopedBufs c V : sProp 𝕄) = iprop(Pipeline.arrBufs spec0 c V ∗ Pipeline.unscopedRest spec0 c V) :=
    Pipeline.unscopedBufs_split₀ cfgs 0 winFacts₀0.arr_unscoped c V
  rw [h]
  refine sep_mono ?_ .rfl
  unfold Pipeline.arrBufs Pipeline.Dat.arrays
  rw [image0, bigSep_W0, BI.bigSep_insert (by decide : main_arg0 ∉ ({main_v0} : Finset (Ref sig .tc))), BI.bigSep_singleton]
  -- windows 0 and 1 are the same whole array, so one rewrite serves both
  rw [(arr_whole0 0).set_eq_univ, (arr_whole0 2).set_eq_univ]
  rw [share0_0 c dat hq0, share0_1 c dat hq1, share0_2 c dat, hA 0, hA 1, hA 2]
  -- the operand's full share is cut in its halves; the output's buffer passes as it is
  refine (sep_mono (full_eq_halves _ _).1 .rfl).trans ?_
  exact sep_assoc.1

/-- EXIT. The three windows' arrays at contents `A` and the unscoped rest at `V` are the core's unscoped buffers
    at any contents `V'` that holds `A` at the windows' arrays and agrees with `V` elsewhere. Windows 0 and 1 then
    hold the shared operand at ONE contents (`V'` there), which is what lets the two halves join to the full share. -/
theorem join0 (c : Dev nD) (dat : Pipeline.Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (A : (w : Fin cfg0.W) → Buf (Elt F) ((cfg0.win w).arr.view.loc (c : Thread nD τ)))
    (hA : ∀ w, A w = V' (Pipeline.arrRef spec0 w))
    (hrest : ∀ b, b ∉ Finset.univ.image (Pipeline.arrRef spec0) → V' b = V b) :
    iprop(dat.arrays A ∗ Pipeline.unscopedRest spec0 c V) ⊢ (unscopedBufs c V' : sProp 𝕄) := by
  have h : (unscopedBufs c V' : sProp 𝕄) = iprop(Pipeline.arrBufs spec0 c V' ∗ Pipeline.unscopedRest spec0 c V') :=
    Pipeline.unscopedBufs_split₀ cfgs 0 winFacts₀0.arr_unscoped c V'
  rw [h]
  refine sep_mono ?_ (Entails.of_eq ?_)
  · unfold Pipeline.arrBufs Pipeline.Dat.arrays
    rw [image0, bigSep_W0, BI.bigSep_insert (by decide : main_arg0 ∉ ({main_v0} : Finset (Ref sig .tc))), BI.bigSep_singleton]
    rw [(arr_whole0 0).set_eq_univ, (arr_whole0 2).set_eq_univ]
    rw [share0_0 c dat hq0, share0_1 c dat hq1, share0_2 c dat, hA 0, hA 1, hA 2]
    -- the two halves, at the same contents, join to the operand's full share
    exact sep_assoc.2.trans (sep_mono (full_eq_halves _ _).2 .rfl)
  · -- off the windows' arrays the two contents agree
    unfold Pipeline.unscopedRest
    exact bigSep_congr fun b hb => by rw [hrest b (Finset.mem_sdiff.mp hb).2]

/-! ## pallas_call 1: windows 0 and 1 both on `main_arg1`, window 2 on `main_v3` -/

/-- The three windows sit on two distinct buffers: the shared operand and the output. -/
theorem image1 : Finset.univ.image (Pipeline.arrRef spec1) = {main_arg1, main_v3} := by decide

/-- Window 0 is an input: it holds its array at the share the proof data name, the left half. -/
theorem share1_0 (c : Dev nD) (dat : Pipeline.Dat τ (Elt F) Unit ℕ (UR sig nD τ) ℕ cfg1 c)
    (hq0 : dat.q 0 = fullShare.left) : dat.share 0 = fullShare.left := by
  unfold Pipeline.Dat.share; rw [if_neg (by decide)]; exact hq0
/-- Window 1 is an input: it holds its array at the share the proof data name, the right half. -/
theorem share1_1 (c : Dev nD) (dat : Pipeline.Dat τ (Elt F) Unit ℕ (UR sig nD τ) ℕ cfg1 c)
    (hq1 : dat.q 1 = fullShare.right) : dat.share 1 = fullShare.right := by
  unfold Pipeline.Dat.share; rw [if_neg (by decide)]; exact hq1
/-- Window 2 is the output: it holds its array at the full share, whatever the proof data name for it. -/
theorem share1_2 (c : Dev nD) (dat : Pipeline.Dat τ (Elt F) Unit ℕ (UR sig nD τ) ℕ cfg1 c) :
    dat.share 2 = fullShare := by
  unfold Pipeline.Dat.share; rw [if_pos (by decide)]

/-- ENTRY. The core's unscoped buffers at contents `V` are the three windows' arrays — the shared operand at the
    left half for window 0 and at the right half for window 1, the output at the full share, each at what `V`
    holds there — and the unscoped buffers that are no window's array. -/
theorem split1 (c : Dev nD) (dat : Pipeline.Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  have h : (unscopedBufs c V : sProp 𝕄) = iprop(Pipeline.arrBufs spec1 c V ∗ Pipeline.unscopedRest spec1 c V) :=
    Pipeline.unscopedBufs_split₀ cfgs 1 winFacts₀1.arr_unscoped c V
  rw [h]
  refine sep_mono ?_ .rfl
  unfold Pipeline.arrBufs Pipeline.Dat.arrays
  rw [image1, bigSep_W1, BI.bigSep_insert (by decide : main_arg1 ∉ ({main_v3} : Finset (Ref sig .tc))), BI.bigSep_singleton]
  -- windows 0 and 1 are the same whole array, so one rewrite serves both
  rw [(arr_whole1 0).set_eq_univ, (arr_whole1 2).set_eq_univ]
  rw [share1_0 c dat hq0, share1_1 c dat hq1, share1_2 c dat, hA 0, hA 1, hA 2]
  -- the operand's full share is cut in its halves; the output's buffer passes as it is
  refine (sep_mono (full_eq_halves _ _).1 .rfl).trans ?_
  exact sep_assoc.1

/-- EXIT. The three windows' arrays at contents `A` and the unscoped rest at `V` are the core's unscoped buffers
    at any contents `V'` that holds `A` at the windows' arrays and agrees with `V` elsewhere. Windows 0 and 1 then
    hold the shared operand at ONE contents (`V'` there), which is what lets the two halves join to the full share. -/
theorem join1 (c : Dev nD) (dat : Pipeline.Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  have h : (unscopedBufs c V' : sProp 𝕄) = iprop(Pipeline.arrBufs spec1 c V' ∗ Pipeline.unscopedRest spec1 c V') :=
    Pipeline.unscopedBufs_split₀ cfgs 1 winFacts₀1.arr_unscoped c V'
  rw [h]
  refine sep_mono ?_ (Entails.of_eq ?_)
  · unfold Pipeline.arrBufs Pipeline.Dat.arrays
    rw [image1, bigSep_W1, BI.bigSep_insert (by decide : main_arg1 ∉ ({main_v3} : Finset (Ref sig .tc))), BI.bigSep_singleton]
    rw [(arr_whole1 0).set_eq_univ, (arr_whole1 2).set_eq_univ]
    rw [share1_0 c dat hq0, share1_1 c dat hq1, share1_2 c dat, hA 0, hA 1, hA 2]
    -- the two halves, at the same contents, join to the operand's full share
    exact sep_assoc.2.trans (sep_mono (full_eq_halves _ _).2 .rfl)
  · -- off the windows' arrays the two contents agree
    unfold Pipeline.unscopedRest
    exact bigSep_congr fun b hb => by rw [hrest b (Finset.mem_sdiff.mp hb).2]

end Cert.Kernel.Shared
-- ==== Proof.KBLaunch.lean ====
/-
  The whole run of @main: three launches of the pairwise-sum kernel, each followed by a stretch of host operations.
  The core's buffers are followed from boundary to boundary: a launch changes its (1,1) result array only, to what the
  accumulation leaves at the last grid point; a host stretch changes the buffers it writes. Each launch is entered
  from every unscoped buffer held at the boundary's contents: its windows' arrays are split out (the two self launches
  read one array through two windows, each at half of its share), the pipeline runs, and the arrays are put back.
-/
import proofs.«136964_j73426760892841_1_alg».proof.Proof.KBRegion0
import proofs.«136964_j73426760892841_1_alg».proof.Proof.KBRegion1
import proofs.«136964_j73426760892841_1_alg».proof.Proof.KBRegion2
import proofs.«136964_j73426760892841_1_alg».proof.Proof.SharedWindowsBits
import proofs.«136964_j73426760892841_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- What launch 0 leaves in its result array: the accumulation's last value, written back at the last point. -/
def res0 (c : Dev nD) : Buf (Elt F) ((c : Thread nD τ).loc main_v0) := (dat0 (E0 m ρ) c).arrAt 2 cfg0.N
/-- After launch 0. -/
def W1 (c : Dev nD) : Valuation τ sig (Elt F) := Function.update (W0 m ρ c) main_v0 (res0 m ρ c)
abbrev E1 : (c : Dev nD) → (b : Ref sig .tc) → Buf (Elt F) ((c : Thread nD τ).loc b) := fun c b => W1 m ρ c b
/-- After the first host stretch. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
def res1 (c : Dev nD) : Buf (Elt F) ((c : Thread nD τ).loc main_v3) := (dat1 (E2 m ρ) c).arrAt 2 cfg1.N
/-- After launch 1. -/
def W3 (c : Dev nD) : Valuation τ sig (Elt F) := Function.update (W2 m ρ c) main_v3 (res1 m ρ c)
abbrev E3 : (c : Dev nD) → (b : Ref sig .tc) → Buf (Elt F) ((c : Thread nD τ).loc b) := fun c b => W3 m ρ c b
/-- After the second host stretch. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b
def res2 (c : Dev nD) : Buf (Elt F) ((c : Thread nD τ).loc main_v6) := (dat2 (E4 m ρ) c).arrAt 2 cfg2.N
/-- After launch 2. -/
def W5 (c : Dev nD) : Valuation τ sig (Elt F) := Function.update (W4 m ρ c) main_v6 (res2 m ρ c)
abbrev E5 : (c : Dev nD) → (b : Ref sig .tc) → Buf (Elt F) ((c : Thread nD τ).loc b) := fun c b => W5 m ρ c b
/-- After the last host stretch: the end. -/
abbrev W6 : Dev nD → Valuation τ sig (Elt F) := fun c => StableHlo.after hostOps3 (W5 m ρ c)

theorem W1_res (c : Dev nD) : W1 m ρ c main_v0 = res0 m ρ c := by unfold W1; exact Function.update_self ..
theorem W1_of_ne (c : Dev nD) (b : Ref sig .tc) (h : b ≠ main_v0) : W1 m ρ c b = W0 m ρ c b := by
  unfold W1; exact Function.update_of_ne (StableHlo.devRef_ne_of_ne h) ..
theorem W3_res (c : Dev nD) : W3 m ρ c main_v3 = res1 m ρ c := by unfold W3; exact Function.update_self ..
theorem W3_of_ne (c : Dev nD) (b : Ref sig .tc) (h : b ≠ main_v3) : W3 m ρ c b = W2 m ρ c b := by
  unfold W3; exact Function.update_of_ne (StableHlo.devRef_ne_of_ne h) ..
theorem W5_res (c : Dev nD) : W5 m ρ c main_v6 = res2 m ρ c := by unfold W5; exact Function.update_self ..
theorem W5_of_ne (c : Dev nD) (b : Ref sig .tc) (h : b ≠ main_v6) : W5 m ρ c b = W4 m ρ c b := by
  unfold W5; exact Function.update_of_ne (StableHlo.devRef_ne_of_ne h) ..
theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h

/-- The arguments reach the end as launched: no launch and no host stretch writes one. -/
theorem W6_main_arg0 (c : Dev nD) : W6 m ρ c main_arg0 = m ((c : Thread nD τ).loc main_arg0) :=
  (W6_of m ρ c main_arg0 (by decide)).trans <| (W5_of_ne m ρ c main_arg0 (by decide)).trans <| (W4_of m ρ c main_arg0 (by decide)).trans <|
    (W3_of_ne m ρ c main_arg0 (by decide)).trans <| (W2_of m ρ c main_arg0 (by decide)).trans <| (W1_of_ne m ρ c main_arg0 (by decide)).trans rfl
theorem W6_main_arg1 (c : Dev nD) : W6 m ρ c main_arg1 = m ((c : Thread nD τ).loc main_arg1) :=
  (W6_of m ρ c main_arg1 (by decide)).trans <| (W5_of_ne m ρ c main_arg1 (by decide)).trans <| (W4_of m ρ c main_arg1 (by decide)).trans <|
    (W3_of_ne m ρ c main_arg1 (by decide)).trans <| (W2_of m ρ c main_arg1 (by decide)).trans <| (W1_of_ne m ρ c main_arg1 (by decide)).trans rfl

/-! ## The proof data family and the thread state -/

abbrev adm : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-- At launch 0's exit each of its arrays holds what the pipeline leaves: an input as entered, the result the
    accumulation's last value; every other buffer is as entered. -/
theorem hF0 (c : Dev nD) : ∀ w : Fin cfg0.W, (pdats m ρ 0 c).arrAt w cfg0.N = E1 m ρ c (Pipeline.arrRef spec0 w)
  | 0 => ((pdats m ρ 0 c).arrAt_in 0 rfl _).trans ((A_eq0 (E0 m ρ) c 0).trans (W1_of_ne m ρ c main_arg0 (by decide)).symm)
  | 1 => ((pdats m ρ 0 c).arrAt_in 1 rfl _).trans ((A_eq0 (E0 m ρ) c 1).trans (W1_of_ne m ρ c main_arg0 (by decide)).symm)
  | 2 => (W1_res m ρ c).symm
  | ⟨_ + 3, h⟩ => absurd h (Nat.not_lt.2 (Nat.le_add_left _ _))
theorem hrest0 (c : Dev nD) : ∀ b, b ∉ Finset.univ.image (Pipeline.arrRef spec0) → E1 m ρ c b = E0 m ρ c b :=
  fun b hb => W1_of_ne m ρ c b fun e => hb (Finset.mem_image.mpr ⟨2, Finset.mem_univ _, e.symm⟩)

set_option backward.isDefEq.respectTransparency.types false in
/-- Launch 0 over the thread state: entered from every unscoped buffer at the boundary's contents, left at the next
    boundary's. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Shared.split0 c (pdats m ρ 0 c) rfl rfl (E0 m ρ c) ((pdats m ρ 0 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Shared.join0 c (pdats m ρ 0 c) rfl rfl (E0 m ρ c) (E1 m ρ c) ((pdats m ρ 0 c).arrAt · cfg0.N)
      (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At launch 1's exit each of its arrays holds what the pipeline leaves: an input as entered, the result the
    accumulation's last value; every other buffer is as entered. -/
theorem hF1 (c : Dev nD) : ∀ w : Fin cfg1.W, (pdats m ρ 1 c).arrAt w cfg1.N = E3 m ρ c (Pipeline.arrRef spec1 w)
  | 0 => ((pdats m ρ 1 c).arrAt_in 0 rfl _).trans ((A_eq1 (E2 m ρ) c 0).trans (W3_of_ne m ρ c main_arg1 (by decide)).symm)
  | 1 => ((pdats m ρ 1 c).arrAt_in 1 rfl _).trans ((A_eq1 (E2 m ρ) c 1).trans (W3_of_ne m ρ c main_arg1 (by decide)).symm)
  | 2 => (W3_res m ρ c).symm
  | ⟨_ + 3, h⟩ => absurd h (Nat.not_lt.2 (Nat.le_add_left _ _))
theorem hrest1 (c : Dev nD) : ∀ b, b ∉ Finset.univ.image (Pipeline.arrRef spec1) → E3 m ρ c b = E2 m ρ c b :=
  fun b hb => W3_of_ne m ρ c b fun e => hb (Finset.mem_image.mpr ⟨2, Finset.mem_univ _, e.symm⟩)

set_option backward.isDefEq.respectTransparency.types false in
/-- Launch 1 over the thread state: entered from every unscoped buffer at the boundary's contents, left at the next
    boundary's. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Shared.split1 c (pdats m ρ 1 c) rfl rfl (E2 m ρ c) ((pdats m ρ 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Shared.join1 c (pdats m ρ 1 c) rfl rfl (E2 m ρ c) (E3 m ρ c) ((pdats m ρ 1 c).arrAt · cfg1.N)
      (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At launch 2's exit each of its arrays holds what the pipeline leaves: an input as entered, the result the
    accumulation's last value; every other buffer is as entered. -/
theorem hF2 (c : Dev nD) : ∀ w : Fin cfg2.W, (pdats m ρ 2 c).arrAt w cfg2.N = E5 m ρ c (Pipeline.arrRef spec2 w)
  | 0 => ((pdats m ρ 2 c).arrAt_in 0 rfl _).trans ((A_eq2 (E4 m ρ) c 0).trans (W5_of_ne m ρ c main_arg0 (by decide)).symm)
  | 1 => ((pdats m ρ 2 c).arrAt_in 1 rfl _).trans ((A_eq2 (E4 m ρ) c 1).trans (W5_of_ne m ρ c main_arg1 (by decide)).symm)
  | 2 => (W5_res m ρ c).symm
  | ⟨_ + 3, h⟩ => absurd h (Nat.not_lt.2 (Nat.le_add_left _ _))
theorem hrest2 (c : Dev nD) : ∀ b, b ∉ Finset.univ.image (Pipeline.arrRef spec2) → E5 m ρ c b = E4 m ρ c b :=
  fun b hb => W5_of_ne m ρ c b fun e => hb (Finset.mem_image.mpr ⟨2, Finset.mem_univ _, e.symm⟩)

set_option backward.isDefEq.respectTransparency.types false in
/-- Launch 2 over the thread state: entered from every unscoped buffer at the boundary's contents, left at the next
    boundary's. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's six segments in order: a launch, then the host stretch that follows it, three times. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m ρ c),
     (h c _ (mem_uc main_arg1 (by decide))).trans (W6_main_arg1 m ρ c)⟩) (run_all m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v11) = W6 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v11 (by decide)),
     (h c _ (mem_uc main_arg0 (by decide))).trans (W6_main_arg0 m ρ c),
     (h c _ (mem_uc main_arg1 (by decide))).trans (W6_main_arg1 m ρ c)⟩) (run_all m ρ)

end Cert.Kernel.Hand

end
-- ==== Proof.KIBase.lean ====
/-
  What the three pairwise-sum launches share before any of them is run: at which grid point the accumulator is
  reset (the branch `program_id == 0` of the body, decided once over the 128 points of each grid), and the names of
  the staging memrefs the pipeline hands the body at a point.
-/
import proofs.«136964_j73426760892841_1_alg».proof.Proof.Gen.KernelIdeal.Launch
import proofs.«136964_j73426760892841_1_alg».proof.Proof.Gen.KernelIdeal.Skeleton
import proofs.«136964_j73426760892841_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Launch 0 -/

/-- The body's branch at launch 0: the grid coordinate is 0 (the scalar chain of the printed text). -/
abbrev cond0 (i : grid0.Coords) : Prop := (Scalar.cmpi .ne (Scalar.extui (Scalar.cmpi .eq (BitVec.ofNat 32 (i 0).val) 0#32)) 0#32) = 1#1
/-- It is taken at the first of the 128 points only. -/
theorem hcond0 : ∀ t : Fin cfg0.N, cond0 (grid0.coords t) ↔ t.val % 128 = 0 :=
  (by decide +kernel : ∀ t : Fin grid0.N, cond0 (grid0.coords t) ↔ t.val % 128 = 0)

/-- One staging buffer of the (1,1) accumulator window, through which its contents are stated. -/
abbrev VO0 : View sig .tc .vmem S1x1 .f32 := (Memref.whole cc0_stg2_0 : Memref sig .tc .vmem S1x1 .f32).view
/-- The staging memrefs at point `t`, as the pipeline passes them, and their wholeness. -/
abbrev ms0_0 (t : Fin cfg0.N) : Memref sig .tc .vmem S8192x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)

/-! ## Launch 1 -/

/-- The body's branch at launch 1: the grid coordinate is 0 (the scalar chain of the printed text). -/
abbrev cond1 (i : grid1.Coords) : Prop := (Scalar.cmpi .ne (Scalar.extui (Scalar.cmpi .eq (BitVec.ofNat 32 (i 0).val) 0#32)) 0#32) = 1#1
/-- It is taken at the first of the 128 points only. -/
theorem hcond1 : ∀ t : Fin cfg1.N, cond1 (grid1.coords t) ↔ t.val % 128 = 0 :=
  (by decide +kernel : ∀ t : Fin grid1.N, cond1 (grid1.coords t) ↔ t.val % 128 = 0)

/-- One staging buffer of the (1,1) accumulator window, through which its contents are stated. -/
abbrev VO1 : View sig .tc .vmem S1x1 .f32 := (Memref.whole cc1_stg2_0 : Memref sig .tc .vmem S1x1 .f32).view
/-- The staging memrefs at point `t`, as the pipeline passes them, and their wholeness. -/
abbrev ms1_0 (t : Fin cfg1.N) : Memref sig .tc .vmem S8192x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)

/-! ## Launch 2 -/

/-- The body's branch at launch 2: the grid coordinate is 0 (the scalar chain of the printed text). -/
abbrev cond2 (i : grid2.Coords) : Prop := (Scalar.cmpi .ne (Scalar.extui (Scalar.cmpi .eq (BitVec.ofNat 32 (i 0).val) 0#32)) 0#32) = 1#1
/-- It is taken at the first of the 128 points only. -/
theorem hcond2 : ∀ t : Fin cfg2.N, cond2 (grid2.coords t) ↔ t.val % 128 = 0 :=
  (by decide +kernel : ∀ t : Fin grid2.N, cond2 (grid2.coords t) ↔ t.val % 128 = 0)

/-- One staging buffer of the (1,1) accumulator window, through which its contents are stated. -/
abbrev VO2 : View sig .tc .vmem S1x1 .f32 := (Memref.whole cc2_stg2_0 : Memref sig .tc .vmem S1x1 .f32).view
/-- The staging memrefs at point `t`, as the pipeline passes them, and their wholeness. -/
abbrev ms2_0 (t : Fin cfg2.N) : Memref sig .tc .vmem S8192x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)

end Cert.KernelIdeal.Hand

end
-- ==== Proof.KIRun0A.lean ====
/-
  Launch 0, the first grid point (the accumulator is reset, then added to): the body run once on whole
  staging memrefs. The inputs' memrefs are read and left as they were; what the accumulator's memref ends with is the
  list of the body's stores into it, found by the run itself.
-/
import proofs.«136964_j73426760892841_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun0_A (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond0 i)
    (x0 : Vec F S8192x256 .f32) (x1 : Vec F S64x256 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pairwise_sum_kernel i arg1 harg1 arg2 harg2 arg3 harg3) K } := by
  refine ⟨?_, fun E K => ?run⟩
  case run =>
    simp only [cc0__pairwise_sum_kernel_eq_skeleton]; unfold cc0__pairwise_sum_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIRun0B.lean ====
/-
  Launch 0, a later grid point (the accumulator is read as the point before left it, then added to): the body run once on whole
  staging memrefs. The inputs' memrefs are read and left as they were; what the accumulator's memref ends with is the
  list of the body's stores into it, found by the run itself.
-/
import proofs.«136964_j73426760892841_1_alg».proof.Proof.KIRun0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun0_B (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond0 i)
    (x0 : Vec F S8192x256 .f32) (x1 : Vec F S64x256 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__pairwise_sum_kernel i arg1 harg1 arg2 harg2 arg3 harg3) K } := by
  refine ⟨?_, fun E K => ?run⟩
  case run =>
    simp only [cc0__pairwise_sum_kernel_eq_skeleton]; unfold cc0__pairwise_sum_kernel_skel
    simp only [k0_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIRegion0.lean ====
/-
  Launch 0 at any contents `V` of the core's buffers when the launch is entered: the blocks its windows stage, what
  the accumulator's staging buffer holds after each grid point — the first point's run at point 0, a later point's
  run over what the point before left —, the proof data of the pipeline (the two input windows are one array, held at the two halves of its share), and the body obligation at every point.
-/
import proofs.«136964_j73426760892841_1_alg».proof.Proof.KIRun0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the accumulator's staging buffer -/

/-- The first point's stores cover the (1,1) buffer. -/
theorem cover0_A (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond0 i)
    (x0 : Vec F S8192x256 .f32) (x1 : Vec F S64x256 .f32) (y : S1x1.Idx) :
    ∃ pc ∈ (kernelRun0_A c i arg1 harg1 arg2 harg2 arg3 harg3 hc0 x0 x1).1, y ∈ pc.1.set :=
  View.cover_of_tiledL (kernelRun0_A c i arg1 harg1 arg2 harg2 arg3 harg3 hc0 x0 x1).1 S1x1.size (by sl_kernel_rfl) y
/-- What the first point leaves: its stores read back. -/
def out0_A (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond0 i)
    (x0 : Vec F S8192x256 .f32) (x1 : Vec F S64x256 .f32) : Vec F S1x1 .f32 :=
  VO0.read (Elt F) (VO0.writes (Elt F) VO0.junk (kernelRun0_A c i arg1 harg1 arg2 harg2 arg3 harg3 hc0 x0 x1).1)
/-- A later point's stores cover the (1,1) buffer. -/
theorem cover0_B (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond0 i)
    (x0 : Vec F S8192x256 .f32) (x1 : Vec F S64x256 .f32) (xo2 : Vec F S1x1 .f32) (y : S1x1.Idx) :
    ∃ pc ∈ (kernelRun0_B c i arg1 harg1 arg2 harg2 arg3 harg3 hc0 x0 x1 xo2).1, y ∈ pc.1.set :=
  View.cover_of_tiledL (kernelRun0_B c i arg1 harg1 arg2 harg2 arg3 harg3 hc0 x0 x1 xo2).1 S1x1.size (by sl_kernel_rfl) y
/-- What a later point leaves, over the running contents `xo2`. -/
def out0_B (c : Dev nD) (i : grid0.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond0 i)
    (x0 : Vec F S8192x256 .f32) (x1 : Vec F S64x256 .f32) (xo2 : Vec F S1x1 .f32) : Vec F S1x1 .f32 :=
  VO0.read (Elt F) (VO0.writes (Elt F) VO0.junk (kernelRun0_B c i arg1 harg1 arg2 harg2 arg3 harg3 hc0 x0 x1 xo2).1)

/-! ## The accumulation over the grid -/

/-- What the accumulator's staging buffer holds after the body at position `n`. -/
def outsAt0 (c : Dev nD) : (n : ℕ) → n < cfg0.N → Vec F S1x1 .f32
  | 0, hn => out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0 ⟨0, hn⟩).mpr (Nat.zero_mod _)) (iblk0 V c 0 ⟨0, hn⟩) (iblk0 V c 1 ⟨0, hn⟩)
  | n + 1, hn =>
    if h0 : (n + 1) % 128 = 0 then
      out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0 ⟨n + 1, hn⟩).mpr h0) (iblk0 V c 0 ⟨n + 1, hn⟩) (iblk0 V c 1 ⟨n + 1, hn⟩)
    else
      out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0 ⟨n + 1, hn⟩).mp h)) (iblk0 V c 0 ⟨n + 1, hn⟩) (iblk0 V c 1 ⟨n + 1, hn⟩) (outsAt0 c n (Nat.lt_of_succ_lt hn))

theorem outsAt0_A (c : Dev nD) (t : Fin cfg0.N) (h0 : t.val % 128 = 0) :
    outsAt0 V c t.val t.isLt = out0_A c (grid0.coords t) (ms0_0 t) (hs0_0 t) (ms0_1 t) (hs0_1 t) (ms0_2 t) (hs0_2 t) ((hcond0 t).mpr h0) (iblk0 V c 0 t) (iblk0 V c 1 t) := by
  obtain ⟨n, hn⟩ := t
  cases n with
  | zero => exact rfl
  | succ n => exact (dif_pos h0).trans rfl

theorem outsAt0_B (c : Dev nD) (t : Fin cfg0.N) (h0 : ¬t.val % 128 = 0) :
    outsAt0 V c t.val t.isLt = out0_B c (grid0.coords t) (ms0_0 t) (hs0_0 t) (ms0_1 t) (hs0_1 t) (ms0_2 t) (hs0_2 t) (fun h => h0 ((hcond0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body each input's buffer at its block and the accumulator's at the
    accumulation; the class's invariant (the scoped rest and the generator register); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later point the accumulator's buffer holds what the body left at the point before: it is written back at the
    last point only. -/
theorem before0_2_B (c : Dev nD) (t : Fin cfg0.N) (h0 : ¬t.val % 128 = 0) (d) :
    (dat0 V c).before 2 t d = outsAt0 V c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 800000 in
/-- The body at any point: the inputs' memrefs hold their blocks; at the first point the accumulator's buffer may hold
    anything, at a later one what the point before left; the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 128 := lt_of_lt_of_eq t.isLt (show cfg0.N = 128 from N_0)
  by_cases h0 : t.val % 128 = 0
  · rw [outsAt0_A V c t h0]
    unfold out0_A
    iintro ⟨HΦ, Ho, ⟨%d0, H0⟩, ⟨%d1, H1⟩, ⟨%d2, H2⟩⟩
    iapply ((kernelRun0_A c (grid0.coords t) _ _ _ _ _ _ ((hcond0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _)
  · rw [outsAt0_B V c t h0]
    simp only [before0_2_B V c t h0]
    unfold out0_B
    iintro ⟨HΦ, Ho, ⟨%d0, H0⟩, ⟨%d1, H1⟩, ⟨%d2, H2⟩⟩
    iapply ((kernelRun0_B c (grid0.coords t) _ _ _ _ _ _ (fun h => h0 ((hcond0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRun1A.lean ====
/-
  Launch 1, the first grid point (the accumulator is reset, then added to): the body run once on whole
  staging memrefs. The inputs' memrefs are read and left as they were; what the accumulator's memref ends with is the
  list of the body's stores into it, found by the run itself.
-/
import proofs.«136964_j73426760892841_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun1_A (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond1 i)
    (x0 : Vec F S8192x256 .f32) (x1 : Vec F S64x256 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pairwise_sum_kernel i arg1 harg1 arg2 harg2 arg3 harg3) K } := by
  refine ⟨?_, fun E K => ?run⟩
  case run =>
    simp only [cc1__pairwise_sum_kernel_eq_skeleton]; unfold cc1__pairwise_sum_kernel_skel
    simp only [k1_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIRun1B.lean ====
/-
  Launch 1, a later grid point (the accumulator is read as the point before left it, then added to): the body run once on whole
  staging memrefs. The inputs' memrefs are read and left as they were; what the accumulator's memref ends with is the
  list of the body's stores into it, found by the run itself.
-/
import proofs.«136964_j73426760892841_1_alg».proof.Proof.KIRun1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun1_B (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond1 i)
    (x0 : Vec F S8192x256 .f32) (x1 : Vec F S64x256 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc1__pairwise_sum_kernel i arg1 harg1 arg2 harg2 arg3 harg3) K } := by
  refine ⟨?_, fun E K => ?run⟩
  case run =>
    simp only [cc1__pairwise_sum_kernel_eq_skeleton]; unfold cc1__pairwise_sum_kernel_skel
    simp only [k1_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIRegion1.lean ====
/-
  Launch 1 at any contents `V` of the core's buffers when the launch is entered: the blocks its windows stage, what
  the accumulator's staging buffer holds after each grid point — the first point's run at point 0, a later point's
  run over what the point before left —, the proof data of the pipeline (the two input windows are one array, held at the two halves of its share), and the body obligation at every point.
-/
import proofs.«136964_j73426760892841_1_alg».proof.Proof.KIRun1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the accumulator's staging buffer -/

/-- The first point's stores cover the (1,1) buffer. -/
theorem cover1_A (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond1 i)
    (x0 : Vec F S8192x256 .f32) (x1 : Vec F S64x256 .f32) (y : S1x1.Idx) :
    ∃ pc ∈ (kernelRun1_A c i arg1 harg1 arg2 harg2 arg3 harg3 hc0 x0 x1).1, y ∈ pc.1.set :=
  View.cover_of_tiledL (kernelRun1_A c i arg1 harg1 arg2 harg2 arg3 harg3 hc0 x0 x1).1 S1x1.size (by sl_kernel_rfl) y
/-- What the first point leaves: its stores read back. -/
def out1_A (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond1 i)
    (x0 : Vec F S8192x256 .f32) (x1 : Vec F S64x256 .f32) : Vec F S1x1 .f32 :=
  VO1.read (Elt F) (VO1.writes (Elt F) VO1.junk (kernelRun1_A c i arg1 harg1 arg2 harg2 arg3 harg3 hc0 x0 x1).1)
/-- A later point's stores cover the (1,1) buffer. -/
theorem cover1_B (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond1 i)
    (x0 : Vec F S8192x256 .f32) (x1 : Vec F S64x256 .f32) (xo2 : Vec F S1x1 .f32) (y : S1x1.Idx) :
    ∃ pc ∈ (kernelRun1_B c i arg1 harg1 arg2 harg2 arg3 harg3 hc0 x0 x1 xo2).1, y ∈ pc.1.set :=
  View.cover_of_tiledL (kernelRun1_B c i arg1 harg1 arg2 harg2 arg3 harg3 hc0 x0 x1 xo2).1 S1x1.size (by sl_kernel_rfl) y
/-- What a later point leaves, over the running contents `xo2`. -/
def out1_B (c : Dev nD) (i : grid1.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond1 i)
    (x0 : Vec F S8192x256 .f32) (x1 : Vec F S64x256 .f32) (xo2 : Vec F S1x1 .f32) : Vec F S1x1 .f32 :=
  VO1.read (Elt F) (VO1.writes (Elt F) VO1.junk (kernelRun1_B c i arg1 harg1 arg2 harg2 arg3 harg3 hc0 x0 x1 xo2).1)

/-! ## The accumulation over the grid -/

/-- What the accumulator's staging buffer holds after the body at position `n`. -/
def outsAt1 (c : Dev nD) : (n : ℕ) → n < cfg1.N → Vec F S1x1 .f32
  | 0, hn => out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1 ⟨0, hn⟩).mpr (Nat.zero_mod _)) (iblk1 V c 0 ⟨0, hn⟩) (iblk1 V c 1 ⟨0, hn⟩)
  | n + 1, hn =>
    if h0 : (n + 1) % 128 = 0 then
      out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1 ⟨n + 1, hn⟩).mpr h0) (iblk1 V c 0 ⟨n + 1, hn⟩) (iblk1 V c 1 ⟨n + 1, hn⟩)
    else
      out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1 ⟨n + 1, hn⟩).mp h)) (iblk1 V c 0 ⟨n + 1, hn⟩) (iblk1 V c 1 ⟨n + 1, hn⟩) (outsAt1 c n (Nat.lt_of_succ_lt hn))

theorem outsAt1_A (c : Dev nD) (t : Fin cfg1.N) (h0 : t.val % 128 = 0) :
    outsAt1 V c t.val t.isLt = out1_A c (grid1.coords t) (ms1_0 t) (hs1_0 t) (ms1_1 t) (hs1_1 t) (ms1_2 t) (hs1_2 t) ((hcond1 t).mpr h0) (iblk1 V c 0 t) (iblk1 V c 1 t) := by
  obtain ⟨n, hn⟩ := t
  cases n with
  | zero => exact rfl
  | succ n => exact (dif_pos h0).trans rfl

theorem outsAt1_B (c : Dev nD) (t : Fin cfg1.N) (h0 : ¬t.val % 128 = 0) :
    outsAt1 V c t.val t.isLt = out1_B c (grid1.coords t) (ms1_0 t) (hs1_0 t) (ms1_1 t) (hs1_1 t) (ms1_2 t) (hs1_2 t) (fun h => h0 ((hcond1 t).mp h)) (iblk1 V c 0 t) (iblk1 V c 1 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body each input's buffer at its block and the accumulator's at the
    accumulation; the class's invariant (the scoped rest and the generator register); nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
/-- At a later point the accumulator's buffer holds what the body left at the point before: it is written back at the
    last point only. -/
theorem before1_2_B (c : Dev nD) (t : Fin cfg1.N) (h0 : ¬t.val % 128 = 0) (d) :
    (dat1 V c).before 2 t d = outsAt1 V c (t.val - 1) (Nat.lt_of_le_of_lt (Nat.sub_le _ _) t.isLt) := by
  have hN : t.val < 128 := lt_of_lt_of_eq t.isLt (show cfg1.N = 128 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' memrefs hold their blocks; at the first point the accumulator's buffer may hold
    anything, at a later one what the point before left; the case's run applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  have hN : t.val < 128 := lt_of_lt_of_eq t.isLt (show cfg1.N = 128 from N_1)
  by_cases h0 : t.val % 128 = 0
  · rw [outsAt1_A V c t h0]
    unfold out1_A
    iintro ⟨HΦ, Ho, ⟨%d0, H0⟩, ⟨%d1, H1⟩, ⟨%d2, H2⟩⟩
    iapply ((kernelRun1_A c (grid1.coords t) _ _ _ _ _ _ ((hcond1 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A c _ _ _ _ _ _ _ _ _ _)
  · rw [outsAt1_B V c t h0]
    simp only [before1_2_B V c t h0]
    unfold out1_B
    iintro ⟨HΦ, Ho, ⟨%d0, H0⟩, ⟨%d1, H1⟩, ⟨%d2, H2⟩⟩
    iapply ((kernelRun1_B c (grid1.coords t) _ _ _ _ _ _ (fun h => h0 ((hcond1 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B c _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun2A.lean ====
/-
  Launch 2, the first grid point (the accumulator is reset, then added to): the body run once on whole
  staging memrefs. The inputs' memrefs are read and left as they were; what the accumulator's memref ends with is the
  list of the body's stores into it, found by the run itself.
-/
import proofs.«136964_j73426760892841_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun2_A (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond2 i)
    (x0 : Vec F S8192x256 .f32) (x1 : Vec F S64x256 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pairwise_sum_kernel i arg1 harg1 arg2 harg2 arg3 harg3) K } := by
  refine ⟨?_, fun E K => ?run⟩
  case run =>
    simp only [cc2__pairwise_sum_kernel_eq_skeleton]; unfold cc2__pairwise_sum_kernel_skel
    simp only [k2_part1_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIRun2B.lean ====
/-
  Launch 2, a later grid point (the accumulator is read as the point before left it, then added to): the body run once on whole
  staging memrefs. The inputs' memrefs are read and left as they were; what the accumulator's memref ends with is the
  list of the body's stores into it, found by the run itself.
-/
import proofs.«136964_j73426760892841_1_alg».proof.Proof.KIRun2A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the accumulator's memref (last first), with the run that finds them. -/
noncomputable def kernelRun2_B (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond2 i)
    (x0 : Vec F S8192x256 .f32) (x1 : Vec F S64x256 .f32) (xo2 : Vec F S1x1 .f32) :
    { L2 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo2
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc2__pairwise_sum_kernel i arg1 harg1 arg2 harg2 arg3 harg3) K } := by
  refine ⟨?_, fun E K => ?run⟩
  case run =>
    simp only [cc2__pairwise_sum_kernel_eq_skeleton]; unfold cc2__pairwise_sum_kernel_skel
    simp only [k2_part1_eq_skeleton]
    unfold owns
    iintro ⟨⟨%f0, %hf0, H0⟩, ⟨%f1, %hf1, H1⟩, ⟨%f2, %hf2, H2⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Hand

end
-- ==== Proof.KIRegion2.lean ====
/-
  Launch 2 at any contents `V` of the core's buffers when the launch is entered: the blocks its windows stage, what
  the accumulator's staging buffer holds after each grid point — the first point's run at point 0, a later point's
  run over what the point before left —, the proof data of the pipeline, and the body obligation at every point.
-/
import proofs.«136964_j73426760892841_1_alg».proof.Proof.KIRun2B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves in the accumulator's staging buffer -/

/-- The first point's stores cover the (1,1) buffer. -/
theorem cover2_A (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond2 i)
    (x0 : Vec F S8192x256 .f32) (x1 : Vec F S64x256 .f32) (y : S1x1.Idx) :
    ∃ pc ∈ (kernelRun2_A c i arg1 harg1 arg2 harg2 arg3 harg3 hc0 x0 x1).1, y ∈ pc.1.set :=
  View.cover_of_tiledL (kernelRun2_A c i arg1 harg1 arg2 harg2 arg3 harg3 hc0 x0 x1).1 S1x1.size (by sl_kernel_rfl) y
/-- What the first point leaves: its stores read back. -/
def out2_A (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : cond2 i)
    (x0 : Vec F S8192x256 .f32) (x1 : Vec F S64x256 .f32) : Vec F S1x1 .f32 :=
  VO2.read (Elt F) (VO2.writes (Elt F) VO2.junk (kernelRun2_A c i arg1 harg1 arg2 harg2 arg3 harg3 hc0 x0 x1).1)
/-- A later point's stores cover the (1,1) buffer. -/
theorem cover2_B (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond2 i)
    (x0 : Vec F S8192x256 .f32) (x1 : Vec F S64x256 .f32) (xo2 : Vec F S1x1 .f32) (y : S1x1.Idx) :
    ∃ pc ∈ (kernelRun2_B c i arg1 harg1 arg2 harg2 arg3 harg3 hc0 x0 x1 xo2).1, y ∈ pc.1.set :=
  View.cover_of_tiledL (kernelRun2_B c i arg1 harg1 arg2 harg2 arg3 harg3 hc0 x0 x1 xo2).1 S1x1.size (by sl_kernel_rfl) y
/-- What a later point leaves, over the running contents `xo2`. -/
def out2_B (c : Dev nD) (i : grid2.Coords) (arg1 : Memref sig .tc .vmem S8192x256 .f32) (harg1 : arg1.IsWhole) (arg2 : Memref sig .tc .vmem S64x256 .f32) (harg2 : arg2.IsWhole) (arg3 : Memref sig .tc .vmem S1x1 .f32) (harg3 : arg3.IsWhole) (hc0 : ¬cond2 i)
    (x0 : Vec F S8192x256 .f32) (x1 : Vec F S64x256 .f32) (xo2 : Vec F S1x1 .f32) : Vec F S1x1 .f32 :=
  VO2.read (Elt F) (VO2.writes (Elt F) VO2.junk (kernelRun2_B c i arg1 harg1 arg2 harg2 arg3 harg3 hc0 x0 x1 xo2).1)

/-! ## The accumulation over the grid -/

/-- What the accumulator's staging buffer holds after the body at position `n`. -/
def outsAt2 (c : Dev nD) : (n : ℕ) → n < cfg2.N → Vec F S1x1 .f32
  | 0, hn => out2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) ((hcond2 ⟨0, hn⟩).mpr (Nat.zero_mod _)) (iblk2 V c 0 ⟨0, hn⟩) (iblk2 V c 1 ⟨0, hn⟩)
  | n + 1, hn =>
    if h0 : (n + 1) % 128 = 0 then
      out2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) ((hcond2 ⟨n + 1, hn⟩).mpr h0) (iblk2 V c 0 ⟨n + 1, hn⟩) (iblk2 V c 1 ⟨n + 1, hn⟩)
    else
      out2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (fun h => h0 ((hcond2 ⟨n + 1, hn⟩).mp h)) (iblk2 V c 0 ⟨n + 1, hn⟩) (iblk2 V c 1 ⟨n + 1, hn⟩) (outsAt2 c n (Nat.lt_of_succ_lt hn))

theorem outsAt2_A (c : Dev nD) (t : Fin cfg2.N) (h0 : t.val % 128 = 0) :
    outsAt2 V c t.val t.isLt = out2_A c (grid2.coords t) (ms2_0 t) (hs2_0 t) (ms2_1 t) (hs2_1 t) (ms2_2 t) (hs2_2 t) ((hcond2 t).mpr h0) (iblk2 V c 0 t) (iblk2 V c 1 t) := by
  obtain ⟨n, hn⟩ := t
  cases n with
  | zero => exact rfl
  | succ n => exact (dif_pos h0).trans rfl

theorem outsAt2_B (c : Dev nD) (t : Fin cfg2.N) (h0 : ¬t.val % 128 = 0) :
    outsAt2 V c t.val t.isLt = out2_B c (grid2.coords t) (ms2_0 t) (hs2_0 t) (ms2_1 t) (hs2_1 t) (ms2_2 t) (hs2_2 t) (fun h => h0 ((hcond2 t).mp h)) (iblk2 V c 0 t) (iblk2 V c 1 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the launch finds them; after the body each input's buffer at its block and the accumulator's at the
    accumulation; the class's invariant (the scoped rest and the generator register); nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => outsAt2 V c t.val t.isLt
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = outsAt2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
/-- At a later point the accumulator's buffer holds what the body left at the point before: it is written back at the
    last point only. -/
theorem before2_2_B (c : Dev nD) (t : Fin cfg2.N) (h0 : ¬t.val % 128 = 0) (d) :
    (dat2 V c).before 2 t d = outsAt2 V c (t.val - 1) (Nat.lt_of_le_of_lt (Nat.sub_le _ _) t.isLt) := by
  have hN : t.val < 128 := lt_of_lt_of_eq t.isLt (show cfg2.N = 128 from N_2)
  rw [Dat.before_out_kept _ 2 rfl t (by omega) (Bool.eq_false_iff.mpr fun h => by have := (flush2_2 _).mp h; dsimp only at this; omega)
    (fun _ => rfl) (fun _ _ => rfl)]
  dsimp only [dat2]

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 800000 in
/-- The body at any point: the inputs' memrefs hold their blocks; at the first point the accumulator's buffer may hold
    anything, at a later one what the point before left; the case's run applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  have hN : t.val < 128 := lt_of_lt_of_eq t.isLt (show cfg2.N = 128 from N_2)
  by_cases h0 : t.val % 128 = 0
  · rw [outsAt2_A V c t h0]
    unfold out2_A
    iintro ⟨HΦ, Ho, ⟨%d0, H0⟩, ⟨%d1, H1⟩, ⟨%d2, H2⟩⟩
    iapply ((kernelRun2_A c (grid2.coords t) _ _ _ _ _ _ ((hcond2 t).mpr h0) (iblk2 V c 0 t) (iblk2 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_A c _ _ _ _ _ _ _ _ _ _)
  · rw [outsAt2_B V c t h0]
    simp only [before2_2_B V c t h0]
    unfold out2_B
    iintro ⟨HΦ, Ho, ⟨%d0, H0⟩, ⟨%d1, H1⟩, ⟨%d2, H2⟩⟩
    iapply ((kernelRun2_B c (grid2.coords t) _ _ _ _ _ _ (fun h => h0 ((hcond2 t).mp h)) (iblk2 V c 0 t) (iblk2 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover2_B c _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.SharedWindowsIdeal.lean ====
import proofs.«136964_j73426760892841_1_alg».proof.Proof.Gen.KernelIdeal.Launch
import Idealize.ShloMosaic.Lib.Pipeline.Regions
import Idealize.ShloMosaic.Lib.Pipeline.RegionsLoop

/-! # One array read through two windows: dealing its full share between them

The first two pallas_calls each pass ONE array as both of the kernel's operands: window 0 keeps the whole array
resident, window 1 streams the same array block by block, and window 2 is the (1,1) output. The core's unscoped
buffers hold that array once, whole, at the full share, while the pipeline's windowed arrays hold it once PER
WINDOW. The two agree when the full share is cut in its two halves: window 0 holds the array at the left half,
window 1 at the right half, both at the same contents, and the output window holds its own array at the full share.

Entering the region, the buffer's full share is split into the halves; leaving it, the halves (which hold equal
contents, an input array never being written) are joined back. Every other unscoped buffer is untouched. -/

noncomputable section

namespace Cert.KernelIdeal.Shared

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- A whole buffer held at the full share is that buffer held twice, at the two halves of the full share, at the
    same contents: the full share is the composite of its halves. -/
theorem full_eq_halves (ℓ : Loc nD τ sig) (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-! ## pallas_call 0: windows 0 and 1 both on `main_arg0`, window 2 on `main_v0` -/

/-- The three windows sit on two distinct buffers: the shared operand and the output. -/
theorem image0 : Finset.univ.image (Pipeline.arrRef spec0) = {main_arg0, main_v0} := by decide

/-- Window 0 is an input: it holds its array at the share the proof data name, the left half. -/
theorem share0_0 (c : Dev nD) (dat : Pipeline.Dat τ (Elt F) Unit ℕ (UR sig nD τ) ℕ cfg0 c)
    (hq0 : dat.q 0 = fullShare.left) : dat.share 0 = fullShare.left := by
  unfold Pipeline.Dat.share; rw [if_neg (by decide)]; exact hq0
/-- Window 1 is an input: it holds its array at the share the proof data name, the right half. -/
theorem share0_1 (c : Dev nD) (dat : Pipeline.Dat τ (Elt F) Unit ℕ (UR sig nD τ) ℕ cfg0 c)
    (hq1 : dat.q 1 = fullShare.right) : dat.share 1 = fullShare.right := by
  unfold Pipeline.Dat.share; rw [if_neg (by decide)]; exact hq1
/-- Window 2 is the output: it holds its array at the full share, whatever the proof data name for it. -/
theorem share0_2 (c : Dev nD) (dat : Pipeline.Dat τ (Elt F) Unit ℕ (UR sig nD τ) ℕ cfg0 c) :
    dat.share 2 = fullShare := by
  unfold Pipeline.Dat.share; rw [if_pos (by decide)]

/-- ENTRY. The core's unscoped buffers at contents `V` are the three windows' arrays — the shared operand at the
    left half for window 0 and at the right half for window 1, the output at the full share, each at what `V`
    holds there — and the unscoped buffers that are no window's array. -/
theorem split0 (c : Dev nD) (dat : Pipeline.Dat τ (Elt F) Unit ℕ (UR sig nD τ) ℕ cfg0 c)
    (hq0 : dat.q 0 = fullShare.left) (hq1 : dat.q 1 = fullShare.right)
    (V : (b : Ref sig .tc) → Buf (Elt F) ((c : Thread nD τ).loc b))
    (A : (w : Fin cfg0.W) → Buf (Elt F) ((cfg0.win w).arr.view.loc (c : Thread nD τ)))
    (hA : ∀ w, A w = V (Pipeline.arrRef spec0 w)) :
    (unscopedBufs c V : sProp 𝕄) ⊢ iprop(dat.arrays A ∗ Pipeline.unscopedRest spec0 c V) := by
  have h : (unscopedBufs c V : sProp 𝕄) = iprop(Pipeline.arrBufs spec0 c V ∗ Pipeline.unscopedRest spec0 c V) :=
    Pipeline.unscopedBufs_split₀ cfgs 0 winFacts₀0.arr_unscoped c V
  rw [h]
  refine sep_mono ?_ .rfl
  unfold Pipeline.arrBufs Pipeline.Dat.arrays
  rw [image0, bigSep_W0, BI.bigSep_insert (by decide : main_arg0 ∉ ({main_v0} : Finset (Ref sig .tc))), BI.bigSep_singleton]
  -- windows 0 and 1 are the same whole array, so one rewrite serves both
  rw [(arr_whole0 0).set_eq_univ, (arr_whole0 2).set_eq_univ]
  rw [share0_0 c dat hq0, share0_1 c dat hq1, share0_2 c dat, hA 0, hA 1, hA 2]
  -- the operand's full share is cut in its halves; the output's buffer passes as it is
  refine (sep_mono (full_eq_halves _ _).1 .rfl).trans ?_
  exact sep_assoc.1

/-- EXIT. The three windows' arrays at contents `A` and the unscoped rest at `V` are the core's unscoped buffers
    at any contents `V'` that holds `A` at the windows' arrays and agrees with `V` elsewhere. Windows 0 and 1 then
    hold the shared operand at ONE contents (`V'` there), which is what lets the two halves join to the full share. -/
theorem join0 (c : Dev nD) (dat : Pipeline.Dat τ (Elt F) Unit ℕ (UR sig nD τ) ℕ cfg0 c)
    (hq0 : dat.q 0 = fullShare.left) (hq1 : dat.q 1 = fullShare.right)
    (V V' : (b : Ref sig .tc) → Buf (Elt F) ((c : Thread nD τ).loc b))
    (A : (w : Fin cfg0.W) → Buf (Elt F) ((cfg0.win w).arr.view.loc (c : Thread nD τ)))
    (hA : ∀ w, A w = V' (Pipeline.arrRef spec0 w))
    (hrest : ∀ b, b ∉ Finset.univ.image (Pipeline.arrRef spec0) → V' b = V b) :
    iprop(dat.arrays A ∗ Pipeline.unscopedRest spec0 c V) ⊢ (unscopedBufs c V' : sProp 𝕄) := by
  have h : (unscopedBufs c V' : sProp 𝕄) = iprop(Pipeline.arrBufs spec0 c V' ∗ Pipeline.unscopedRest spec0 c V') :=
    Pipeline.unscopedBufs_split₀ cfgs 0 winFacts₀0.arr_unscoped c V'
  rw [h]
  refine sep_mono ?_ (Entails.of_eq ?_)
  · unfold Pipeline.arrBufs Pipeline.Dat.arrays
    rw [image0, bigSep_W0, BI.bigSep_insert (by decide : main_arg0 ∉ ({main_v0} : Finset (Ref sig .tc))), BI.bigSep_singleton]
    rw [(arr_whole0 0).set_eq_univ, (arr_whole0 2).set_eq_univ]
    rw [share0_0 c dat hq0, share0_1 c dat hq1, share0_2 c dat, hA 0, hA 1, hA 2]
    -- the two halves, at the same contents, join to the operand's full share
    exact sep_assoc.2.trans (sep_mono (full_eq_halves _ _).2 .rfl)
  · -- off the windows' arrays the two contents agree
    unfold Pipeline.unscopedRest
    exact bigSep_congr fun b hb => by rw [hrest b (Finset.mem_sdiff.mp hb).2]

/-! ## pallas_call 1: windows 0 and 1 both on `main_arg1`, window 2 on `main_v3` -/

/-- The three windows sit on two distinct buffers: the shared operand and the output. -/
theorem image1 : Finset.univ.image (Pipeline.arrRef spec1) = {main_arg1, main_v3} := by decide

/-- Window 0 is an input: it holds its array at the share the proof data name, the left half. -/
theorem share1_0 (c : Dev nD) (dat : Pipeline.Dat τ (Elt F) Unit ℕ (UR sig nD τ) ℕ cfg1 c)
    (hq0 : dat.q 0 = fullShare.left) : dat.share 0 = fullShare.left := by
  unfold Pipeline.Dat.share; rw [if_neg (by decide)]; exact hq0
/-- Window 1 is an input: it holds its array at the share the proof data name, the right half. -/
theorem share1_1 (c : Dev nD) (dat : Pipeline.Dat τ (Elt F) Unit ℕ (UR sig nD τ) ℕ cfg1 c)
    (hq1 : dat.q 1 = fullShare.right) : dat.share 1 = fullShare.right := by
  unfold Pipeline.Dat.share; rw [if_neg (by decide)]; exact hq1
/-- Window 2 is the output: it holds its array at the full share, whatever the proof data name for it. -/
theorem share1_2 (c : Dev nD) (dat : Pipeline.Dat τ (Elt F) Unit ℕ (UR sig nD τ) ℕ cfg1 c) :
    dat.share 2 = fullShare := by
  unfold Pipeline.Dat.share; rw [if_pos (by decide)]

/-- ENTRY. The core's unscoped buffers at contents `V` are the three windows' arrays — the shared operand at the
    left half for window 0 and at the right half for window 1, the output at the full share, each at what `V`
    holds there — and the unscoped buffers that are no window's array. -/
theorem split1 (c : Dev nD) (dat : Pipeline.Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (A : (w : Fin cfg1.W) → Buf (Elt F) ((cfg1.win w).arr.view.loc (c : Thread nD τ)))
    (hA : ∀ w, A w = V (Pipeline.arrRef spec1 w)) :
    (unscopedBufs c V : sProp 𝕄) ⊢ iprop(dat.arrays A ∗ Pipeline.unscopedRest spec1 c V) := by
  have h : (unscopedBufs c V : sProp 𝕄) = iprop(Pipeline.arrBufs spec1 c V ∗ Pipeline.unscopedRest spec1 c V) :=
    Pipeline.unscopedBufs_split₀ cfgs 1 winFacts₀1.arr_unscoped c V
  rw [h]
  refine sep_mono ?_ .rfl
  unfold Pipeline.arrBufs Pipeline.Dat.arrays
  rw [image1, bigSep_W1, BI.bigSep_insert (by decide : main_arg1 ∉ ({main_v3} : Finset (Ref sig .tc))), BI.bigSep_singleton]
  -- windows 0 and 1 are the same whole array, so one rewrite serves both
  rw [(arr_whole1 0).set_eq_univ, (arr_whole1 2).set_eq_univ]
  rw [share1_0 c dat hq0, share1_1 c dat hq1, share1_2 c dat, hA 0, hA 1, hA 2]
  -- the operand's full share is cut in its halves; the output's buffer passes as it is
  refine (sep_mono (full_eq_halves _ _).1 .rfl).trans ?_
  exact sep_assoc.1

/-- EXIT. The three windows' arrays at contents `A` and the unscoped rest at `V` are the core's unscoped buffers
    at any contents `V'` that holds `A` at the windows' arrays and agrees with `V` elsewhere. Windows 0 and 1 then
    hold the shared operand at ONE contents (`V'` there), which is what lets the two halves join to the full share. -/
theorem join1 (c : Dev nD) (dat : Pipeline.Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (A : (w : Fin cfg1.W) → Buf (Elt F) ((cfg1.win w).arr.view.loc (c : Thread nD τ)))
    (hA : ∀ w, A w = V' (Pipeline.arrRef spec1 w))
    (hrest : ∀ b, b ∉ Finset.univ.image (Pipeline.arrRef spec1) → V' b = V b) :
    iprop(dat.arrays A ∗ Pipeline.unscopedRest spec1 c V) ⊢ (unscopedBufs c V' : sProp 𝕄) := by
  have h : (unscopedBufs c V' : sProp 𝕄) = iprop(Pipeline.arrBufs spec1 c V' ∗ Pipeline.unscopedRest spec1 c V') :=
    Pipeline.unscopedBufs_split₀ cfgs 1 winFacts₀1.arr_unscoped c V'
  rw [h]
  refine sep_mono ?_ (Entails.of_eq ?_)
  · unfold Pipeline.arrBufs Pipeline.Dat.arrays
    rw [image1, bigSep_W1, BI.bigSep_insert (by decide : main_arg1 ∉ ({main_v3} : Finset (Ref sig .tc))), BI.bigSep_singleton]
    rw [(arr_whole1 0).set_eq_univ, (arr_whole1 2).set_eq_univ]
    rw [share1_0 c dat hq0, share1_1 c dat hq1, share1_2 c dat, hA 0, hA 1, hA 2]
    -- the two halves, at the same contents, join to the operand's full share
    exact sep_assoc.2.trans (sep_mono (full_eq_halves _ _).2 .rfl)
  · -- off the windows' arrays the two contents agree
    unfold Pipeline.unscopedRest
    exact bigSep_congr fun b hb => by rw [hrest b (Finset.mem_sdiff.mp hb).2]

end Cert.KernelIdeal.Shared
-- ==== Proof.KILaunch.lean ====
/-
  The whole run of @main: three launches of the pairwise-sum kernel, each followed by a stretch of host operations.
  The core's buffers are followed from boundary to boundary: a launch changes its (1,1) result array only, to what the
  accumulation leaves at the last grid point; a host stretch changes the buffers it writes. Each launch is entered
  from every unscoped buffer held at the boundary's contents: its windows' arrays are split out (the two self launches
  read one array through two windows, each at half of its share), the pipeline runs, and the arrays are put back.
-/
import proofs.«136964_j73426760892841_1_alg».proof.Proof.KIRegion0
import proofs.«136964_j73426760892841_1_alg».proof.Proof.KIRegion1
import proofs.«136964_j73426760892841_1_alg».proof.Proof.KIRegion2
import proofs.«136964_j73426760892841_1_alg».proof.Proof.SharedWindowsIdeal
import proofs.«136964_j73426760892841_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev E0 : (c : Dev nD) → (b : Ref sig .tc) → Buf (Elt F) ((c : Thread nD τ).loc b) := fun c b => W0 m ρ c b
/-- What launch 0 leaves in its result array: the accumulation's last value, written back at the last point. -/
def res0 (c : Dev nD) : Buf (Elt F) ((c : Thread nD τ).loc main_v0) := (dat0 (E0 m ρ) c).arrAt 2 cfg0.N
/-- After launch 0. -/
def W1 (c : Dev nD) : Valuation τ sig (Elt F) := Function.update (W0 m ρ c) main_v0 (res0 m ρ c)
abbrev E1 : (c : Dev nD) → (b : Ref sig .tc) → Buf (Elt F) ((c : Thread nD τ).loc b) := fun c b => W1 m ρ c b
/-- After the first host stretch. -/
abbrev W2 : Dev nD → Valuation τ sig (Elt F) := fun c => StableHlo.after hostOps1 (W1 m ρ c)
abbrev E2 : (c : Dev nD) → (b : Ref sig .tc) → Buf (Elt F) ((c : Thread nD τ).loc b) := fun c b => W2 m ρ c b
def res1 (c : Dev nD) : Buf (Elt F) ((c : Thread nD τ).loc main_v3) := (dat1 (E2 m ρ) c).arrAt 2 cfg1.N
/-- After launch 1. -/
def W3 (c : Dev nD) : Valuation τ sig (Elt F) := Function.update (W2 m ρ c) main_v3 (res1 m ρ c)
abbrev E3 : (c : Dev nD) → (b : Ref sig .tc) → Buf (Elt F) ((c : Thread nD τ).loc b) := fun c b => W3 m ρ c b
/-- After the second host stretch. -/
abbrev W4 : Dev nD → Valuation τ sig (Elt F) := fun c => StableHlo.after hostOps2 (W3 m ρ c)
abbrev E4 : (c : Dev nD) → (b : Ref sig .tc) → Buf (Elt F) ((c : Thread nD τ).loc b) := fun c b => W4 m ρ c b
def res2 (c : Dev nD) : Buf (Elt F) ((c : Thread nD τ).loc main_v6) := (dat2 (E4 m ρ) c).arrAt 2 cfg2.N
/-- After launch 2. -/
def W5 (c : Dev nD) : Valuation τ sig (Elt F) := Function.update (W4 m ρ c) main_v6 (res2 m ρ c)
abbrev E5 : (c : Dev nD) → (b : Ref sig .tc) → Buf (Elt F) ((c : Thread nD τ).loc b) := fun c b => W5 m ρ c b
/-- After the last host stretch: the end. -/
abbrev W6 : Dev nD → Valuation τ sig (Elt F) := fun c => StableHlo.after hostOps3 (W5 m ρ c)

theorem W1_res (c : Dev nD) : W1 m ρ c main_v0 = res0 m ρ c := by unfold W1; exact Function.update_self ..
theorem W1_of_ne (c : Dev nD) (b : Ref sig .tc) (h : b ≠ main_v0) : W1 m ρ c b = W0 m ρ c b := by
  unfold W1; exact Function.update_of_ne (StableHlo.devRef_ne_of_ne h) ..
theorem W3_res (c : Dev nD) : W3 m ρ c main_v3 = res1 m ρ c := by unfold W3; exact Function.update_self ..
theorem W3_of_ne (c : Dev nD) (b : Ref sig .tc) (h : b ≠ main_v3) : W3 m ρ c b = W2 m ρ c b := by
  unfold W3; exact Function.update_of_ne (StableHlo.devRef_ne_of_ne h) ..
theorem W5_res (c : Dev nD) : W5 m ρ c main_v6 = res2 m ρ c := by unfold W5; exact Function.update_self ..
theorem W5_of_ne (c : Dev nD) (b : Ref sig .tc) (h : b ≠ main_v6) : W5 m ρ c b = W4 m ρ c b := by
  unfold W5; exact Function.update_of_ne (StableHlo.devRef_ne_of_ne h) ..
theorem W2_of (c : Dev nD) (r : Ref sig .tc) (h : r ∉ hostOps1_W) : W2 m ρ c r = W1 m ρ c r :=
  StableHlo.after_of_writes_sub hostOps1 _ hostOps1_writes h
theorem W4_of (c : Dev nD) (r : Ref sig .tc) (h : r ∉ hostOps2_W) : W4 m ρ c r = W3 m ρ c r :=
  StableHlo.after_of_writes_sub hostOps2 _ hostOps2_writes h
theorem W6_of (c : Dev nD) (r : Ref sig .tc) (h : r ∉ hostOps3_W) : W6 m ρ c r = W5 m ρ c r :=
  StableHlo.after_of_writes_sub hostOps3 _ hostOps3_writes h

/-- The arguments reach the end as launched: no launch and no host stretch writes one. -/
theorem W6_main_arg0 (c : Dev nD) : W6 m ρ c main_arg0 = m ((c : Thread nD τ).loc main_arg0) :=
  (W6_of m ρ c main_arg0 (by decide)).trans <| (W5_of_ne m ρ c main_arg0 (by decide)).trans <| (W4_of m ρ c main_arg0 (by decide)).trans <|
    (W3_of_ne m ρ c main_arg0 (by decide)).trans <| (W2_of m ρ c main_arg0 (by decide)).trans <| (W1_of_ne m ρ c main_arg0 (by decide)).trans rfl
theorem W6_main_arg1 (c : Dev nD) : W6 m ρ c main_arg1 = m ((c : Thread nD τ).loc main_arg1) :=
  (W6_of m ρ c main_arg1 (by decide)).trans <| (W5_of_ne m ρ c main_arg1 (by decide)).trans <| (W4_of m ρ c main_arg1 (by decide)).trans <|
    (W3_of_ne m ρ c main_arg1 (by decide)).trans <| (W2_of m ρ c main_arg1 (by decide)).trans <| (W1_of_ne m ρ c main_arg1 (by decide)).trans rfl

/-! ## The proof data family and the thread state -/

abbrev adm : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E2 m ρ) c
  | ⟨2, _⟩ => fun c => dat2 (E4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-- At launch 0's exit each of its arrays holds what the pipeline leaves: an input as entered, the result the
    accumulation's last value; every other buffer is as entered. -/
theorem hF0 (c : Dev nD) : ∀ w : Fin cfg0.W, (pdats m ρ 0 c).arrAt w cfg0.N = E1 m ρ c (Pipeline.arrRef spec0 w)
  | 0 => ((pdats m ρ 0 c).arrAt_in 0 rfl _).trans ((A_eq0 (E0 m ρ) c 0).trans (W1_of_ne m ρ c main_arg0 (by decide)).symm)
  | 1 => ((pdats m ρ 0 c).arrAt_in 1 rfl _).trans ((A_eq0 (E0 m ρ) c 1).trans (W1_of_ne m ρ c main_arg0 (by decide)).symm)
  | 2 => (W1_res m ρ c).symm
  | ⟨_ + 3, h⟩ => absurd h (Nat.not_lt.2 (Nat.le_add_left _ _))
theorem hrest0 (c : Dev nD) : ∀ b, b ∉ Finset.univ.image (Pipeline.arrRef spec0) → E1 m ρ c b = E0 m ρ c b :=
  fun b hb => W1_of_ne m ρ c b fun e => hb (Finset.mem_image.mpr ⟨2, Finset.mem_univ _, e.symm⟩)

set_option backward.isDefEq.respectTransparency.types false in
/-- Launch 0 over the thread state: entered from every unscoped buffer at the boundary's contents, left at the next
    boundary's. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Shared.split0 c (pdats m ρ 0 c) rfl rfl (E0 m ρ c) ((pdats m ρ 0 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Shared.join0 c (pdats m ρ 0 c) rfl rfl (E0 m ρ c) (E1 m ρ c) ((pdats m ρ 0 c).arrAt · cfg0.N)
      (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At launch 1's exit each of its arrays holds what the pipeline leaves: an input as entered, the result the
    accumulation's last value; every other buffer is as entered. -/
theorem hF1 (c : Dev nD) : ∀ w : Fin cfg1.W, (pdats m ρ 1 c).arrAt w cfg1.N = E3 m ρ c (Pipeline.arrRef spec1 w)
  | 0 => ((pdats m ρ 1 c).arrAt_in 0 rfl _).trans ((A_eq1 (E2 m ρ) c 0).trans (W3_of_ne m ρ c main_arg1 (by decide)).symm)
  | 1 => ((pdats m ρ 1 c).arrAt_in 1 rfl _).trans ((A_eq1 (E2 m ρ) c 1).trans (W3_of_ne m ρ c main_arg1 (by decide)).symm)
  | 2 => (W3_res m ρ c).symm
  | ⟨_ + 3, h⟩ => absurd h (Nat.not_lt.2 (Nat.le_add_left _ _))
theorem hrest1 (c : Dev nD) : ∀ b, b ∉ Finset.univ.image (Pipeline.arrRef spec1) → E3 m ρ c b = E2 m ρ c b :=
  fun b hb => W3_of_ne m ρ c b fun e => hb (Finset.mem_image.mpr ⟨2, Finset.mem_univ _, e.symm⟩)

set_option backward.isDefEq.respectTransparency.types false in
/-- Launch 1 over the thread state: entered from every unscoped buffer at the boundary's contents, left at the next
    boundary's. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (E2 m ρ c)
  hentry c := by
    rw [Pipeline.ownSems0_none]
    have hsplit := Shared.split1 c (pdats m ρ 1 c) rfl rfl (E2 m ρ c) ((pdats m ρ 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Shared.join1 c (pdats m ρ 1 c) rfl rfl (E2 m ρ c) (E3 m ρ c) ((pdats m ρ 1 c).arrAt · cfg1.N)
      (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At launch 2's exit each of its arrays holds what the pipeline leaves: an input as entered, the result the
    accumulation's last value; every other buffer is as entered. -/
theorem hF2 (c : Dev nD) : ∀ w : Fin cfg2.W, (pdats m ρ 2 c).arrAt w cfg2.N = E5 m ρ c (Pipeline.arrRef spec2 w)
  | 0 => ((pdats m ρ 2 c).arrAt_in 0 rfl _).trans ((A_eq2 (E4 m ρ) c 0).trans (W5_of_ne m ρ c main_arg0 (by decide)).symm)
  | 1 => ((pdats m ρ 2 c).arrAt_in 1 rfl _).trans ((A_eq2 (E4 m ρ) c 1).trans (W5_of_ne m ρ c main_arg1 (by decide)).symm)
  | 2 => (W5_res m ρ c).symm
  | ⟨_ + 3, h⟩ => absurd h (Nat.not_lt.2 (Nat.le_add_left _ _))
theorem hrest2 (c : Dev nD) : ∀ b, b ∉ Finset.univ.image (Pipeline.arrRef spec2) → E5 m ρ c b = E4 m ρ c b :=
  fun b hb => W5_of_ne m ρ c b fun e => hb (Finset.mem_image.mpr ⟨2, Finset.mem_univ _, e.symm⟩)

set_option backward.isDefEq.respectTransparency.types false in
/-- Launch 2 over the thread state: entered from every unscoped buffer at the boundary's contents, left at the next
    boundary's. -/
def reg2 : Pipeline.RegionSeg (pcfgs (F := F)) adm (pdats m ρ) () defs₀ 𝒱₀ L lv 2 where
  win := launch2.win.to₀
  block_pos := block_pos2
  stage_whole := stage_whole2
  K := PEmpty
  osem k := k.elim
  ho := Pipeline.OwnSemFacts.none _
  hbody c := (body_obligation2 (E4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (E4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E4 m ρ c) (E5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- @main's six segments in order: a launch, then the host stretch that follows it, three times. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)),
    .region (reg2 m ρ),
    .host (hseg hostOps3 hostOps3_sub hostOps3_fresh (W5 m ρ)) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every final
    state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W6_main_arg0 m ρ c),
     (h c _ (mem_uc main_arg1 (by decide))).trans (W6_main_arg1 m ρ c)⟩) (run_all m ρ)

/-- The run with the result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v11) = W6 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v11 (by decide)),
     (h c _ (mem_uc main_arg0 (by decide))).trans (W6_main_arg0 m ρ c),
     (h c _ (mem_uc main_arg1 (by decide))).trans (W6_main_arg1 m ρ c)⟩) (run_all m ρ)

end Cert.KernelIdeal.Hand

end
-- ==== Proof.Spec.lean ====
/-
  The quantity both programs compute, written once over the extended reals.

  For two clouds of 8192 points in dimension 256 (rows of `x` and `y`) the squared distance of row `i` of `x` to row `j`
  of `y` is taken by the expansion |x_i|² + |y_j|² − 2·⟨x_i, y_j⟩, and the pair's statistic is the mean over all (i, j) of
  exp(−d/1) + exp(−d/2). The result is stat(s, s) + stat(t, t) − 2·stat(s, t).

  Two arrangements of that mean are stated here. The streamed one walks the columns `j` in 128 blocks of 64, adds
  exp(−d/1) + exp(−d/2) over a whole block at once, sums the blocks and divides once; for a cloud against itself it
  takes the distance on the diagonal i = j to be 0 outright. The plain one takes the two means separately and adds them.
  The float words (1.0, 2.0, 2²⁶) are kept as words read at the ideal instance.
-/
import Idealize.ShloMosaic.PureOps.Ideal
import Idealize.ShloMosaic.Lib.ValueIdx

noncomputable section

namespace Cert.MmdSpec

open Idealize.ShloMosaic Idealize.ShloMosaic.ValueIdx

/-- A cloud: 8192 points of dimension 256. -/
abbrev Pts : Type := (⟨2, ![8192, 256]⟩ : Shape).Idx → EReal
/-- A block of 64 consecutive points of a cloud. -/
abbrev Blk : Type := (⟨2, ![64, 256]⟩ : Shape).Idx → EReal

/-- The words 1.0, 2.0 and 2²⁶ = 8192·8192 of the programs, read as extended reals. -/
def one : EReal := Ideal.ofBits .f32 0x3F800000#32
def two : EReal := Ideal.ofBits .f32 0x40000000#32
def count : EReal := Ideal.ofBits .f32 0x4C800000#32

/-- |x_i|². -/
def sq (x : Pts) (i : Fin 8192) : EReal := ∑ k : Fin 256, x (ix2 i k) * x (ix2 i k)
/-- ⟨x_i, y_j⟩. -/
def dot (x y : Pts) (i j : Fin 8192) : EReal := ∑ k : Fin 256, x (ix2 i k) * y (ix2 j k)
/-- The squared distance by the expansion. -/
def dist2 (x y : Pts) (i j : Fin 8192) : EReal := (sq x i + sq y j) - two * dot x y i j

/-! ## The plain arrangement -/

/-- The mean over all pairs of exp(−d/w). -/
def meanExp (x y : Pts) (w : EReal) : EReal :=
  Ideal.div (∑ i : Fin 8192, ∑ j : Fin 8192, Ideal.exp (Ideal.div (-(dist2 x y i j)) w)) count
/-- A pair's statistic: the two widths' means added. -/
def plainStat (x y : Pts) : EReal := meanExp x y one + meanExp x y two
/-- stat(s, s) + stat(t, t) − 2·stat(s, t). -/
def plainResult (s t : Pts) : EReal := (plainStat s s + plainStat t t) - two * plainStat s t

/-! ## The streamed arrangement -/

/-- |b_j|² and ⟨x_i, b_j⟩ for a block `b`. -/
def sqB (b : Blk) (j : Fin 64) : EReal := ∑ k : Fin 256, b (ix2 j k) * b (ix2 j k)
def dotB (x : Pts) (b : Blk) (i : Fin 8192) (j : Fin 64) : EReal := ∑ k : Fin 256, x (ix2 i k) * b (ix2 j k)
/-- Both widths' terms of one squared distance. -/
def term (d : EReal) : EReal := Ideal.exp (Ideal.div (0 - d) one) + Ideal.exp (Ideal.div (0 - d) two)
/-- The squared distance the streamed arrangement uses at row `i` against column `j` of block number `n`: for a cloud
    against itself the diagonal (row `i` = column `64·n + j`) is 0 outright. -/
def blockDist (self : Bool) (n : ℕ) (x : Pts) (b : Blk) (i : Fin 8192) (j : Fin 64) : EReal :=
  if self = true ∧ i.val = 64 * n + j.val then 0 else (sq x i + sqB b j) - two * dotB x b i j
/-- One block's contribution: the terms of all 8192 × 64 distances added. -/
def blockSum (self : Bool) (n : ℕ) (x : Pts) (b : Blk) : EReal :=
  ∑ i : Fin 8192, ∑ j : Fin 64, term (blockDist self n x b i j)
/-- Block `n` of a cloud: its rows 64·n … 64·n + 63. -/
def rowsOf (y : Pts) (n : Fin 128) : Blk :=
  fun a => y (ix2 (⟨64 * n.val + (a 0).val, by have := (a 0).isLt; have := n.isLt; simp only [Matrix.cons_val_zero] at *; omega⟩ : Fin 8192) (a 1))
/-- A pair's statistic: the 128 blocks' contributions added, divided once. -/
def streamStat (self : Bool) (x y : Pts) : EReal :=
  Ideal.div (∑ n : Fin 128, blockSum self n.val x (rowsOf y n)) count
/-- stat(s, s) + stat(t, t) − 2·stat(s, t), streamed; the two self pairs take the diagonal as 0. -/
def streamResult (s t : Pts) : EReal :=
  (streamStat true s s + streamStat true t t) - two * streamStat false s t

/-- Every coordinate is a real number. -/
def Finite {S : Shape} (x : S.Idx → EReal) : Prop := ∀ a, ∃ r : ℝ, x a = (r : EReal)

end Cert.MmdSpec

end
-- ==== Proof.KITail.lean ====
/-
  The host operations after the three launches, read as one formula.

  Each launch leaves a 1 × 1 array holding its accumulated sum. After a launch the host views that array as a scalar
  and divides it by the word of 2²⁶ (the number of pairs); after the third it adds the first two quotients, doubles
  the third and subtracts. No step in between touches an earlier quotient, and none touches an argument array, so the
  final scalar is (r₀/N + r₁/N) − 2·(r₂/N) of the three launches' sums r₀, r₁, r₂, and every launch is entered with
  the argument arrays as they were at the start.
-/
import proofs.«136964_j73426760892841_1_alg».proof.Proof.KILaunch
import proofs.«136964_j73426760892841_1_alg».proof.Proof.Spec
import Idealize.ShloMosaic.Lib.StableHlo.Run
import Idealize.ShloMosaic.Lib.ValueIdx

set_option maxRecDepth 16384

noncomputable section

namespace Cert.KernelIdeal.Tail

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Hand

/-! ## What each launch is entered with -/

section Entry
variable {F : FTy → Type} [FloatOps F] (m : (ℓ : Loc nD τ sig) → Buf (Elt F) ℓ) (ρ : Dev nD → PrngReg)

/-- The first launch reads the first cloud as launched. -/
theorem E0_main_arg0 [Cert.KernelIdeal.Facts] (c : Dev nD) : E0 m ρ c main_arg0 = m ((c : Thread nD τ).loc main_arg0) := rfl
/-- The second launch reads the second cloud as launched: neither the first launch nor the first host stretch writes it. -/
theorem E2_main_arg1 [Cert.KernelIdeal.Facts] (c : Dev nD) : E2 m ρ c main_arg1 = m ((c : Thread nD τ).loc main_arg1) :=
  (W2_of m ρ c main_arg1 (by decide)).trans <| (W1_of_ne m ρ c main_arg1 (by decide)).trans rfl
/-- The third launch reads both clouds as launched. -/
theorem E4_main_arg0 [Cert.KernelIdeal.Facts] (c : Dev nD) : E4 m ρ c main_arg0 = m ((c : Thread nD τ).loc main_arg0) :=
  (W4_of m ρ c main_arg0 (by decide)).trans <| (W3_of_ne m ρ c main_arg0 (by decide)).trans <|
    (W2_of m ρ c main_arg0 (by decide)).trans <| (W1_of_ne m ρ c main_arg0 (by decide)).trans rfl
theorem E4_main_arg1 [Cert.KernelIdeal.Facts] (c : Dev nD) : E4 m ρ c main_arg1 = m ((c : Thread nD τ).loc main_arg1) :=
  (W4_of m ρ c main_arg1 (by decide)).trans <| (W3_of_ne m ρ c main_arg1 (by decide)).trans <|
    (W2_of m ρ c main_arg1 (by decide)).trans <| (W1_of_ne m ρ c main_arg1 (by decide)).trans rfl

end Entry

variable (m : (ℓ : Loc nD τ sig) → Buf (Elt Ideal) ℓ) (ρ : Dev nD → PrngReg)

/-! ## A 1 × 1 array viewed as a scalar -/

/-- A 1 × 1 array has the one index (0, 0). -/
theorem idx11 (k : S1x1.Idx) : k = ix2 (0 : Fin 1) (0 : Fin 1) :=
  funext fun a => Fin.ext (by
    match a with
    | ⟨0, _⟩ => have := idx2_lt0 k; show (k 0).val = 0; omega
    | ⟨1, _⟩ => have := idx2_lt1 k; show (k 1).val = 0; omega)

/-- The scalar view of a 1 × 1 array reads its one entry. -/
theorem scalar_read (x : S1x1.Idx → EReal) (h : S1x1.ShapeCasts S_) (j : S_.Idx) :
    shapeCast S_ x h j = x (ix2 (0 : Fin 1) (0 : Fin 1)) :=
  congrArg x (idx11 _)

/-! ## The three quotients -/

/-- After the first host stretch the first quotient is the first launch's sum over the number of pairs. -/
theorem W2_main_v2 [Cert.KernelIdeal.Facts] (c : Dev nD) :
    (W2 (F := Ideal) m ρ c main_v2 : S_.Idx → EReal)
      = fun _ => Ideal.div ((res0 m ρ c : S1x1.Idx → EReal) (ix2 (0 : Fin 1) (0 : Fin 1))) Cert.MmdSpec.count := by
  show StableHlo.after hostOps1 (W1 m ρ c) (Proc.devRef .tc main_v2) = _
  after_results
  rw [W1_res]
  funext j
  show Ideal.div (shapeCast S_ (res0 m ρ c) Facts₀.shapeCasts_S1x1_S_ j) (Ideal.ofBits .f32 0x4C800000#32) = _
  rw [scalar_read]
  rfl

/-- After the second host stretch the second quotient is the second launch's sum over the number of pairs. -/
theorem W4_main_v5 [Cert.KernelIdeal.Facts] (c : Dev nD) :
    (W4 (F := Ideal) m ρ c main_v5 : S_.Idx → EReal)
      = fun _ => Ideal.div ((res1 m ρ c : S1x1.Idx → EReal) (ix2 (0 : Fin 1) (0 : Fin 1))) Cert.MmdSpec.count := by
  show StableHlo.after hostOps2 (W3 m ρ c) (Proc.devRef .tc main_v5) = _
  after_results
  rw [W3_res]
  funext j
  show Ideal.div (shapeCast S_ (res1 m ρ c) Facts₀.shapeCasts_S1x1_S_ j) (Ideal.ofBits .f32 0x4C800000#32) = _
  rw [scalar_read]
  rfl

/-! ## The result -/

/-- The first quotient reaches the last host stretch untouched: the launches and the second stretch write elsewhere. -/
theorem W5_main_v2 [Cert.KernelIdeal.Facts] (c : Dev nD) : W5 (F := Ideal) m ρ c main_v2 = W2 m ρ c main_v2 :=
  (W5_of_ne m ρ c main_v2 (by decide)).trans <| (W4_of m ρ c main_v2 (by decide)).trans (W3_of_ne m ρ c main_v2 (by decide))
/-- So does the second. -/
theorem W5_main_v5 [Cert.KernelIdeal.Facts] (c : Dev nD) : W5 (F := Ideal) m ρ c main_v5 = W4 m ρ c main_v5 :=
  W5_of_ne m ρ c main_v5 (by decide)

/-- The final scalar: the first two launches' quotients added, minus twice the third's. -/
theorem tail_eq [Cert.KernelIdeal.Facts] (c : Dev nD) :
    (W6 (F := Ideal) m ρ c main_v11 : S_.Idx → EReal)
      = fun _ => (Ideal.div ((res0 m ρ c : S1x1.Idx → EReal) (ix2 (0 : Fin 1) (0 : Fin 1))) Cert.MmdSpec.count
          + Ideal.div ((res1 m ρ c : S1x1.Idx → EReal) (ix2 (0 : Fin 1) (0 : Fin 1))) Cert.MmdSpec.count)
        - Cert.MmdSpec.two * Ideal.div ((res2 m ρ c : S1x1.Idx → EReal) (ix2 (0 : Fin 1) (0 : Fin 1))) Cert.MmdSpec.count := by
  show StableHlo.after hostOps3 (W5 m ρ c) (Proc.devRef .tc main_v11) = _
  after_results
  rw [W5_res, W5_main_v2, W5_main_v5, W2_main_v2, W4_main_v5]
  funext j
  show (Ideal.div _ Cert.MmdSpec.count + Ideal.div _ Cert.MmdSpec.count)
      - Ideal.ofBits .f32 0x40000000#32
        * Ideal.div (shapeCast S_ (res2 m ρ c) Facts₀.shapeCasts_S1x1_S_ j) (Ideal.ofBits .f32 0x4C800000#32) = _
  rw [scalar_read]
  rfl

end Cert.KernelIdeal.Tail

end
-- ==== Proof.LibKeepdimsColumn.lean ====
/-
  Column layouts read at coordinates.

  A row reduction that keeps its axis (a mean or a variance over the lanes of each row, kept as a column) reaches the
  rest of a computation through two layout steps: the vector of per-row values, of extent `a`, is viewed as an
  `a × 1` column, and that column is repeated across `b` lanes to meet an `a × b` matrix. Both steps move no
  value: the column at `(i, 0)` is the vector at `i`, and the repeated column at `(p, c)` is the column at
  `(p, 0)`, whatever the lane `c`. The two lemmas below say exactly that, at indices written by coordinates, for
  any extents.
-/
import Idealize.ShloMosaic.Lib.Pipeline.Value
import Idealize.ShloMosaic.Lib.ValueIdx

namespace KeepdimsColumn

open Idealize.ShloMosaic Idealize.ShloMosaic.ValueIdx

variable {α : Type}

/-- A vector of extent `a` viewed as an `a × 1` column reads, at `(i, u)`, the vector at `i`: the unit
    coordinate `u` can only be `0`, and both indices sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` lanes reads, at `(p, c)`, the column's entry of row `p`: the row
    coordinate is kept (it is `0` anyway when there is one row only) and the lane coordinate is dropped to the
    column's single lane. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end KeepdimsColumn
-- ==== Proof.LibTransposedMatmul.lean ====
/-
  A matrix product whose right operand is contracted on its second axis, read at coordinates.

  For the contraction `[M, K] × [N, K] → [M, N]` (each operand contracted on its second axis, no batch axis),
  accumulated into the zero matrix, the entry `(r, c)` of the result is `Σ_k lhs (r, k) · rhs (c, k)` on the extended
  reals, at any extents: row `r` of the left operand against row `c` of the right one — the product `A · Bᵀ` with no
  transpose ever formed. The one contraction coordinate `k` runs over `Fin K`.
-/
import Idealize.ShloMosaic.Lib.ValueIdx
import Idealize.ShloMosaic.PureOps.Ideal.Laws

namespace Cert.TransposedMatmul

open Idealize.ShloMosaic Idealize.ShloMosaic.ValueIdx

variable {M K N : ℕ}

/-- The left operand's row coordinate is the result's row coordinate. -/
theorem lhs_row (j : (⟨2, ![M, N]⟩ : Shape).Idx) (q : (DotDims.transposedRhs M K N).contr.Idx) :
    ((DotDims.transposedRhs M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from
      List.mem_singleton.mpr rfl)]
  rfl

/-- The right operand's row coordinate is the result's column coordinate. -/
theorem rhs_row (j : (⟨2, ![M, N]⟩ : Shape).Idx) (q : (DotDims.transposedRhs M K N).contr.Idx) :
    ((DotDims.transposedRhs M K N).rhsIdx j q (0 : Fin (⟨2, ![N, K]⟩ : Shape).rank)).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from
      List.mem_singleton.mpr rfl)]
  rfl

/-- The product into the zero matrix, at `(r, c)`: the sum over `k` of `lhs (r, k) · rhs (c, k)`. -/
theorem transposedRhs_apply {φ₁ φ₂ : FTy} (lhs : FVec Ideal ⟨2, ![M, K]⟩ φ₁) (rhs : FVec Ideal ⟨2, ![N, K]⟩ φ₂)
    (r : Fin M) (c : Fin N) :
    FloatOps.matmul (DotDims.transposedRhs M K N) none lhs rhs (constant ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx (ix2 r c) ((contrEquiv1 (DotDims.transposedRhs M K N) K rfl rfl).symm k)
      = ix2 c k :=
    funext fun a => Fin.ext (by
      match a with
      | ⟨0, _⟩ => exact rhs_row _ _
      | ⟨1, _⟩ => exact ((DotDims.transposedRhs M K N).rhsIdx_val_of_single rfl _ _).trans hk)
  rw [el, er]

end Cert.TransposedMatmul
-- ==== Proof.Payload.lean ====
/-
  One grid point's arithmetic, read as a formula.

  At a grid point the kernel holds the whole first cloud `x` (8192 rows) and one block `b` of 64 rows of the second.
  It forms the row norms |x_p|² (lane sums of x ⊙ x, kept as a column) and |b_q|² (the same, turned into a row), the
  products ⟨x_p, b_q⟩ by one contraction of the two operands on their lane axis into a zero matrix, and from them the
  8192 × 64 matrix of squared distances |x_p|² + |b_q|² − 2⟨x_p, b_q⟩. For a cloud against itself the entries on the
  global diagonal — row p against column 64·n + q of block number n — are replaced by 0, the test being an equality of
  32-bit counters that cannot wrap at these extents. Every entry d then contributes exp((0 − d)/1) + exp((0 − d)/2), and
  all 8192 × 64 contributions are added into one number. The lemmas below read each of these steps at a pair of
  coordinates (p, q); together they say that the number is the specification's `blockSum`.
-/
import proofs.«136964_j73426760892841_1_alg».proof.Proof.Spec
import proofs.«136964_j73426760892841_1_alg».proof.Proof.LibKeepdimsColumn
import proofs.«136964_j73426760892841_1_alg».proof.Proof.LibTransposedMatmul
import proofs.«136964_j73426760892841_1_alg».proof.Proof.Gen.KernelIdeal.Skeleton
import Idealize.ShloMosaic.Lib.ValueLayout
import Idealize.ShloMosaic.Lib.Pipeline.Value
import Idealize.ShloMosaic.PureOps.Ideal.Laws

noncomputable section

namespace Cert.MmdPayload

open Idealize.ShloMosaic Idealize.ShloMosaic.ValueIdx Cert.MmdSpec Cert.KernelIdeal

/-! ## The three ingredients of a squared distance -/

/-- The lanes of each row of `x ⊙ x` added up: at row `p`, the squared norm Σ_k x(p,k)². -/
theorem rowSq_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ (mulf x x) 0x00000000#32 h hφ hacc (ix1 p)
      = ∑ k : Fin b, x (ix2 p k) * x (ix2 p k) := by
  refine (Ideal.multiReduction_add_single (mulf x x) _ h hφ hacc (ix1 p)).trans ?_
  refine Finset.sum_congr rfl fun k _ => ?_
  have e : h.lift (ix1 p) k = ix2 p k :=
    funext fun d => Fin.ext (by match d with | ⟨0, _⟩ => rfl | ⟨1, _⟩ => rfl)
  rw [e]; rfl

/-- The squared distance of row `p` of `x` to row `q` of `b` as the kernel builds it: the column of row norms
    of `x` spread over the lanes, plus the row of row norms of `b` spread over the rows, minus twice the
    contraction of the two operands on their lane axis (their narrowing to bf16 changes no value here). -/
theorem dist_apply (x : FVec Ideal S8192x256 .f32) (b : FVec Ideal S64x256 .f32)
    (hr1 : S8192x256.Reduces [1] S8192) (hc1 : S8192.ShapeCasts S8192x1)
    (hr2 : S64x256.Reduces [1] S64) (hc2 : S64.ShapeCasts S64x1)
    (ht : S64x1.Transposes [1, 0] S1x64) (hlt : FTy.bits .bf16 < FTy.bits .f32)
    (hb1 : S8192x1.Broadcasts S8192x64) (hb2 : S1x64.Broadcasts S8192x64)
    (hφ : FKind.Formats .f32) (hacc : (0x00000000#32 : BitVec 32) = FKind.add.neutral .f32 hφ)
    (D : DotDims S8192x256 S64x256 S8192x64) (hD : D = DotDims.transposedRhs 8192 256 64)
    (p : Fin 8192) (q : Fin 64) :
    subf (addf
        (broadcastTo S8192x64 (shapeCast S8192x1
          (multiReduction (F := Ideal) .add [1] S8192 (mulf x x) 0x00000000#32 hr1 hφ hacc) hc1) hb1)
        (broadcastTo S8192x64 (transpose S1x64 [1, 0] (shapeCast S64x1
          (multiReduction (F := Ideal) .add [1] S64 (mulf b b) 0x00000000#32 hr2 hφ hacc) hc2) ht) hb2))
      (mulf (broadcast S8192x64 (Scalar.ofBits (F := Ideal) .f32 0x40000000#32))
        (matmul D none (truncf .bf16 x hlt) (truncf .bf16 b hlt) (constant (F := Ideal) S8192x64 .f32 0x00000000#32)))
      (ix2 p q)
      = (sq x p + sqB b q) - two * dotB x b p q := by
  subst hD
  show (broadcastTo S8192x64 _ hb1 (ix2 p q) + broadcastTo S8192x64 _ hb2 (ix2 p q))
      - Ideal.ofBits .f32 0x40000000#32
        * FloatOps.matmul (DotDims.transposedRhs 8192 256 64) none (truncf .bf16 x hlt) (truncf .bf16 b hlt)
            (constant (F := Ideal) S8192x64 .f32 0x00000000#32) (ix2 p q) = _
  rw [KeepdimsColumn.broadcastTo_a1_ab_apply, KeepdimsColumn.shapeCast_a_a1_apply, rowSq_apply,
    broadcastTo_1b_ab_apply, transpose_ix2_apply, KeepdimsColumn.shapeCast_a_a1_apply, rowSq_apply,
    Cert.TransposedMatmul.transposedRhs_apply]
  rfl

/-! ## The diagonal test -/

/-- The counters cannot wrap: row `p` < 8192 equals `n · 64 + q` as 32-bit words exactly when it does as numbers,
    for a block number `n` < 128 and a lane `q` < 64. -/
theorem diag_iff (n : ℕ) (hn : n < 128) (p : Fin 8192) (q : Fin 64) :
    BitVec.ofNat 32 p.val = IntOp.addi (Scalar.muli (BitVec.ofNat 32 n) 64#32) (BitVec.ofNat 32 q.val)
      ↔ p.val = 64 * n + q.val := by
  have hp := p.isLt
  have hq := q.isLt
  have e : (IntOp.addi (Scalar.muli (BitVec.ofNat 32 n) 64#32) (BitVec.ofNat 32 q.val)).toNat = 64 * n + q.val := by
    show (BitVec.ofNat 32 n * 64#32 + BitVec.ofNat 32 q.val).toNat = _
    rw [BitVec.toNat_add, BitVec.toNat_mul, BitVec.toNat_ofNat, BitVec.toNat_ofNat, BitVec.toNat_ofNat]
    omega
  constructor
  · intro h
    have h' := congrArg BitVec.toNat h
    rw [e, BitVec.toNat_ofNat] at h'
    omega
  · intro h
    apply BitVec.eq_of_toNat_eq
    rw [e, BitVec.toNat_ofNat]
    omega

/-- The override at `(p, q)`: the entry is replaced by 0 exactly on the global diagonal `p = 64·n + q`. -/
theorem select_diag_apply (n : ℕ) (hn : n < 128) (V : FVec Ideal S8192x64 .f32)
    (h0 : S8192x64.Iotas .tc 32 [0]) (h1 : S8192x64.Iotas .tc 32 [1]) (p : Fin 8192) (q : Fin 64) :
    select (cmpi .eq (iota .tc S8192x64 32 [0] h0)
        (addi (broadcast S8192x64 (Scalar.muli (BitVec.ofNat 32 n) 64#32)) (iota .tc S8192x64 32 [1] h1)))
      (broadcast S8192x64 (Scalar.ofBits (F := Ideal) .f32 0x00000000#32)) V (ix2 p q)
      = if p.val = 64 * n + q.val then 0 else V (ix2 p q) := by
  show Scalar.select (IntOp.cmpi .eq (iota .tc S8192x64 32 [0] h0 (ix2 p q))
        (IntOp.addi (Scalar.muli (BitVec.ofNat 32 n) 64#32) (iota .tc S8192x64 32 [1] h1 (ix2 p q))))
      (Ideal.ofBits .f32 0x00000000#32) (V (ix2 p q)) = _
  rw [iota_single_apply, iota_single_apply, Ideal.ofBits_zero_f32]
  show (if BitVec.ofBool (BitVec.ofNat 32 p.val
      == IntOp.addi (Scalar.muli (BitVec.ofNat 32 n) 64#32) (BitVec.ofNat 32 q.val)) = 1 then (0 : EReal) else V (ix2 p q)) = _
  by_cases hd : p.val = 64 * n + q.val
  · rw [if_pos hd, (diag_iff n hn p q).2 hd]; simp
  · have hne : ¬BitVec.ofNat 32 p.val
        = IntOp.addi (Scalar.muli (BitVec.ofNat 32 n) 64#32) (BitVec.ofNat 32 q.val) :=
      fun h => hd ((diag_iff n hn p q).1 h)
    have hc : ¬BitVec.ofBool (BitVec.ofNat 32 p.val
        == IntOp.addi (Scalar.muli (BitVec.ofNat 32 n) 64#32) (BitVec.ofNat 32 q.val)) = 1 := by
      rw [beq_eq_false_iff_ne.2 hne]; decide
    rw [if_neg hd, if_neg hc]

/-! ## From a distance to its two exponentials, and the sum of all of them -/

/-- The two widths' terms of one distance `d`, as the kernel spells them with the words 0.0, 1.0 and 2.0. -/
theorem term_apply (V : FVec Ideal S8192x64 .f32) (j : S8192x64.Idx) :
    addf
      (exp (divf (subf (broadcast S8192x64 (Scalar.ofBits (F := Ideal) .f32 0x00000000#32)) V)
        (broadcast S8192x64 (Scalar.ofBits (F := Ideal) .f32 0x3F800000#32))))
      (exp (divf (subf (broadcast S8192x64 (Scalar.ofBits (F := Ideal) .f32 0x00000000#32)) V)
        (broadcast S8192x64 (Scalar.ofBits (F := Ideal) .f32 0x40000000#32)))) j
      = term (V j) := by
  show Ideal.exp (Ideal.div (Ideal.ofBits .f32 0x00000000#32 - V j) (Ideal.ofBits .f32 0x3F800000#32))
      + Ideal.exp (Ideal.div (Ideal.ofBits .f32 0x00000000#32 - V j) (Ideal.ofBits .f32 0x40000000#32)) = _
  rw [Ideal.ofBits_zero_f32]
  rfl

/-- All 8192 × 64 entries added into one number: the matrix is viewed with a leading unit axis, reduced over its
    two proper axes, and the one remaining entry is read out and spread over the 1 × 1 result. -/
theorem total_apply (V : FVec Ideal S8192x64 .f32) (hc : S8192x64.ShapeCasts S1x8192x64)
    (hr : S1x8192x64.Reduces [1, 2] S1) (hφ : FKind.Formats .f32)
    (hacc : (0x00000000#32 : BitVec 32) = FKind.add.neutral .f32 hφ) (hc2 : S1.ShapeCasts S1x1x1)
    (hin : ∀ a, (![0, 0, 0] : Fin 3 → ℕ) a < S1x1x1.size a) (j : S1x1.Idx) :
    broadcast S1x1 (extractAt ![0, 0, 0] (shapeCast S1x1x1
        (multiReduction (F := Ideal) .add [1, 2] S1 (shapeCast S1x8192x64 V hc) 0x00000000#32 hr hφ hacc) hc2) hin) j
      = ∑ p : Fin 8192, ∑ q : Fin 64, V (ix2 p q) := by
  show multiReduction (F := Ideal) .add [1, 2] S1 (shapeCast S1x8192x64 V hc) 0x00000000#32 hr hφ hacc
      (Shape.reshapeEquiv hc2 _) = _
  rw [Ideal.multiReduction_add_total _ _ hr (fun b => by match b with | ⟨0, _⟩ => rfl) hφ hacc]
  show ∑ i : S1x8192x64.Idx, V (Shape.reshapeEquiv hc i) = _
  rw [Equiv.sum_comp (Shape.reshapeEquiv hc) V]
  exact sum_idx2 V

/-! ## The payloads -/

/-- The first call's arithmetic at grid point `i` (a cloud against itself): the block sum with the diagonal at 0. -/
theorem pay0_eq [Cert.KernelIdeal.Facts] (i : grid0.Coords) (v0 : Vec Ideal S8192x256 .f32) (v1 : Vec Ideal S64x256 .f32) :
    Cert.KernelIdeal.Gen.k0_pay3 (F := Ideal) i v0 v1 = fun _ => blockSum true (i 0).val v0 v1 := by
  have hn : (i 0).val < 128 := (i 0).isLt
  funext j
  unfold Cert.KernelIdeal.Gen.k0_pay3
  refine (total_apply _ _ _ _ _ _ _ j).trans ?_
  unfold blockSum
  refine Finset.sum_congr rfl fun p _ => Finset.sum_congr rfl fun q _ => ?_
  refine (term_apply _ (ix2 p q)).trans (congrArg term ?_)
  refine (select_diag_apply (i 0).val hn _ _ _ p q).trans ?_
  unfold blockDist
  by_cases hd : p.val = 64 * (i 0).val + q.val
  · rw [if_pos hd, if_pos ⟨rfl, hd⟩]
  · rw [if_neg hd, if_neg (fun h => hd h.2)]
    exact dist_apply v0 v1 _ _ _ _ _ _ _ _ _ _ _ rfl p q

/-- The second call's arithmetic at grid point `i`: the same text as the first call's, over the other cloud. -/
theorem pay1_eq [Cert.KernelIdeal.Facts] (i : grid1.Coords) (v0 : Vec Ideal S8192x256 .f32) (v1 : Vec Ideal S64x256 .f32) :
    Cert.KernelIdeal.Gen.k1_pay3 (F := Ideal) i v0 v1 = fun _ => blockSum true (i 0).val v0 v1 := by
  have hn : (i 0).val < 128 := (i 0).isLt
  funext j
  unfold Cert.KernelIdeal.Gen.k1_pay3
  refine (total_apply _ _ _ _ _ _ _ j).trans ?_
  unfold blockSum
  refine Finset.sum_congr rfl fun p _ => Finset.sum_congr rfl fun q _ => ?_
  refine (term_apply _ (ix2 p q)).trans (congrArg term ?_)
  refine (select_diag_apply (i 0).val hn _ _ _ p q).trans ?_
  unfold blockDist
  by_cases hd : p.val = 64 * (i 0).val + q.val
  · rw [if_pos hd, if_pos ⟨rfl, hd⟩]
  · rw [if_neg hd, if_neg (fun h => hd h.2)]
    exact dist_apply v0 v1 _ _ _ _ _ _ _ _ _ _ _ rfl p q

/-- The third call's arithmetic (one cloud against the other): no entry is overridden, and the block's sum is added
    to the accumulator `acc` the body has just loaded. With no override the block number plays no part. -/
theorem pay2_eq [Cert.KernelIdeal.Facts] (n : ℕ) (v0 : Vec Ideal S8192x256 .f32) (v1 : Vec Ideal S64x256 .f32)
    (acc : Vec Ideal S1x1 .f32) :
    Cert.KernelIdeal.Gen.k2_pay2 (F := Ideal) v0 v1 acc = fun j => acc j + blockSum false n v0 v1 := by
  funext j
  unfold Cert.KernelIdeal.Gen.k2_pay2
  have e1 : shapeCast S1x1 acc Facts₀.shapeCasts_S1x1_S1x1 j = acc j := congrFun (shapeCast_self acc _) j
  refine (congrArg₂ (· + ·) e1 (total_apply _ _ _ _ _ _ _ j)).trans ?_
  refine congrArg (acc j + ·) ?_
  unfold blockSum
  refine Finset.sum_congr rfl fun p _ => Finset.sum_congr rfl fun q _ => ?_
  refine (term_apply _ (ix2 p q)).trans (congrArg term ?_)
  unfold blockDist
  rw [if_neg (fun h => Bool.false_ne_true h.1)]
  exact dist_apply v0 v1 _ _ _ _ _ _ _ _ _ _ _ rfl p q

end Cert.MmdPayload

end
-- ==== Proof.KIAccum.lean ====
/-
  What each launch's (1,1) result array ends holding, over the extended reals: the 128 blocks' contributions added.

  A launch walks 128 grid points. At every point its first window holds the whole first cloud and its second window
  rows 64·t … 64·t + 63 of the second cloud; its third window, the (1,1) accumulator, keeps one block for the whole
  grid and is written back after the last point only. At the first point the body stores the zero word, reads it back
  and stores it plus the block's contribution; at a later point it stores what it finds plus the block's contribution.
  So after point n the accumulator holds the contributions of blocks 0 … n added (by induction on n; 0 + a = a and
  the sum over the naturals below n + 2 is the sum below n + 1 plus the last term), and the write-back at point 127,
  whose block is the whole array, leaves the sum over all 128 blocks. The block's contribution as a formula is the
  payload lemma of each launch; the launches differ only in which clouds the windows read and in whether the
  diagonal is forced to 0.
-/
import proofs.«136964_j73426760892841_1_alg».proof.Proof.KIRegion0
import proofs.«136964_j73426760892841_1_alg».proof.Proof.KIRegion1
import proofs.«136964_j73426760892841_1_alg».proof.Proof.KIRegion2
import proofs.«136964_j73426760892841_1_alg».proof.Proof.Spec
import proofs.«136964_j73426760892841_1_alg».proof.Proof.Payload
import Idealize.ShloMosaic.Lib.Pipeline.Value
import Idealize.ShloMosaic.Lib.Tactic
import Idealize.ShloMosaic.PureOps.Ideal.Laws

set_option maxRecDepth 16384

noncomputable section

namespace Cert.KernelIdeal.Accum

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-! # Launch 0 -/

/-- A later point leaves the running contents plus the block's contribution: the one covering store's payload. -/
theorem out0_B_eq (c : Dev nD) (i : grid0.Coords) (a1 : Memref sig .tc .vmem S8192x256 .f32) (h1 : a1.IsWhole)
    (a2 : Memref sig .tc .vmem S64x256 .f32) (h2 : a2.IsWhole) (a3 : Memref sig .tc .vmem S1x1 .f32) (h3 : a3.IsWhole)
    (hc : ¬cond0 i) (x0 : Vec F S8192x256 .f32) (x1 : Vec F S64x256 .f32) (xo2 : Vec F S1x1 .f32) :
    out0_B c i a1 h1 a2 h2 a3 h3 hc x0 x1 xo2 = k0_pay2 (k0_pay3 i x0 x1) xo2 := by
  unfold out0_B
  rw [View.read_writes_eq_canon _ _ _ (cover0_B c i a1 h1 a2 h2 a3 h3 hc x0 x1 xo2)]
  unfold kernelRun0_B
  dsimp only
  sl_unfold_words
  rw [View.canon_unit_zero hz]
  simp only [View.readAt_eq_ld, h1.read_unread, h2.read_unread, h3.read_unread, View.ld_unit_zero (S := S8192x256) hz,
    View.ld_unit_zero (S := S64x256) hz, View.ld_unit_zero (S := S1x1) hz]

/-- The first point stores the zero block, reads it back, and leaves it plus the block's contribution. -/
theorem out0_A_eq (c : Dev nD) (i : grid0.Coords) (a1 : Memref sig .tc .vmem S8192x256 .f32) (h1 : a1.IsWhole)
    (a2 : Memref sig .tc .vmem S64x256 .f32) (h2 : a2.IsWhole) (a3 : Memref sig .tc .vmem S1x1 .f32) (h3 : a3.IsWhole)
    (hc : cond0 i) (x0 : Vec F S8192x256 .f32) (x1 : Vec F S64x256 .f32) :
    out0_A c i a1 h1 a2 h2 a3 h3 hc x0 x1 = k0_pay2 (k0_pay3 i x0 x1) (k0_pay1) := by
  unfold out0_A
  rw [View.read_writes_eq_canon _ _ _ (cover0_A c i a1 h1 a2 h2 a3 h3 hc x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x256) hz,
    View.ld_unit_zero (S := S64x256) hz]

/-! ## Launch 0: the blocks its windows stage -/

/-- The printed index maps, decided once over the 128 points: window 0 always at block (0, 0), window 1 at block
    (t, 0), window 2 at block (0, 0); the grid coordinate of point `t` is `t`. -/
theorem idx0_0 : ∀ t : Fin cfg0.N, win0_0.index t 0 = 0 ∧ win0_0.index t 1 = 0 :=
  (by decide +kernel : ∀ t : Fin grid0.N, win0_0.index t 0 = 0 ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem coords0 : ∀ t : Fin cfg0.N, (grid0.coords t 0).val = t.val :=
  (by decide +kernel : ∀ t : Fin grid0.N, (grid0.coords t 0).val = t.val)
theorem lt0 (t : Fin cfg0.N) : t.val < 128 := lt_of_lt_of_eq t.isLt (show cfg0.N = 128 from N_0)

/-- Window 0's block is the whole first array at every point. -/
theorem iblk0_0 (V : (c : Dev nD) → (b : Ref sig .tc) → Buf (Elt F) ((c : Thread nD τ).loc b)) (c : Dev nD) (t : Fin cfg0.N) :
    (iblk0 V c 0 t : Vec F S8192x256 .f32) = V c main_arg0 := by
  funext j
  unfold iblk0
  rw [View.read_apply]
  show V c main_arg0 _ = V c main_arg0 j
  congr 1
  funext a
  apply Fin.ext
  match a with
  | ⟨0, _⟩ => show win0_0.index t 0 * 8192 + 1 * (j 0).val = (j 0).val; rw [(idx0_0 t).1]; omega
  | ⟨1, _⟩ => show win0_0.index t 1 * 256 + 1 * (j 1).val = (j 1).val; rw [(idx0_0 t).2]; omega

/-- Window 1's block at point `t` is rows 64·t … 64·t + 63 of the second array. -/
theorem iblk0_1 (V : (c : Dev nD) → (b : Ref sig .tc) → Buf (Elt Ideal) ((c : Thread nD τ).loc b)) (c : Dev nD) (t : Fin cfg0.N) :
    (iblk0 V c 1 t : Vec Ideal S64x256 .f32) = MmdSpec.rowsOf (V c main_arg0) ⟨t.val, lt0 t⟩ := by
  funext j
  unfold iblk0 MmdSpec.rowsOf
  rw [View.read_apply]
  show V c main_arg0 _ = V c main_arg0 _
  congr 1
  funext a
  apply Fin.ext
  match a with
  | ⟨0, _⟩ => show win0_1.index t 0 * 64 + 1 * (j 0).val = 64 * t.val + (j 0).val; rw [(idx0_1 t).1]; omega
  | ⟨1, _⟩ => show win0_1.index t 1 * 256 + 1 * (j 1).val = (j 1).val; rw [(idx0_1 t).2]; omega

/-! ## Launch 0: the accumulation over the grid, over the extended reals -/

section Launch0
variable (V : (c : Dev nD) → (b : Ref sig .tc) → Buf (Elt Ideal) ((c : Thread nD τ).loc b))

/-- Block `k`'s contribution (0 past the last block). -/
def contrib0 (c : Dev nD) (k : ℕ) : EReal :=
  if h : k < 128 then MmdSpec.blockSum true k (V c main_arg0) (MmdSpec.rowsOf (V c main_arg0) ⟨k, h⟩) else 0

/-- The accumulating store's payload adds the block's contribution to what the buffer held. -/
theorem k0_pay2_apply (v41 : FVec Ideal S1x1 .f32) (v45 : Vec Ideal S1x1 .f32) : k0_pay2 v41 v45 = fun j => v45 j + v41 j := by
  unfold k0_pay2
  simp only [shapeCast_self]
  rfl

/-- The reset stores the zero word. -/
theorem k0_pay1_apply : k0_pay1 (F := Ideal) = fun _ => 0 := by
  unfold k0_pay1
  funext j
  exact Ideal.ofBits_zero_f32

/-- The first point leaves its block's contribution. -/
theorem val0_A (c : Dev nD) (t : Fin cfg0.N) (hc : cond0 (grid0.coords t)) :
    out0_A c (grid0.coords t) (ms0_0 t) (hs0_0 t) (ms0_1 t) (hs0_1 t) (ms0_2 t) (hs0_2 t) hc (iblk0 V c 0 t) (iblk0 V c 1 t)
      = fun _ => contrib0 V c t.val := by
  rw [out0_A_eq c (grid0.coords t) (ms0_0 t) (hs0_0 t) (ms0_1 t) (hs0_1 t) (ms0_2 t) (hs0_2 t) hc (iblk0 V c 0 t) (iblk0 V c 1 t)]
  rw [iblk0_0 V c t, iblk0_1 V c t, MmdPayload.pay0_eq, k0_pay2_apply, k0_pay1_apply]
  funext j
  rw [coords0 t, contrib0, dif_pos (lt0 t), zero_add]

/-- A later point adds its block's contribution to what it finds. -/
theorem val0_B (c : Dev nD) (t : Fin cfg0.N) (hc : ¬cond0 (grid0.coords t)) (xo2 : Vec Ideal S1x1 .f32) :
    out0_B c (grid0.coords t) (ms0_0 t) (hs0_0 t) (ms0_1 t) (hs0_1 t) (ms0_2 t) (hs0_2 t) hc (iblk0 V c 0 t) (iblk0 V c 1 t) xo2
      = fun j => xo2 j + contrib0 V c t.val := by
  rw [out0_B_eq c (grid0.coords t) (ms0_0 t) (hs0_0 t) (ms0_1 t) (hs0_1 t) (ms0_2 t) (hs0_2 t) hc (iblk0 V c 0 t) (iblk0 V c 1 t) xo2]
  rw [iblk0_0 V c t, iblk0_1 V c t, MmdPayload.pay0_eq, k0_pay2_apply]
  funext j
  rw [coords0 t, contrib0, dif_pos (lt0 t)]

/-- After point `n` the accumulator holds the contributions of blocks 0 … n added. -/
theorem outsAt0_eq (c : Dev nD) : ∀ (n : ℕ) (hn : n < cfg0.N),
    outsAt0 V c n hn = fun _ => ∑ k ∈ Finset.range (n + 1), contrib0 V c k
  | 0, hn => by
    rw [outsAt0_A V c ⟨0, hn⟩ rfl, val0_A V c ⟨0, hn⟩]
    funext j
    rw [Finset.sum_range_one]
  | n + 1, hn => by
    have hN : n + 1 < 128 := lt_of_lt_of_eq hn (show cfg0.N = 128 from N_0)
    have hB : ¬(⟨n + 1, hn⟩ : Fin cfg0.N).val % 128 = 0 := by dsimp only; omega
    rw [outsAt0_B V c ⟨n + 1, hn⟩ hB, val0_B V c ⟨n + 1, hn⟩]
    funext j
    show outsAt0 V c n _ j + contrib0 V c (n + 1) = _
    rw [outsAt0_eq c n, Finset.sum_range_succ _ (n + 1)]

/-- The last point of the grid. -/
def last0 : Fin cfg0.N := ⟨127, by rw [show cfg0.N = 128 from N_0]; decide⟩

/-- All 128 contributions added, and that number as contents of the (1,1) result array. -/
def sum0 (c : Dev nD) : EReal := ∑ k ∈ Finset.range 128, contrib0 V c k
def total0 (c : Dev nD) : Buf (Elt Ideal) ((c : Thread nD τ).loc main_v0) := fun _ => sum0 V c

/-- The one write-back, at the last point, writes the total: the window's one block is the whole (1,1) array. -/
theorem flushed0_eq (c : Dev nD) (t : Fin cfg0.N) (hf : (cfg0.win 2).flush t = true) :
    (dat0 V c).flushed 2 t = ((cfg0.win 2).blk t).view.read (Elt Ideal) (total0 V c) := by
  have h127 : t.val = 127 := by have := (flush0_2 t).mp hf; have := lt0 t; omega
  obtain rfl : t = last0 := Fin.ext h127
  show (cfg0.win 2).cut (grid0.coords last0) ((dat0 V c).after 2 last0) = _
  rw [after0_2, outsAt0_eq]
  have hz' : (fun a => win0_2.index last0 a * main_v0.ty.shape.size a) = fun _ => 0 := funext fun a => by fin_cases a <;> decide +kernel
  exact (Memref.read_access_unit_zero (Elt Ideal) main_v0 hz' (fun a => by rw [congrFun hz' a]; simp) (total0 V c)).symm

/-- So the result array ends holding the total. -/
theorem final0 (c : Dev nD) : (dat0 V c).arrAt 2 cfg0.N = total0 V c :=
  (dat0 V c).arrAt_eq_of_cover 2 (total0 V c) (flushed0_eq V c) fun i =>
    ⟨last0, (flush0_2 last0).mpr rfl, by
      show i ∈ ((View.whole main_v0).slice (win0_2.rect last0)).set
      rw [View.set_slice_whole, Rect.mem_set_unit]
      intro a
      have h0 : (i 0 : Nat) < 1 := (i 0).isLt
      have h1 : (i 1 : Nat) < 1 := (i 1).isLt
      match a with
      | ⟨0, _⟩ => show win0_2.index last0 0 * win0_2.size 0 ≤ (i 0 : Nat) ∧ (i 0 : Nat) < win0_2.index last0 0 * win0_2.size 0 + win0_2.xsize (grid0.coords last0) 0
                  rw [show win0_2.index last0 0 * win0_2.size 0 = 0 from by decide +kernel, show win0_2.xsize (grid0.coords last0) 0 = 1 from by decide +kernel]; omega
      | ⟨1, _⟩ => show win0_2.index last0 1 * win0_2.size 1 ≤ (i 1 : Nat) ∧ (i 1 : Nat) < win0_2.index last0 1 * win0_2.size 1 + win0_2.xsize (grid0.coords last0) 1
                  rw [show win0_2.index last0 1 * win0_2.size 1 = 0 from by decide +kernel, show win0_2.xsize (grid0.coords last0) 1 = 1 from by decide +kernel]; omega⟩

/-- The launch's result: the 128 blocks' contributions added. -/
theorem res_eq0 (c : Dev nD) :
    (dat0 V c).arrAt 2 cfg0.N
      = fun _ => ∑ n : Fin 128, MmdSpec.blockSum true n.val (V c main_arg0) (MmdSpec.rowsOf (V c main_arg0) n) := by
  rw [final0 V c]
  funext j
  show ∑ k ∈ Finset.range 128, contrib0 V c k = _
  rw [Finset.sum_range]
  exact Finset.sum_congr rfl fun n _ => by rw [contrib0, dif_pos n.isLt]

end Launch0

/-! # Launch 1 -/

/-- A later point leaves the running contents plus the block's contribution: the one covering store's payload. -/
theorem out1_B_eq (c : Dev nD) (i : grid1.Coords) (a1 : Memref sig .tc .vmem S8192x256 .f32) (h1 : a1.IsWhole)
    (a2 : Memref sig .tc .vmem S64x256 .f32) (h2 : a2.IsWhole) (a3 : Memref sig .tc .vmem S1x1 .f32) (h3 : a3.IsWhole)
    (hc : ¬cond1 i) (x0 : Vec F S8192x256 .f32) (x1 : Vec F S64x256 .f32) (xo2 : Vec F S1x1 .f32) :
    out1_B c i a1 h1 a2 h2 a3 h3 hc x0 x1 xo2 = k1_pay2 (k1_pay3 i x0 x1) xo2 := by
  unfold out1_B
  rw [View.read_writes_eq_canon _ _ _ (cover1_B c i a1 h1 a2 h2 a3 h3 hc x0 x1 xo2)]
  unfold kernelRun1_B
  dsimp only
  sl_unfold_words
  rw [View.canon_unit_zero hz]
  simp only [View.readAt_eq_ld, h1.read_unread, h2.read_unread, h3.read_unread, View.ld_unit_zero (S := S8192x256) hz,
    View.ld_unit_zero (S := S64x256) hz, View.ld_unit_zero (S := S1x1) hz]

/-- The first point stores the zero block, reads it back, and leaves it plus the block's contribution. -/
theorem out1_A_eq (c : Dev nD) (i : grid1.Coords) (a1 : Memref sig .tc .vmem S8192x256 .f32) (h1 : a1.IsWhole)
    (a2 : Memref sig .tc .vmem S64x256 .f32) (h2 : a2.IsWhole) (a3 : Memref sig .tc .vmem S1x1 .f32) (h3 : a3.IsWhole)
    (hc : cond1 i) (x0 : Vec F S8192x256 .f32) (x1 : Vec F S64x256 .f32) :
    out1_A c i a1 h1 a2 h2 a3 h3 hc x0 x1 = k1_pay2 (k1_pay3 i x0 x1) (k1_pay1) := by
  unfold out1_A
  rw [View.read_writes_eq_canon _ _ _ (cover1_A c i a1 h1 a2 h2 a3 h3 hc x0 x1)]
  unfold kernelRun1_A
  dsimp only
  sl_unfold_words
  rw [View.canon_cons_unit_zero (S := S1x1) hz, View.readCov_unit_zero (S := S1x1) _ hz]
  simp only [View.readAt_eq_ld, h1.read_unread, h2.read_unread, View.ld_unit_zero (S := S8192x256) hz,
    View.ld_unit_zero (S := S64x256) hz]

/-! ## Launch 1: the blocks its windows stage -/

/-- The printed index maps, decided once over the 128 points: window 0 always at block (0, 0), window 1 at block
    (t, 0), window 2 at block (0, 0); the grid coordinate of point `t` is `t`. -/
theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem coords1 : ∀ t : Fin cfg1.N, (grid1.coords t 0).val = t.val :=
  (by decide +kernel : ∀ t : Fin grid1.N, (grid1.coords t 0).val = t.val)
theorem lt1 (t : Fin cfg1.N) : t.val < 128 := lt_of_lt_of_eq t.isLt (show cfg1.N = 128 from N_1)

/-- Window 0's block is the whole first array at every point. -/
theorem iblk1_0 (V : (c : Dev nD) → (b : Ref sig .tc) → Buf (Elt F) ((c : Thread nD τ).loc b)) (c : Dev nD) (t : Fin cfg1.N) :
    (iblk1 V c 0 t : Vec F S8192x256 .f32) = V c main_arg1 := by
  funext j
  unfold iblk1
  rw [View.read_apply]
  show V c main_arg1 _ = V c main_arg1 j
  congr 1
  funext a
  apply Fin.ext
  match a with
  | ⟨0, _⟩ => show win1_0.index t 0 * 8192 + 1 * (j 0).val = (j 0).val; rw [(idx1_0 t).1]; omega
  | ⟨1, _⟩ => show win1_0.index t 1 * 256 + 1 * (j 1).val = (j 1).val; rw [(idx1_0 t).2]; omega

/-- Window 1's block at point `t` is rows 64·t … 64·t + 63 of the second array. -/
theorem iblk1_1 (V : (c : Dev nD) → (b : Ref sig .tc) → Buf (Elt Ideal) ((c : Thread nD τ).loc b)) (c : Dev nD) (t : Fin cfg1.N) :
    (iblk1 V c 1 t : Vec Ideal S64x256 .f32) = MmdSpec.rowsOf (V c main_arg1) ⟨t.val, lt1 t⟩ := by
  funext j
  unfold iblk1 MmdSpec.rowsOf
  rw [View.read_apply]
  show V c main_arg1 _ = V c main_arg1 _
  congr 1
  funext a
  apply Fin.ext
  match a with
  | ⟨0, _⟩ => show win1_1.index t 0 * 64 + 1 * (j 0).val = 64 * t.val + (j 0).val; rw [(idx1_1 t).1]; omega
  | ⟨1, _⟩ => show win1_1.index t 1 * 256 + 1 * (j 1).val = (j 1).val; rw [(idx1_1 t).2]; omega

/-! ## Launch 1: the accumulation over the grid, over the extended reals -/

section Launch1
variable (V : (c : Dev nD) → (b : Ref sig .tc) → Buf (Elt Ideal) ((c : Thread nD τ).loc b))

/-- Block `k`'s contribution (0 past the last block). -/
def contrib1 (c : Dev nD) (k : ℕ) : EReal :=
  if h : k < 128 then MmdSpec.blockSum true k (V c main_arg1) (MmdSpec.rowsOf (V c main_arg1) ⟨k, h⟩) else 0

/-- The accumulating store's payload adds the block's contribution to what the buffer held. -/
theorem k1_pay2_apply (v41 : FVec Ideal S1x1 .f32) (v45 : Vec Ideal S1x1 .f32) : k1_pay2 v41 v45 = fun j => v45 j + v41 j := by
  unfold k1_pay2
  simp only [shapeCast_self]
  rfl

/-- The reset stores the zero word. -/
theorem k1_pay1_apply : k1_pay1 (F := Ideal) = fun _ => 0 := by
  unfold k1_pay1
  funext j
  exact Ideal.ofBits_zero_f32

/-- The first point leaves its block's contribution. -/
theorem val1_A (c : Dev nD) (t : Fin cfg1.N) (hc : cond1 (grid1.coords t)) :
    out1_A c (grid1.coords t) (ms1_0 t) (hs1_0 t) (ms1_1 t) (hs1_1 t) (ms1_2 t) (hs1_2 t) hc (iblk1 V c 0 t) (iblk1 V c 1 t)
      = fun _ => contrib1 V c t.val := by
  rw [out1_A_eq c (grid1.coords t) (ms1_0 t) (hs1_0 t) (ms1_1 t) (hs1_1 t) (ms1_2 t) (hs1_2 t) hc (iblk1 V c 0 t) (iblk1 V c 1 t)]
  rw [iblk1_0 V c t, iblk1_1 V c t, MmdPayload.pay1_eq, k1_pay2_apply, k1_pay1_apply]
  funext j
  rw [coords1 t, contrib1, dif_pos (lt1 t), zero_add]

/-- A later point adds its block's contribution to what it finds. -/
theorem val1_B (c : Dev nD) (t : Fin cfg1.N) (hc : ¬cond1 (grid1.coords t)) (xo2 : Vec Ideal S1x1 .f32) :
    out1_B c (grid1.coords t) (ms1_0 t) (hs1_0 t) (ms1_1 t) (hs1_1 t) (ms1_2 t) (hs1_2 t) hc (iblk1 V c 0 t) (iblk1 V c 1 t) xo2
      = fun j => xo2 j + contrib1 V c t.val := by
  rw [out1_B_eq c (grid1.coords t) (ms1_0 t) (hs1_0 t) (ms1_1 t) (hs1_1 t) (ms1_2 t) (hs1_2 t) hc (iblk1 V c 0 t) (iblk1 V c 1 t) xo2]
  rw [iblk1_0 V c t, iblk1_1 V c t, MmdPayload.pay1_eq, k1_pay2_apply]
  funext j
  rw [coords1 t, contrib1, dif_pos (lt1 t)]

/-- After point `n` the accumulator holds the contributions of blocks 0 … n added. -/
theorem outsAt1_eq (c : Dev nD) : ∀ (n : ℕ) (hn : n < cfg1.N),
    outsAt1 V c n hn = fun _ => ∑ k ∈ Finset.range (n + 1), contrib1 V c k
  | 0, hn => by
    rw [outsAt1_A V c ⟨0, hn⟩ rfl, val1_A V c ⟨0, hn⟩]
    funext j
    rw [Finset.sum_range_one]
  | n + 1, hn => by
    have hN : n + 1 < 128 := lt_of_lt_of_eq hn (show cfg1.N = 128 from N_1)
    have hB : ¬(⟨n + 1, hn⟩ : Fin cfg1.N).val % 128 = 0 := by dsimp only; omega
    rw [outsAt1_B V c ⟨n + 1, hn⟩ hB, val1_B V c ⟨n + 1, hn⟩]
    funext j
    show outsAt1 V c n _ j + contrib1 V c (n + 1) = _
    rw [outsAt1_eq c n, Finset.sum_range_succ _ (n + 1)]

/-- The last point of the grid. -/
def last1 : Fin cfg1.N := ⟨127, by rw [show cfg1.N = 128 from N_1]; decide⟩

/-- All 128 contributions added, and that number as contents of the (1,1) result array. -/
def sum1 (c : Dev nD) : EReal := ∑ k ∈ Finset.range 128, contrib1 V c k
def total1 (c : Dev nD) : Buf (Elt Ideal) ((c : Thread nD τ).loc main_v3) := fun _ => sum1 V c

/-- The one write-back, at the last point, writes the total: the window's one block is the whole (1,1) array. -/
theorem flushed1_eq (c : Dev nD) (t : Fin cfg1.N) (hf : (cfg1.win 2).flush t = true) :
    (dat1 V c).flushed 2 t = ((cfg1.win 2).blk t).view.read (Elt Ideal) (total1 V c) := by
  have h127 : t.val = 127 := by have := (flush1_2 t).mp hf; have := lt1 t; omega
  obtain rfl : t = last1 := Fin.ext h127
  show (cfg1.win 2).cut (grid1.coords last1) ((dat1 V c).after 2 last1) = _
  rw [after1_2, outsAt1_eq]
  have hz' : (fun a => win1_2.index last1 a * main_v3.ty.shape.size a) = fun _ => 0 := funext fun a => by fin_cases a <;> decide +kernel
  exact (Memref.read_access_unit_zero (Elt Ideal) main_v3 hz' (fun a => by rw [congrFun hz' a]; simp) (total1 V c)).symm

/-- So the result array ends holding the total. -/
theorem final1 (c : Dev nD) : (dat1 V c).arrAt 2 cfg1.N = total1 V c :=
  (dat1 V c).arrAt_eq_of_cover 2 (total1 V c) (flushed1_eq V c) fun i =>
    ⟨last1, (flush1_2 last1).mpr rfl, by
      show i ∈ ((View.whole main_v3).slice (win1_2.rect last1)).set
      rw [View.set_slice_whole, Rect.mem_set_unit]
      intro a
      have h0 : (i 0 : Nat) < 1 := (i 0).isLt
      have h1 : (i 1 : Nat) < 1 := (i 1).isLt
      match a with
      | ⟨0, _⟩ => show win1_2.index last1 0 * win1_2.size 0 ≤ (i 0 : Nat) ∧ (i 0 : Nat) < win1_2.index last1 0 * win1_2.size 0 + win1_2.xsize (grid1.coords last1) 0
                  rw [show win1_2.index last1 0 * win1_2.size 0 = 0 from by decide +kernel, show win1_2.xsize (grid1.coords last1) 0 = 1 from by decide +kernel]; omega
      | ⟨1, _⟩ => show win1_2.index last1 1 * win1_2.size 1 ≤ (i 1 : Nat) ∧ (i 1 : Nat) < win1_2.index last1 1 * win1_2.size 1 + win1_2.xsize (grid1.coords last1) 1
                  rw [show win1_2.index last1 1 * win1_2.size 1 = 0 from by decide +kernel, show win1_2.xsize (grid1.coords last1) 1 = 1 from by decide +kernel]; omega⟩

/-- The launch's result: the 128 blocks' contributions added. -/
theorem res_eq1 (c : Dev nD) :
    (dat1 V c).arrAt 2 cfg1.N
      = fun _ => ∑ n : Fin 128, MmdSpec.blockSum true n.val (V c main_arg1) (MmdSpec.rowsOf (V c main_arg1) n) := by
  rw [final1 V c]
  funext j
  show ∑ k ∈ Finset.range 128, contrib1 V c k = _
  rw [Finset.sum_range]
  exact Finset.sum_congr rfl fun n _ => by rw [contrib1, dif_pos n.isLt]

end Launch1

/-! # Launch 2 -/

/-- A later point leaves the running contents plus the block's contribution: the one covering store's payload, which
    already holds the addition. -/
theorem out2_B_eq (c : Dev nD) (i : grid2.Coords) (a1 : Memref sig .tc .vmem S8192x256 .f32) (h1 : a1.IsWhole)
    (a2 : Memref sig .tc .vmem S64x256 .f32) (h2 : a2.IsWhole) (a3 : Memref sig .tc .vmem S1x1 .f32) (h3 : a3.IsWhole)
    (hc : ¬cond2 i) (x0 : Vec F S8192x256 .f32) (x1 : Vec F S64x256 .f32) (xo2 : Vec F S1x1 .f32) :
    out2_B c i a1 h1 a2 h2 a3 h3 hc x0 x1 xo2 = k2_pay2 x0 x1 xo2 := by
  unfold out2_B
  rw [View.read_writes_eq_canon _ _ _ (cover2_B c i a1 h1 a2 h2 a3 h3 hc x0 x1 xo2)]
  unfold kernelRun2_B
  dsimp only
  sl_unfold_words
  rw [View.canon_unit_zero hz]
  simp only [View.readAt_eq_ld, h1.read_unread, h2.read_unread, h3.read_unread, View.ld_unit_zero (S := S8192x256) hz,
    View.ld_unit_zero (S := S64x256) hz, View.ld_unit_zero (S := S1x1) hz]

/-- The first point stores the zero block, reads it back, and leaves it plus the block's contribution. -/
theorem out2_A_eq (c : Dev nD) (i : grid2.Coords) (a1 : Memref sig .tc .vmem S8192x256 .f32) (h1 : a1.IsWhole)
    (a2 : Memref sig .tc .vmem S64x256 .f32) (h2 : a2.IsWhole) (a3 : Memref sig .tc .vmem S1x1 .f32) (h3 : a3.IsWhole)
    (hc : cond2 i) (x0 : Vec F S8192x256 .f32) (x1 : Vec F S64x256 .f32) :
    out2_A c i a1 h1 a2 h2 a3 h3 hc x0 x1 = k2_pay2 x0 x1 (k2_pay1) := by
  unfold out2_A
  rw [View.read_writes_eq_canon _ _ _ (cover2_A c i a1 h1 a2 h2 a3 h3 hc x0 x1)]
  unfold kernelRun2_A
  dsimp only
  sl_unfold_words
  rw [View.canon_cons_unit_zero (S := S1x1) hz, View.readCov_unit_zero (S := S1x1) _ hz]
  simp only [View.readAt_eq_ld, h1.read_unread, h2.read_unread, View.ld_unit_zero (S := S8192x256) hz,
    View.ld_unit_zero (S := S64x256) hz]

/-! ## Launch 2: the blocks its windows stage -/

/-- The printed index maps, decided once over the 128 points: window 0 always at block (0, 0), window 1 at block
    (t, 0), window 2 at block (0, 0); the grid coordinate of point `t` is `t`. -/
theorem idx2_0 : ∀ t : Fin cfg2.N, win2_0.index t 0 = 0 ∧ win2_0.index t 1 = 0 :=
  (by decide +kernel : ∀ t : Fin grid2.N, win2_0.index t 0 = 0 ∧ win2_0.index t 1 = 0)
theorem idx2_1 : ∀ t : Fin cfg2.N, win2_1.index t 0 = t.val ∧ win2_1.index t 1 = 0 :=
  (by decide +kernel : ∀ t : Fin grid2.N, win2_1.index t 0 = t.val ∧ win2_1.index t 1 = 0)
theorem coords2 : ∀ t : Fin cfg2.N, (grid2.coords t 0).val = t.val :=
  (by decide +kernel : ∀ t : Fin grid2.N, (grid2.coords t 0).val = t.val)
theorem lt2 (t : Fin cfg2.N) : t.val < 128 := lt_of_lt_of_eq t.isLt (show cfg2.N = 128 from N_2)

/-- Window 0's block is the whole first array at every point. -/
theorem iblk2_0 (V : (c : Dev nD) → (b : Ref sig .tc) → Buf (Elt F) ((c : Thread nD τ).loc b)) (c : Dev nD) (t : Fin cfg2.N) :
    (iblk2 V c 0 t : Vec F S8192x256 .f32) = V c main_arg0 := by
  funext j
  unfold iblk2
  rw [View.read_apply]
  show V c main_arg0 _ = V c main_arg0 j
  congr 1
  funext a
  apply Fin.ext
  match a with
  | ⟨0, _⟩ => show win2_0.index t 0 * 8192 + 1 * (j 0).val = (j 0).val; rw [(idx2_0 t).1]; omega
  | ⟨1, _⟩ => show win2_0.index t 1 * 256 + 1 * (j 1).val = (j 1).val; rw [(idx2_0 t).2]; omega

/-- Window 1's block at point `t` is rows 64·t … 64·t + 63 of the second array. -/
theorem iblk2_1 (V : (c : Dev nD) → (b : Ref sig .tc) → Buf (Elt Ideal) ((c : Thread nD τ).loc b)) (c : Dev nD) (t : Fin cfg2.N) :
    (iblk2 V c 1 t : Vec Ideal S64x256 .f32) = MmdSpec.rowsOf (V c main_arg1) ⟨t.val, lt2 t⟩ := by
  funext j
  unfold iblk2 MmdSpec.rowsOf
  rw [View.read_apply]
  show V c main_arg1 _ = V c main_arg1 _
  congr 1
  funext a
  apply Fin.ext
  match a with
  | ⟨0, _⟩ => show win2_1.index t 0 * 64 + 1 * (j 0).val = 64 * t.val + (j 0).val; rw [(idx2_1 t).1]; omega
  | ⟨1, _⟩ => show win2_1.index t 1 * 256 + 1 * (j 1).val = (j 1).val; rw [(idx2_1 t).2]; omega

/-! ## Launch 2: the accumulation over the grid, over the extended reals -/

section Launch2
variable (V : (c : Dev nD) → (b : Ref sig .tc) → Buf (Elt Ideal) ((c : Thread nD τ).loc b))

/-- Block `k`'s contribution (0 past the last block). -/
def contrib2 (c : Dev nD) (k : ℕ) : EReal :=
  if h : k < 128 then MmdSpec.blockSum false k (V c main_arg0) (MmdSpec.rowsOf (V c main_arg1) ⟨k, h⟩) else 0

/-- The reset stores the zero word. -/
theorem k2_pay1_apply : k2_pay1 (F := Ideal) = fun _ => 0 := by
  unfold k2_pay1
  funext j
  exact Ideal.ofBits_zero_f32

/-- The first point leaves its block's contribution. -/
theorem val2_A (c : Dev nD) (t : Fin cfg2.N) (hc : cond2 (grid2.coords t)) :
    out2_A c (grid2.coords t) (ms2_0 t) (hs2_0 t) (ms2_1 t) (hs2_1 t) (ms2_2 t) (hs2_2 t) hc (iblk2 V c 0 t) (iblk2 V c 1 t)
      = fun _ => contrib2 V c t.val := by
  rw [out2_A_eq c (grid2.coords t) (ms2_0 t) (hs2_0 t) (ms2_1 t) (hs2_1 t) (ms2_2 t) (hs2_2 t) hc (iblk2 V c 0 t) (iblk2 V c 1 t)]
  rw [iblk2_0 V c t, iblk2_1 V c t, MmdPayload.pay2_eq t.val, k2_pay1_apply]
  funext j
  dsimp only
  rw [contrib2, dif_pos (lt2 t), zero_add]

/-- A later point adds its block's contribution to what it finds. -/
theorem val2_B (c : Dev nD) (t : Fin cfg2.N) (hc : ¬cond2 (grid2.coords t)) (xo2 : Vec Ideal S1x1 .f32) :
    out2_B c (grid2.coords t) (ms2_0 t) (hs2_0 t) (ms2_1 t) (hs2_1 t) (ms2_2 t) (hs2_2 t) hc (iblk2 V c 0 t) (iblk2 V c 1 t) xo2
      = fun j => xo2 j + contrib2 V c t.val := by
  rw [out2_B_eq c (grid2.coords t) (ms2_0 t) (hs2_0 t) (ms2_1 t) (hs2_1 t) (ms2_2 t) (hs2_2 t) hc (iblk2 V c 0 t) (iblk2 V c 1 t) xo2]
  rw [iblk2_0 V c t, iblk2_1 V c t, MmdPayload.pay2_eq t.val]
  funext j
  rw [contrib2, dif_pos (lt2 t)]

/-- After point `n` the accumulator holds the contributions of blocks 0 … n added. -/
theorem outsAt2_eq (c : Dev nD) : ∀ (n : ℕ) (hn : n < cfg2.N),
    outsAt2 V c n hn = fun _ => ∑ k ∈ Finset.range (n + 1), contrib2 V c k
  | 0, hn => by
    rw [outsAt2_A V c ⟨0, hn⟩ rfl, val2_A V c ⟨0, hn⟩]
    funext j
    rw [Finset.sum_range_one]
  | n + 1, hn => by
    have hN : n + 1 < 128 := lt_of_lt_of_eq hn (show cfg2.N = 128 from N_2)
    have hB : ¬(⟨n + 1, hn⟩ : Fin cfg2.N).val % 128 = 0 := by dsimp only; omega
    rw [outsAt2_B V c ⟨n + 1, hn⟩ hB, val2_B V c ⟨n + 1, hn⟩]
    funext j
    show outsAt2 V c n _ j + contrib2 V c (n + 1) = _
    rw [outsAt2_eq c n, Finset.sum_range_succ _ (n + 1)]

/-- The last point of the grid. -/
def last2 : Fin cfg2.N := ⟨127, by rw [show cfg2.N = 128 from N_2]; decide⟩

/-- All 128 contributions added, and that number as contents of the (1,1) result array. -/
def sum2 (c : Dev nD) : EReal := ∑ k ∈ Finset.range 128, contrib2 V c k
def total2 (c : Dev nD) : Buf (Elt Ideal) ((c : Thread nD τ).loc main_v6) := fun _ => sum2 V c

/-- The one write-back, at the last point, writes the total: the window's one block is the whole (1,1) array. -/
theorem flushed2_eq (c : Dev nD) (t : Fin cfg2.N) (hf : (cfg2.win 2).flush t = true) :
    (dat2 V c).flushed 2 t = ((cfg2.win 2).blk t).view.read (Elt Ideal) (total2 V c) := by
  have h127 : t.val = 127 := by have := (flush2_2 t).mp hf; have := lt2 t; omega
  obtain rfl : t = last2 := Fin.ext h127
  show (cfg2.win 2).cut (grid2.coords last2) ((dat2 V c).after 2 last2) = _
  rw [after2_2, outsAt2_eq]
  have hz' : (fun a => win2_2.index last2 a * main_v6.ty.shape.size a) = fun _ => 0 := funext fun a => by fin_cases a <;> decide +kernel
  exact (Memref.read_access_unit_zero (Elt Ideal) main_v6 hz' (fun a => by rw [congrFun hz' a]; simp) (total2 V c)).symm

/-- So the result array ends holding the total. -/
theorem final2 (c : Dev nD) : (dat2 V c).arrAt 2 cfg2.N = total2 V c :=
  (dat2 V c).arrAt_eq_of_cover 2 (total2 V c) (flushed2_eq V c) fun i =>
    ⟨last2, (flush2_2 last2).mpr rfl, by
      show i ∈ ((View.whole main_v6).slice (win2_2.rect last2)).set
      rw [View.set_slice_whole, Rect.mem_set_unit]
      intro a
      have h0 : (i 0 : Nat) < 1 := (i 0).isLt
      have h1 : (i 1 : Nat) < 1 := (i 1).isLt
      match a with
      | ⟨0, _⟩ => show win2_2.index last2 0 * win2_2.size 0 ≤ (i 0 : Nat) ∧ (i 0 : Nat) < win2_2.index last2 0 * win2_2.size 0 + win2_2.xsize (grid2.coords last2) 0
                  rw [show win2_2.index last2 0 * win2_2.size 0 = 0 from by decide +kernel, show win2_2.xsize (grid2.coords last2) 0 = 1 from by decide +kernel]; omega
      | ⟨1, _⟩ => show win2_2.index last2 1 * win2_2.size 1 ≤ (i 1 : Nat) ∧ (i 1 : Nat) < win2_2.index last2 1 * win2_2.size 1 + win2_2.xsize (grid2.coords last2) 1
                  rw [show win2_2.index last2 1 * win2_2.size 1 = 0 from by decide +kernel, show win2_2.xsize (grid2.coords last2) 1 = 1 from by decide +kernel]; omega⟩

/-- The launch's result: the 128 blocks' contributions added. -/
theorem res_eq2 (c : Dev nD) :
    (dat2 V c).arrAt 2 cfg2.N
      = fun _ => ∑ n : Fin 128, MmdSpec.blockSum false n.val (V c main_arg0) (MmdSpec.rowsOf (V c main_arg1) n) := by
  rw [final2 V c]
  funext j
  show ∑ k ∈ Finset.range 128, contrib2 V c k = _
  rw [Finset.sum_range]
  exact Finset.sum_congr rfl fun n _ => by rw [contrib2, dif_pos n.isLt]

end Launch2

end Cert.KernelIdeal.Accum

end
-- ==== Proof.KIFinal.lean ====
/-
  The idealized kernel's result as one formula of the two clouds: the scalar the last host stretch leaves is the first
  two launches' accumulated sums each divided by 2²⁶ and added, minus twice the third's quotient; each accumulated sum is
  the 128 blocks' contributions of its pair of clouds; and every launch reads the clouds as launched. Together: the
  streamed arrangement of the statistic.
-/
import proofs.«136964_j73426760892841_1_alg».proof.Proof.KITail
import proofs.«136964_j73426760892841_1_alg».proof.Proof.KIAccum
import proofs.«136964_j73426760892841_1_alg».proof.Proof.Spec

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL Idealize.SL.Sem
open Cert.MmdSpec

variable (m : (ℓ : Loc nD τ sig) → Buf (Elt Ideal) ℓ) (ρ : Dev nD → PrngReg)

/-- Launch 0 accumulates the first cloud against itself. -/
theorem res0_eq (c : Dev nD) : (res0 (F := Ideal) m ρ c : S1x1.Idx → EReal)
    = fun _ => ∑ n : Fin 128, blockSum true n.val (m ((c.tc : Thread nD τ).loc main_arg0)) (rowsOf (m ((c.tc : Thread nD τ).loc main_arg0)) n) := by
  unfold res0; exact Cert.KernelIdeal.Accum.res_eq0 (E0 m ρ) c
/-- Launch 1 accumulates the second cloud against itself. -/
theorem res1_eq (c : Dev nD) : (res1 (F := Ideal) m ρ c : S1x1.Idx → EReal)
    = fun _ => ∑ n : Fin 128, blockSum true n.val (m ((c.tc : Thread nD τ).loc main_arg1)) (rowsOf (m ((c.tc : Thread nD τ).loc main_arg1)) n) := by
  unfold res1; rw [Cert.KernelIdeal.Accum.res_eq1 (E2 m ρ) c, Cert.KernelIdeal.Tail.E2_main_arg1 m ρ c]
/-- Launch 2 accumulates the first cloud against the second. -/
theorem res2_eq (c : Dev nD) : (res2 (F := Ideal) m ρ c : S1x1.Idx → EReal)
    = fun _ => ∑ n : Fin 128, blockSum false n.val (m ((c.tc : Thread nD τ).loc main_arg0)) (rowsOf (m ((c.tc : Thread nD τ).loc main_arg1)) n) := by
  unfold res2; rw [Cert.KernelIdeal.Accum.res_eq2 (E4 m ρ) c, Cert.KernelIdeal.Tail.E4_main_arg0 m ρ c, Cert.KernelIdeal.Tail.E4_main_arg1 m ρ c]

/-- The result buffer ends at the streamed arrangement of the statistic of the two clouds as launched. -/
theorem result_eq (c : Dev nD) :
    (W6 (F := Ideal) m ρ c main_v11 : S_.Idx → EReal)
      = fun _ => streamResult (m ((c.tc : Thread nD τ).loc main_arg0)) (m ((c.tc : Thread nD τ).loc main_arg1)) := by
  rw [Cert.KernelIdeal.Tail.tail_eq m ρ c, res0_eq m ρ c, res1_eq m ρ c, res2_eq m ρ c]
  rfl

end Cert.KernelIdeal.Final

end
-- ==== Proof.RefSide.lean ====
/-
  The reference program computes the plain arrangement of the statistic.

  Its program repeats one computation on the three pairs (s, s), (t, t), (s, t): the row norms of the two clouds, each a
  sum of squares over the 256 coordinates; their broadcasts across the other axis added; twice the matrix of inner
  products (a contraction against the transposed cloud) subtracted, which is the expanded squared distance
  |x_i|² + |y_j|² − 2·⟨x_i, y_j⟩ at every (i, j); then, for each of the widths 1 and 2, the negation divided by the
  width, the exponential, the sum over all 8192 × 8192 entries and the division by 2²⁶; the two means added. The three
  statistics are combined as stat(s, s) + stat(t, t) − 2·stat(s, t).

  Two lemmas over arbitrary clouds hold the mathematics: the entry of the distance matrix from its three sums, and the
  statistic from a distance matrix and its two matrices of exponentials (a sum over all entries of a matrix is the
  double sum over rows and columns; the sums' initial value is the zero word, which reads as 0). Each pair's stages are
  then read at an index and matched against these two lemmas.
-/
import proofs.«136964_j73426760892841_1_alg».proof.Proof.Spec
import proofs.«136964_j73426760892841_1_alg».proof.Proof.Gen.ReferenceIdeal.Read

noncomputable section

namespace Cert.MmdRef

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The two lemmas over arbitrary clouds -/

/-- The expanded squared distance from the two row norms and the inner product, each a sum over the 256 coordinates
    started from the zero word. -/
theorem dist_of_sums (x y : MmdSpec.Pts) (i j : Fin 8192) :
    ((Ideal.ofBits .f32 0x00000000#32 + ∑ k : Fin 256, x (ix2 i k) * x (ix2 i k))
        + (Ideal.ofBits .f32 0x00000000#32 + ∑ k : Fin 256, y (ix2 j k) * y (ix2 j k)))
      - Ideal.ofBits .f32 0x40000000#32 * ∑ k : Fin 256, x (ix2 i k) * y (ix2 j k) = MmdSpec.dist2 x y i j := by
  rw [Ideal.ofBits_zero_f32, zero_add, zero_add]
  rfl

/-- The statistic from a matrix `d` of squared distances and the matrices `e1`, `e2` of exp(−d/1), exp(−d/2): each summed
    over all its entries (from the zero word) and divided by 2²⁶, the first mean added to the zero word, the second
    mean added to that. -/
theorem stat_of_dist (x y : MmdSpec.Pts) (d e1 e2 : (⟨2, ![8192, 8192]⟩ : Shape).Idx → EReal)
    (hd : ∀ i j, d (ix2 i j) = MmdSpec.dist2 x y i j)
    (h1 : ∀ a, e1 a = Ideal.exp (Ideal.div (-(d a)) MmdSpec.one))
    (h2 : ∀ a, e2 a = Ideal.exp (Ideal.div (-(d a)) MmdSpec.two)) :
    (Ideal.ofBits .f32 0x00000000#32 + Ideal.div (Ideal.ofBits .f32 0x00000000#32 + ∑ a, e1 a) MmdSpec.count)
      + Ideal.div (Ideal.ofBits .f32 0x00000000#32 + ∑ a, e2 a) MmdSpec.count = MmdSpec.plainStat x y := by
  rw [Ideal.ofBits_zero_f32, zero_add, zero_add, zero_add, sum_idx2, sum_idx2]
  unfold MmdSpec.plainStat MmdSpec.meanExp
  simp only [h1, h2, hd]

/-! ## The first cloud against itself -/

/-- The stage holding the squared distances, read at (i, j): the row norm of `x0` at i, the row norm of `x0` at j
    (each broadcast across the other axis) and twice the inner product against the transposed cloud. -/
theorem dist_ss (x0 : (⟨S8192x256, .f32⟩ : BufTy).Contents (Elt Ideal)) (i j : Fin 8192) :
    val_main_v13 (F := Ideal) x0 (ix2 i j) = MmdSpec.dist2 x0 x0 i j := by
  have e_row : ∀ k : Fin 256, idx_main_v1 (idx_main_v6 (idx_main_v8 (ix2 i j))) k = ix2 i k := fun k =>
    funext fun a => Fin.ext (by match a with | ⟨0, _⟩ => rfl | ⟨1, _⟩ => rfl)
  have e_col : ∀ k : Fin 256, idx_main_v3 (idx_main_v7 (idx_main_v9 (ix2 i j))) k = ix2 j k := fun k =>
    funext fun a => Fin.ext (by match a with | ⟨0, _⟩ => rfl | ⟨1, _⟩ => rfl)
  have e_l : ∀ k : Fin 256, lidx_main_v5 (ix2 i j) k = ix2 i k := fun k =>
    funext fun a => Fin.ext (by match a with | ⟨0, _⟩ => rfl | ⟨1, _⟩ => rfl)
  have e_r : ∀ k : Fin 256, idx_main_v4 (ridx_main_v5 (ix2 i j) k) = ix2 j k := fun k =>
    funext fun a => Fin.ext (by match a with | ⟨0, _⟩ => rfl | ⟨1, _⟩ => rfl)
  rw [val_main_v13_apply, val_main_v10_apply, val_main_v8_apply, val_main_v6_apply, val_main_v1_apply, val_main_v9_apply,
    val_main_v7_apply, val_main_v3_apply, val_main_v12_apply, val_main_v11_apply, val_main_cst_1_apply, val_main_v5_apply]
  simp only [val_main_v0_apply, val_main_v2_apply, val_main_v4_apply, val_main_cst_apply, val_main_cst_0_apply,
    Ideal.ofBits_def, Ideal.addf_def, Ideal.subf_def, Ideal.mulf_def, e_row, e_col, e_l, e_r]
  exact dist_of_sums x0 x0 i j

/-- The pair's last stage is its statistic. -/
theorem stat_ss (x0 : (⟨S8192x256, .f32⟩ : BufTy).Contents (Elt Ideal)) (i : S_.Idx) :
    val_main_v27 (F := Ideal) x0 i = MmdSpec.plainStat x0 x0 := by
  rw [val_main_v27_apply, val_main_v20_apply, val_main_cst_5_apply, val_main_v19_apply, val_main_v18_apply, val_main_cst_3_apply,
    val_main_cst_4_apply, val_main_v26_apply, val_main_v25_apply, val_main_cst_7_apply, val_main_cst_8_apply]
  simp only [Ideal.ofBits_def, Ideal.addf_def, Ideal.hostDivf_def]
  exact stat_of_dist x0 x0 (val_main_v13 (F := Ideal) x0) (val_main_v17 (F := Ideal) x0) (val_main_v24 (F := Ideal) x0)
    (dist_ss x0)
    (fun a => by
      rw [val_main_v17_apply, val_main_v16_apply, val_main_v15_apply, val_main_cst_2_apply, val_main_v14_apply]
      rfl)
    (fun a => by
      rw [val_main_v24_apply, val_main_v23_apply, val_main_v22_apply, val_main_cst_6_apply, val_main_v21_apply]
      rfl)

/-! ## The second cloud against itself -/

/-- The stage holding the squared distances, read at (i, j): the row norm of `x1` at i, the row norm of `x1` at j
    (each broadcast across the other axis) and twice the inner product against the transposed cloud. -/
theorem dist_tt (x1 : (⟨S8192x256, .f32⟩ : BufTy).Contents (Elt Ideal)) (i j : Fin 8192) :
    val_main_v41 (F := Ideal) x1 (ix2 i j) = MmdSpec.dist2 x1 x1 i j := by
  have e_row : ∀ k : Fin 256, idx_main_v29 (idx_main_v34 (idx_main_v36 (ix2 i j))) k = ix2 i k := fun k =>
    funext fun a => Fin.ext (by match a with | ⟨0, _⟩ => rfl | ⟨1, _⟩ => rfl)
  have e_col : ∀ k : Fin 256, idx_main_v31 (idx_main_v35 (idx_main_v37 (ix2 i j))) k = ix2 j k := fun k =>
    funext fun a => Fin.ext (by match a with | ⟨0, _⟩ => rfl | ⟨1, _⟩ => rfl)
  have e_l : ∀ k : Fin 256, lidx_main_v33 (ix2 i j) k = ix2 i k := fun k =>
    funext fun a => Fin.ext (by match a with | ⟨0, _⟩ => rfl | ⟨1, _⟩ => rfl)
  have e_r : ∀ k : Fin 256, idx_main_v32 (ridx_main_v33 (ix2 i j) k) = ix2 j k := fun k =>
    funext fun a => Fin.ext (by match a with | ⟨0, _⟩ => rfl | ⟨1, _⟩ => rfl)
  rw [val_main_v41_apply, val_main_v38_apply, val_main_v36_apply, val_main_v34_apply, val_main_v29_apply, val_main_v37_apply,
    val_main_v35_apply, val_main_v31_apply, val_main_v40_apply, val_main_v39_apply, val_main_cst_11_apply, val_main_v33_apply]
  simp only [val_main_v28_apply, val_main_v30_apply, val_main_v32_apply, val_main_cst_9_apply, val_main_cst_10_apply,
    Ideal.ofBits_def, Ideal.addf_def, Ideal.subf_def, Ideal.mulf_def, e_row, e_col, e_l, e_r]
  exact dist_of_sums x1 x1 i j

/-- The pair's last stage is its statistic. -/
theorem stat_tt (x1 : (⟨S8192x256, .f32⟩ : BufTy).Contents (Elt Ideal)) (i : S_.Idx) :
    val_main_v55 (F := Ideal) x1 i = MmdSpec.plainStat x1 x1 := by
  rw [val_main_v55_apply, val_main_v48_apply, val_main_cst_15_apply, val_main_v47_apply, val_main_v46_apply, val_main_cst_13_apply,
    val_main_cst_14_apply, val_main_v54_apply, val_main_v53_apply, val_main_cst_17_apply, val_main_cst_18_apply]
  simp only [Ideal.ofBits_def, Ideal.addf_def, Ideal.hostDivf_def]
  exact stat_of_dist x1 x1 (val_main_v41 (F := Ideal) x1) (val_main_v45 (F := Ideal) x1) (val_main_v52 (F := Ideal) x1)
    (dist_tt x1)
    (fun a => by
      rw [val_main_v45_apply, val_main_v44_apply, val_main_v43_apply, val_main_cst_12_apply, val_main_v42_apply]
      rfl)
    (fun a => by
      rw [val_main_v52_apply, val_main_v51_apply, val_main_v50_apply, val_main_cst_16_apply, val_main_v49_apply]
      rfl)

/-! ## The first cloud against the second -/

/-- The stage holding the squared distances, read at (i, j): the row norm of `x0` at i, the row norm of `x1` at j
    (each broadcast across the other axis) and twice the inner product against the transposed cloud. -/
theorem dist_st (x0 x1 : (⟨S8192x256, .f32⟩ : BufTy).Contents (Elt Ideal)) (i j : Fin 8192) :
    val_main_v70 (F := Ideal) x0 x1 (ix2 i j) = MmdSpec.dist2 x0 x1 i j := by
  have e_row : ∀ k : Fin 256, idx_main_v58 (idx_main_v63 (idx_main_v65 (ix2 i j))) k = ix2 i k := fun k =>
    funext fun a => Fin.ext (by match a with | ⟨0, _⟩ => rfl | ⟨1, _⟩ => rfl)
  have e_col : ∀ k : Fin 256, idx_main_v60 (idx_main_v64 (idx_main_v66 (ix2 i j))) k = ix2 j k := fun k =>
    funext fun a => Fin.ext (by match a with | ⟨0, _⟩ => rfl | ⟨1, _⟩ => rfl)
  have e_l : ∀ k : Fin 256, lidx_main_v62 (ix2 i j) k = ix2 i k := fun k =>
    funext fun a => Fin.ext (by match a with | ⟨0, _⟩ => rfl | ⟨1, _⟩ => rfl)
  have e_r : ∀ k : Fin 256, idx_main_v61 (ridx_main_v62 (ix2 i j) k) = ix2 j k := fun k =>
    funext fun a => Fin.ext (by match a with | ⟨0, _⟩ => rfl | ⟨1, _⟩ => rfl)
  rw [val_main_v70_apply, val_main_v67_apply, val_main_v65_apply, val_main_v63_apply, val_main_v58_apply, val_main_v66_apply,
    val_main_v64_apply, val_main_v60_apply, val_main_v69_apply, val_main_v68_apply, val_main_cst_21_apply, val_main_v62_apply]
  simp only [val_main_v57_apply, val_main_v59_apply, val_main_v61_apply, val_main_cst_19_apply, val_main_cst_20_apply,
    Ideal.ofBits_def, Ideal.addf_def, Ideal.subf_def, Ideal.mulf_def, e_row, e_col, e_l, e_r]
  exact dist_of_sums x0 x1 i j

/-- The pair's last stage is its statistic. -/
theorem stat_st (x0 x1 : (⟨S8192x256, .f32⟩ : BufTy).Contents (Elt Ideal)) (i : S_.Idx) :
    val_main_v84 (F := Ideal) x0 x1 i = MmdSpec.plainStat x0 x1 := by
  rw [val_main_v84_apply, val_main_v77_apply, val_main_cst_25_apply, val_main_v76_apply, val_main_v75_apply, val_main_cst_23_apply,
    val_main_cst_24_apply, val_main_v83_apply, val_main_v82_apply, val_main_cst_27_apply, val_main_cst_28_apply]
  simp only [Ideal.ofBits_def, Ideal.addf_def, Ideal.hostDivf_def]
  exact stat_of_dist x0 x1 (val_main_v70 (F := Ideal) x0 x1) (val_main_v74 (F := Ideal) x0 x1) (val_main_v81 (F := Ideal) x0 x1)
    (dist_st x0 x1)
    (fun a => by
      rw [val_main_v74_apply, val_main_v73_apply, val_main_v72_apply, val_main_cst_22_apply, val_main_v71_apply]
      rfl)
    (fun a => by
      rw [val_main_v81_apply, val_main_v80_apply, val_main_v79_apply, val_main_cst_26_apply, val_main_v78_apply]
      rfl)

/-! ## The result -/

/-- The reference's result is stat(s, s) + stat(t, t) − 2·stat(s, t) in the plain arrangement. -/
theorem reference_is_plain (x0 x1 : (⟨S8192x256, .f32⟩ : BufTy).Contents (Elt Ideal)) :
    val_main_v86 (F := Ideal) x0 x1 = fun _ => MmdSpec.plainResult x0 x1 := by
  funext i
  rw [val_main_v86_apply, val_main_v56_apply, val_main_v85_apply, val_main_cst_29_apply, stat_ss, stat_tt, stat_st]
  rfl

end Cert.MmdRef

end
-- ==== Proof.Algebra.lean ====
/-
  The streamed arrangement of the statistic equals the plain one.

  Three facts carry it. (1) Re-blocking: the 8192 columns are the 128 blocks of 64 consecutive columns, so a sum over
  blocks and places within a block is the sum over all columns; sums of extended reals commute and re-associate freely.
  (2) On the diagonal of a cloud against itself the expanded squared distance |x_i|² + |x_i|² − 2·⟨x_i, x_i⟩ is 0 when
  the coordinates are real numbers, which is the value the streamed arrangement takes there outright. (3) The sums of
  exponentials are nonnegative, and multiplication of extended reals distributes over a sum of nonnegatives, so
  dividing the sum of the two widths' totals by 2²⁶ is adding the two quotients.
-/
import proofs.«136964_j73426760892841_1_alg».proof.Proof.Spec
import Mathlib.Data.EReal.Operations
import Mathlib.Logic.Equiv.Fin.Basic
import Mathlib.Algebra.BigOperators.Fin

noncomputable section

namespace Cert.MmdSpec

open Idealize.ShloMosaic Idealize.ShloMosaic.ValueIdx

/-! ## The words 2.0 and 2²⁶ as real numbers -/

theorem two_eq : two = ((2 : ℝ) : EReal) := by
  simp [two, Ideal.ofBits, Ideal.ieee, -EReal.coe_mul]; norm_num

theorem count_eq : count = ((67108864 : ℝ) : EReal) := by
  simp [count, Ideal.ofBits, Ideal.ieee, -EReal.coe_mul]; norm_num

/-! ## Small facts about extended reals -/

/-- The coercion of a finite sum of reals is the sum of the coercions. -/
theorem coe_sum {ι : Type*} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The exponential is nonnegative everywhere: 0 at −∞, +∞ at +∞, positive at a real. -/
theorem idealExp_nonneg (x : EReal) : 0 ≤ Ideal.exp x := by
  induction x using EReal.rec with
  | bot => rw [Ideal.exp_bot]
  | coe r => rw [Ideal.exp_coe]; exact_mod_cast (Real.exp_pos r).le
  | top => rw [Ideal.exp_top]; exact le_top

/-- Dividing a sum of two nonnegatives by 2²⁶ is adding the quotients. -/
theorem div_count_add {a b : EReal} (ha : 0 ≤ a) (hb : 0 ≤ b) :
    Ideal.div (a + b) count = Ideal.div a count + Ideal.div b count := by
  have h : (67108864 : ℝ) ≠ 0 := by norm_num
  rw [count_eq, Ideal.div_coe h, Ideal.div_coe h, Ideal.div_coe h]
  exact EReal.right_distrib_of_nonneg ha hb

/-! ## Blocks of columns -/

/-- The column that place `j` of block `n` holds: 64·n + j. -/
def col (n : Fin 128) (j : Fin 64) : Fin 8192 :=
  ⟨64 * n.val + j.val, by have := n.isLt; have := j.isLt; omega⟩

/-- The 8192 columns are the 128 blocks of 64 consecutive ones. -/
theorem sum_cols {M : Type*} [AddCommMonoid M] (g : Fin 8192 → M) :
    ∑ n : Fin 128, ∑ j : Fin 64, g (col n j) = ∑ J : Fin 8192, g J := by
  refine (Fintype.sum_prod_type' (fun (n : Fin 128) (j : Fin 64) => g (col n j))).symm.trans ?_
  refine Fintype.sum_equiv (finProdFinEquiv (m := 128) (n := 64)) _ g (fun p => congrArg g (Fin.ext ?_))
  show 64 * p.1.val + p.2.val = p.2.val + 64 * p.1.val
  omega

/-- A block's squared norms and inner products are the cloud's at the block's columns. -/
theorem sqB_rowsOf (y : Pts) (n : Fin 128) (j : Fin 64) : sqB (rowsOf y n) j = sq y (col n j) := rfl

theorem dotB_rowsOf (x y : Pts) (n : Fin 128) (i : Fin 8192) (j : Fin 64) :
    dotB x (rowsOf y n) i j = dot x y i (col n j) := rfl

/-! ## The squared distance the streamed arrangement uses -/

/-- Two different clouds: the block's distance is the expanded squared distance at the block's column. -/
theorem blockDist_false (n : Fin 128) (x y : Pts) (i : Fin 8192) (j : Fin 64) :
    blockDist false n.val x (rowsOf y n) i j = dist2 x y i (col n j) := by
  unfold blockDist
  rw [if_neg (fun h => Bool.false_ne_true h.1)]
  rfl

/-- |x_i|² is a real number when the coordinates are. -/
theorem sq_real (x : Pts) (hx : Finite x) (i : Fin 8192) : ∃ r : ℝ, sq x i = (r : EReal) := by
  choose f hf using hx
  refine ⟨∑ k : Fin 256, f (ix2 i k) * f (ix2 i k), ?_⟩
  rw [coe_sum]
  exact Finset.sum_congr rfl fun k _ => by rw [hf, EReal.coe_mul]

/-- The expanded squared distance of a point to itself is 0 when its coordinates are real: a + a − 2·a = 0. -/
theorem dist2_self (x : Pts) (hx : Finite x) (i : Fin 8192) : dist2 x x i i = 0 := by
  obtain ⟨r, hr⟩ := sq_real x hx i
  show (sq x i + sq x i) - two * sq x i = 0
  rw [hr, two_eq]
  norm_cast
  ring

/-- A cloud against itself: the block's distance is the expanded squared distance, on the diagonal too. -/
theorem blockDist_true (n : Fin 128) (x : Pts) (hx : Finite x) (i : Fin 8192) (j : Fin 64) :
    blockDist true n.val x (rowsOf x n) i j = dist2 x x i (col n j) := by
  unfold blockDist
  by_cases h : i.val = 64 * n.val + j.val
  · rw [if_pos ⟨rfl, h⟩]
    have hij : col n j = i := Fin.ext h.symm
    rw [hij]
    exact (dist2_self x hx i).symm
  · rw [if_neg (fun hh => h hh.2)]
    rfl

/-! ## The sums -/

/-- exp(−d(i, J)/w). -/
def kexp (x y : Pts) (w : EReal) (i J : Fin 8192) : EReal := Ideal.exp (Ideal.div (-(dist2 x y i J)) w)

theorem kexp_nonneg (x y : Pts) (w : EReal) (i J : Fin 8192) : 0 ≤ kexp x y w i J := idealExp_nonneg _

theorem term_eq (d : EReal) :
    term d = Ideal.exp (Ideal.div (-d) one) + Ideal.exp (Ideal.div (-d) two) := by
  unfold term; rw [zero_sub]

/-- The blocks' contributions added are the two widths' totals over all pairs added. -/
theorem sum_blockSum (self : Bool) (x y : Pts)
    (hd : ∀ (n : Fin 128) (i : Fin 8192) (j : Fin 64), blockDist self n.val x (rowsOf y n) i j = dist2 x y i (col n j)) :
    ∑ n : Fin 128, blockSum self n.val x (rowsOf y n)
      = (∑ i : Fin 8192, ∑ J : Fin 8192, kexp x y one i J) + ∑ i : Fin 8192, ∑ J : Fin 8192, kexp x y two i J := by
  have h1 : ∀ n : Fin 128, blockSum self n.val x (rowsOf y n)
      = ∑ i : Fin 8192, ∑ j : Fin 64, (kexp x y one i (col n j) + kexp x y two i (col n j)) := by
    intro n
    unfold blockSum
    refine Finset.sum_congr rfl fun i _ => Finset.sum_congr rfl fun j _ => ?_
    rw [hd, term_eq]
    rfl
  calc ∑ n : Fin 128, blockSum self n.val x (rowsOf y n)
      = ∑ n : Fin 128, ∑ i : Fin 8192, ∑ j : Fin 64, (kexp x y one i (col n j) + kexp x y two i (col n j)) :=
        Finset.sum_congr rfl fun n _ => h1 n
    _ = ∑ i : Fin 8192, ∑ n : Fin 128, ∑ j : Fin 64, (kexp x y one i (col n j) + kexp x y two i (col n j)) :=
        Finset.sum_comm
    _ = ∑ i : Fin 8192, ∑ J : Fin 8192, (kexp x y one i J + kexp x y two i J) :=
        Finset.sum_congr rfl fun i _ => sum_cols (fun J => kexp x y one i J + kexp x y two i J)
    _ = ∑ i : Fin 8192, ((∑ J : Fin 8192, kexp x y one i J) + ∑ J : Fin 8192, kexp x y two i J) :=
        Finset.sum_congr rfl fun i _ => Finset.sum_add_distrib
    _ = (∑ i : Fin 8192, ∑ J : Fin 8192, kexp x y one i J) + ∑ i : Fin 8192, ∑ J : Fin 8192, kexp x y two i J :=
        Finset.sum_add_distrib

/-- A pair's streamed statistic is its plain one, once the block's distance is the expanded squared distance. -/
theorem streamStat_eq (self : Bool) (x y : Pts)
    (hd : ∀ (n : Fin 128) (i : Fin 8192) (j : Fin 64), blockDist self n.val x (rowsOf y n) i j = dist2 x y i (col n j)) :
    streamStat self x y = plainStat x y := by
  unfold streamStat
  rw [sum_blockSum self x y hd]
  exact div_count_add
    (Finset.sum_nonneg fun i _ => Finset.sum_nonneg fun J _ => kexp_nonneg x y one i J)
    (Finset.sum_nonneg fun i _ => Finset.sum_nonneg fun J _ => kexp_nonneg x y two i J)

/-- The streamed result is the plain result on clouds of real coordinates. -/
theorem stream_eq_plain (s t : Pts) (hs : Finite s) (ht : Finite t) : streamResult s t = plainResult s t := by
  unfold streamResult plainResult
  rw [streamStat_eq true s s (fun n i j => blockDist_true n s hs i j),
    streamStat_eq true t t (fun n i j => blockDist_true n t ht i j),
    streamStat_eq false s t (fun n i j => blockDist_false n s t i j)]

end Cert.MmdSpec

end
-- ==== Proof.LibFiniteEntry.lean ====
/-
  An entry that passes the test "its absolute value is below +∞" is a real number.

  A finiteness precondition prints, per float array, as: every entry's absolute value compares below the word of `+∞`.
  On the extended reals the absolute value is `max a (−a)`, the word `0x7F800000` denotes `⊤`, and `max a (−a) < ⊤`
  excludes both `⊤` and `⊥`: the entry is a real number (`real_of_abs_lt_top`). The all-true test over a whole array
  reduces to one index of a rank-0 result, which has a single index (the `Subsingleton` instance).
-/
import Idealize.ShloMosaic.PureOps.Ideal
import Idealize.ShloMosaic.PureOps.Ideal.Laws

noncomputable section

namespace Cert.FiniteEntry

open Idealize.ShloMosaic

/-- The f32 word of `+∞` denotes `⊤`. -/
theorem ofBits_inf : Ideal.ofBits .f32 0x7F800000#32 = (⊤ : EReal) := by
  simp [Ideal.ofBits, Ideal.ieee]

/-- An extended real whose absolute value compares below `+∞` is a real number. -/
theorem real_of_abs_lt_top (a : EReal)
    (h : FloatOps.cmpf (F := Ideal) (φ := .f32) .olt (FloatOps.absf (F := Ideal) (φ := .f32) a)
      (FloatOps.ofBits (F := Ideal) .f32 0x7F800000#32) = 1#1) :
    ∃ r : ℝ, a = (r : EReal) := by
  rw [Ideal.cmpf_def, Ideal.absf_def, Ideal.ofBits_def, ofBits_inf] at h
  have hlt : max a (-a) < ⊤ := by
    by_contra hn
    simp [Ideal.cmp, hn] at h
  induction a using EReal.rec with
  | bot => simp at hlt
  | top => simp at hlt
  | coe r => exact ⟨r, rfl⟩

/-- A rank-0 array has one index. -/
instance : Subsingleton (⟨0, ![]⟩ : Shape).Idx := ⟨fun a b => funext fun d => d.elim0⟩

end Cert.FiniteEntry

end
-- ==== Proof.FiniteInputs.lean ====
/-
  From the finiteness precondition to real entries.

  The precondition is printed as a program: for each of the two clouds, take the absolute value of every entry,
  compare it below the word of +∞, and fold the 8192 × 256 truth values by `and` from the constant true; the two
  folds are joined by a last `and`, and the claim assumes that the one resulting truth value is 1. Read
  backwards: both folds are 1; a fold by `and` that is 1 met a 1 at every index; so every entry of either cloud has
  an absolute value below +∞, and such an extended real is a real number.
-/
import proofs.«136964_j73426760892841_1_alg».proof.Defs
import proofs.«136964_j73426760892841_1_alg».proof.Proof.Spec
import proofs.«136964_j73426760892841_1_alg».proof.Proof.LibFiniteEntry
import Idealize.ShloMosaic.Lib.ReduceAll

noncomputable section

namespace Cert.MmdFinite

open Idealize.ShloMosaic Idealize.SL.Sem Idealize.ShloMosaic.ValueIdx

/-- One cloud: if the fold by `and` of the tests "|entry| is below +∞" is 1, every entry is a real number. -/
theorem finite_of_all [hP : Cert.Pre_finite_inputs.Facts] (x : FVec Ideal Cert.Pre_finite_inputs.S8192x256 .f32)
    (init : IVec Cert.Pre_finite_inputs.S_ 1) (j : Cert.Pre_finite_inputs.S_.Idx)
    (e : Host.reduce IntOp.andi
        (cmpf .olt (Host.absf x)
          (broadcastInDim Cert.Pre_finite_inputs.S8192x256 ![] hP.bcast_S_S8192x256
            (constant (F := Ideal) Cert.Pre_finite_inputs.S_ .f32 0x7F800000#32)))
        init hP.reducesTo_S8192x256_S_d0_1 hP.h_S_ j = 1#1) :
    Cert.MmdSpec.Finite x := fun a =>
  Cert.FiniteEntry.real_of_abs_lt_top (x a) (Host.reduce_andi_all _ init _ _ j e a)

/-- Both clouds of a memory that satisfies the precondition have real entries only. -/
theorem finite_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.MmdSpec.Finite (m ((c.tc : Thread Cert.KernelIdeal.nD Cert.KernelIdeal.τ).loc Cert.KernelIdeal.main_arg0))
      ∧ Cert.MmdSpec.Finite (m ((c.tc : Thread Cert.KernelIdeal.nD Cert.KernelIdeal.τ).loc Cert.KernelIdeal.main_arg1)) := by
  have e := congrFun (h c) ValueIdx.ix0
  dsimp only [Cert.Pre_finite_inputs.fn] at e
  obtain ⟨e0, e1⟩ := IntOp.andi_eq_one.1 e
  exact ⟨finite_of_all _ _ _ e0, finite_of_all _ _ _ e1⟩

end Cert.MmdFinite

end
-- ==== Proof.lean ====
/-
  The claim: the MK-MMD statistic stat(s, s) + stat(t, t) − 2·stat(s, t) of two clouds of 8192 points in dimension 256,
  computed by three launches of a streaming kernel and by plain array operations, is one number at the ideal instance
  whenever the inputs are finite.

  Both sides take squared distances by the expansion |x|² + |y|² − 2⟨x, y⟩ and average exp(−d/1) + exp(−d/2) over all
  pairs. The kernel walks the second cloud in 128 blocks of 64 rows, adds both exponentials over a whole block,
  accumulates the blocks in a (1,1) buffer that it resets at the first grid point and writes back at the last, and
  divides once by 2²⁶; against itself it takes the diagonal distance to be 0. The reference takes the two means
  separately. The two agree because a sum may be cut into blocks and regrouped, division by 2²⁶ distributes over a sum
  of non-negative terms, and for a finite row |x|² + |x|² − 2|x|² is 0 — the one place finiteness is used.

  Each program also runs to the end without a fault and leaves its arguments as launched: for the kernel, launch by
  launch, the body run once per control case (the reset at the first point, the accumulation after it) and the two self
  launches reading one array through two windows at the two halves of its share.
-/
import proofs.«136964_j73426760892841_1_alg».proof.Defs
import proofs.«136964_j73426760892841_1_alg».proof.Proof.Gen.Kernel
import proofs.«136964_j73426760892841_1_alg».proof.Proof.Gen.KernelIdeal
import proofs.«136964_j73426760892841_1_alg».proof.Proof.Gen.ReferenceIdeal
import proofs.«136964_j73426760892841_1_alg».proof.Proof.Gen.ReferenceIdeal.Run
import proofs.«136964_j73426760892841_1_alg».proof.Proof.Gen.ReferenceIdeal.Read
import proofs.«136964_j73426760892841_1_alg».proof.Proof.Gen.Pre_finite_inputs
import proofs.«136964_j73426760892841_1_alg».proof.Proof.KBLaunch
import proofs.«136964_j73426760892841_1_alg».proof.Proof.KILaunch
import proofs.«136964_j73426760892841_1_alg».proof.Proof.KIFinal
import proofs.«136964_j73426760892841_1_alg».proof.Proof.RefSide
import proofs.«136964_j73426760892841_1_alg».proof.Proof.Algebra
import proofs.«136964_j73426760892841_1_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the two clouds, both runs end with the same number: the kernel's result is the streamed
    arrangement of the statistic, the reference's the plain one, and on finite clouds the two arrangements agree. -/
theorem algebraic : Cert.algebraic_KernelIdeal_ReferenceIdeal := by
  intro m ρ m' ρ' hpre hagree
  refine ⟨fun c => Cert.KernelIdeal.Hand.W6 (F := Ideal) m ρ c Cert.KernelIdeal.main_v11,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hs, ht⟩ := Cert.MmdFinite.finite_of_pre m hpre c
  rw [Cert.ReferenceIdeal.Read.val_main_v86_eq, Cert.MmdRef.reference_is_plain, (hagree c).1, (hagree c).2,
    ← Cert.MmdSpec.stream_eq_plain _ _ hs ht]
  exact (Cert.KernelIdeal.Final.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
